-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_

variable [Facts]

def fn_part1 {F : FTy → Type} [FloatOps F] (main_arg5 : FVec F S256 .f32) (main_arg6 : FVec F S256x128 .f32) (main_arg7 : FVec F S128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x256 .f32) (main_arg5 : FVec F S256 .f32) (main_arg6 : FVec F S256x128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x256 : Shape := ⟨2, ![1, 256]⟩
abbrev S50x1x128 : Shape := ⟨3, ![50, 1, 128]⟩
abbrev S50x64x64 : Shape := ⟨3, ![50, 64, 64]⟩
abbrev S2000x128 : Shape := ⟨2, ![2000, 128]⟩
abbrev S2000x1 : Shape := ⟨2, ![2000, 1]⟩
abbrev S1x1x128 : Shape := ⟨3, ![1, 1, 128]⟩
abbrev S1x64x64 : Shape := ⟨3, ![1, 64, 64]⟩
abbrev S2000x256 : Shape := ⟨2, ![2000, 256]⟩
abbrev S2000x64 : Shape := ⟨2, ![2000, 64]⟩
abbrev S64 : Shape := ⟨1, ![64]⟩
abbrev S1x64 : Shape := ⟨2, ![1, 64]⟩
abbrev S1x128 : Shape := ⟨2, ![1, 128]⟩
abbrev S64x64 : Shape := ⟨2, ![64, 64]⟩
abbrev S1600000x128 : Shape := ⟨2, ![1600000, 128]⟩
abbrev S64x128 : Shape := ⟨2, ![64, 128]⟩

abbrev nBuf : Space → Nat
  | .hbm => 61
  | .vmem => 29
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S100000x1, .f32⟩
  | .hbm, ⟨23, _⟩ => ⟨S1x256, .f32⟩
  | .hbm, ⟨24, _⟩ => ⟨S100000x128, .f32⟩
  | .hbm, ⟨25, _⟩ => ⟨S100000x128, .bf16⟩
  | .hbm, ⟨26, _⟩ => ⟨S50x1x128, .f32⟩
  | .hbm, ⟨27, _⟩ => ⟨S50x64x64, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x128, .f32⟩
  | .hbm, ⟨37, _⟩ => ⟨S_, .f32⟩
  | .hbm, ⟨38, _⟩ => ⟨S100000x128, .f32⟩
  | .hbm, ⟨39, _⟩ => ⟨S1600000x1, .i32⟩
  | .hbm, ⟨40, _⟩ => ⟨S100000x128, .f32⟩
  | .hbm, ⟨41, _⟩ => ⟨S_, .f32⟩
  | .hbm, ⟨42, _⟩ => ⟨S1x128, .f32⟩
  | .hbm, ⟨43, _⟩ => ⟨S128, .f32⟩
  | .hbm, ⟨44, _⟩ => ⟨S_, .f32⟩
  | .hbm, ⟨45, _⟩ => ⟨S64x64, .f32⟩
  | .hbm, ⟨46, _⟩ => ⟨S64, .f32⟩
  | .hbm, ⟨47, _⟩ => ⟨S64, .f32⟩
  | .hbm, ⟨48, _⟩ => ⟨S_, .f32⟩
  | .hbm, ⟨49, _⟩ => ⟨S64, .f32⟩
  | .hbm, ⟨50, _⟩ => ⟨S64, .f32⟩
  | .hbm, ⟨51, _⟩ => ⟨S64, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S64x64, .f32⟩
  | .hbm, ⟨57, _⟩ => ⟨S64x64, .f32⟩
  | .hbm, ⟨58, _⟩ => ⟨S1x128, .f32⟩
  | .hbm, ⟨59, _⟩ => ⟨S1x128, .f32⟩
  | .hbm, ⟨60, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S128x128, .f32⟩
  | .local _ .vmem, ⟨5, _⟩ => ⟨S128x256, .f32⟩
  | .local _ .vmem, ⟨6, _⟩ => ⟨S1x256, .f32⟩
  | .local _ .vmem, ⟨7, _⟩ => ⟨S2000x128, .f32⟩
  | .local _ .vmem, ⟨8, _⟩ => ⟨S2000x128, .f32⟩
  | .local _ .vmem, ⟨9, _⟩ => ⟨S2000x128, .bf16⟩
  | .local _ .vmem, ⟨10, _⟩ => ⟨S2000x128, .bf16⟩
  | .local _ .vmem, ⟨11, _⟩ => ⟨S1x1x128, .f32⟩
  | .local _ .vmem, ⟨12, _⟩ => ⟨S1x1x128, .f32⟩
  | .local _ .vmem, ⟨13, _⟩ => ⟨S1x64x64, .f32⟩
  | .local _ .vmem, ⟨14, _⟩ => ⟨S1x64x64, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x1, .f32⟩
  | .local _ .vmem, ⟨20, _⟩ => ⟨S2000x1, .f32⟩
  | .local _ .vmem, ⟨21, _⟩ => ⟨S1x128, .f32⟩
  | .local _ .vmem, ⟨22, _⟩ => ⟨S2000x128, .bf16⟩
  | .local _ .vmem, ⟨23, _⟩ => ⟨S2000x128, .bf16⟩
  | .local _ .vmem, ⟨24, _⟩ => ⟨S64x64, .f32⟩
  | .local _ .vmem, ⟨25, _⟩ => ⟨S256x128, .f32⟩
  | .local _ .vmem, ⟨26, _⟩ => ⟨S1x128, .f32⟩
  | .local _ .vmem, ⟨27, _⟩ => ⟨S2000x128, .f32⟩
  | .local _ .vmem, ⟨28, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13_0 : Ref sig .tc := ⟨.hbm, 24, rfl⟩
abbrev main_v13_1 : Ref sig .tc := ⟨.hbm, 25, rfl⟩
abbrev main_v13_2 : Ref sig .tc := ⟨.hbm, 26, rfl⟩
abbrev main_v13_3 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_cst_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_7 : Ref sig .tc := ⟨.hbm, 52, rfl⟩
abbrev main_v32 : Ref sig .tc := ⟨.hbm, 53, rfl⟩
abbrev main_cst_8 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg8_0 : Ref sig .tc := ⟨.vmem, 27, rfl⟩
abbrev cc1_stg8_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem4_0 : DmaSem sig := 22
abbrev cc1_sem4_1 : DmaSem sig := 23
abbrev cc1_sem5_0 : DmaSem sig := 24
abbrev cc1_sem6_0 : DmaSem sig := 25
abbrev cc1_sem7_0 : DmaSem sig := 26
abbrev cc1_sem8_0 : DmaSem sig := 27
abbrev cc1_sem8_1 : DmaSem sig := 28

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x64x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  slices_S2000x256_o0_0_S2000x64 : S2000x256.Slices ![0, 0] S2000x64
  slices_S2000x256_o0_64_S2000x64 : S2000x256.Slices ![0, 64] S2000x64
  slices_S2000x256_o0_128_S2000x64 : S2000x256.Slices ![0, 128] S2000x64
  slices_S2000x256_o0_192_S2000x64 : S2000x256.Slices ![0, 192] S2000x64
  concatenates_S2000x64_S2000x64_S2000x128_d1 : Shape.Concatenates [S2000x64, S2000x64] S2000x128 1
  packedbf16_S2000x128_S2000x128_0_0 : (Rect.unit (s := S2000x128) ![0, 0] S2000x128.size inb_S2000x128_S2000x128_0_0).PackedRows (EltTy.packing .bf16)
  reduces_S2000x64_S64 : S2000x64.Reduces [0] S64
  shapeCasts_S64_S1x64 : S64.ShapeCasts S1x64
  concatenates_S1x64_S1x64_S1x128_d1 : Shape.Concatenates [S1x64, S1x64] S1x128 1
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  shapeCasts_S64x64_S1x64x64 : S64x64.ShapeCasts S1x64x64
  inb_S1x64x64_S1x64x64_0_0_0 : ∀ a, (![0, 0, 0] : Fin 3 → Nat) a + S1x64x64.size a ≤ S1x64x64.size a
  h_S1x64x64 : 0 < S1x64x64.numel
  bcast_S_S100000x128 : S_.BroadcastsInDim S100000x128 (![] : Fin 0 → Fin S100000x128.rank)
  reducesTo_S50x1x128_S1x128_d0 : S50x1x128.ReducesTo [0] S1x128
  h_S_ : 0 < S_.numel
  shapeCasts_S1x128_S128 : S1x128.ShapeCasts S128
  reducesTo_S50x64x64_S64x64_d0 : S50x64x64.ReducesTo [0] S64x64
  slices_S128_S64_0 : S128.Slices ![0] S64
  slices_S128_S64_64 : S128.Slices ![64] S64
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S2000x128_o0_0_S2000x64 : S2000x128.Slices ![0, 0] S2000x64
  slices_S2000x128_o0_64_S2000x64 : S2000x128.Slices ![0, 64] S2000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S256x128_S256x128_0_0 : ∀ a, (![0, 0] : Fin 2 → Nat) a + S256x128.size a ≤ S256x128.size a
  h_S256x128 : 0 < S256x128.numel
  slices_S256x128_o0_0_S128x128 : S256x128.Slices ![0, 0] S128x128
  slices_S256x128_o128_0_S64x128 : S256x128.Slices ![128, 0] S64x128
  slices_S256x128_o192_0_S64x128 : S256x128.Slices ![192, 0] S64x128
  scatter_S100000_S1600000x1_S1600000_n_0_0_1_wf : ScatterDims.WF S100000 S1600000x1 S1600000 [] [0] [0] 1
  dot_S2000x128_S128x128_S2000x128_1_0_0_1_n_n_wf : DotDims.WF S2000x128 S128x128 S2000x128 [1] [0] [0] [1] [] []
  dot_S2000x128_S128x256_S2000x256_1_0_0_1_n_n_wf : DotDims.WF S2000x128 S128x256 S2000x256 [1] [0] [0] [1] [] []
  dot_S2000x64_S2000x64_S64x64_0_0_1_1_n_n_wf : DotDims.WF S2000x64 S2000x64 S64x64 [0] [0] [1] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x64_S64x64_S2000x64_1_0_0_1_n_n_wf : DotDims.WF S2000x64 S64x64 S2000x64 [1] [0] [0] [1] [] []
  dot_S2000x64_S64x128_S2000x128_1_0_0_1_n_n_wf : DotDims.WF S2000x64 S64x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S100000x128.size a
  hwx0_6 : ∀ i : grid0.Coords, EltTy.bits .bf16 = 32 ∨ (Rect.block (s := S100000x128) S2000x128.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x128.size a ≤ S50x1x128.size a
  hwx0_7 : ∀ i : grid0.Coords, EltTy.bits .f32 = 32 ∨ (Rect.block (s := S50x1x128) S1x1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x64x64.size a ≤ S50x64x64.size a
  hwx0_8 : ∀ i : grid0.Coords, EltTy.bits .f32 = 32 ∨ (Rect.block (s := S50x64x64) S1x64x64.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S100000x128.size a
  hwx1_4 : ∀ i : grid1.Coords, EltTy.bits .bf16 = 32 ∨ (Rect.block (s := S100000x128) S2000x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x128.size a ≤ S256x128.size a
  hwx1_6 : ∀ i : grid1.Coords, EltTy.bits .f32 = 32 ∨ (Rect.block (s := S256x128) S256x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x128.size a ≤ S100000x128.size a
  hwx1_8 : ∀ i : grid1.Coords, EltTy.bits .f32 = 32 ∨ (Rect.block (s := S100000x128) S2000x128.size (cc1_transform_8 i) (hinb1_8 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x64_S2000x64_S64x64_0_0_1_1_n_n : DotDims S2000x64 S2000x64 S64x64 where
  lhsContracting := [0]
  rhsContracting := [0]
  lhsNonContracting := [1]
  rhsNonContracting := [1]
  lhsBatch := []
  rhsBatch := []
  wf := dot_S2000x64_S2000x64_S64x64_0_0_1_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13_0) S2000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v13_1) S2000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v13_2) S1x1x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v13_3) S1x64x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v23) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13_0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v36) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13_1) S2000x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v35) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg6) S256x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v37) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v38) S2000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x256 : Shape := ⟨2, ![100000, 256]⟩
abbrev S1x256 : Shape := ⟨2, ![1, 256]⟩
abbrev S100000x64 : Shape := ⟨2, ![100000, 64]⟩
abbrev S64x100000 : Shape := ⟨2, ![64, 100000]⟩
abbrev S100000x1 : Shape := ⟨2, ![100000, 1]⟩
abbrev S64x1 : Shape := ⟨2, ![64, 1]⟩
abbrev S64x64 : Shape := ⟨2, ![64, 64]⟩

abbrev nBuf : Space → Nat
  | .hbm => 97
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S1700000, .i32⟩
  | .hbm, ⟨24, _⟩ => ⟨S1700000, .i1⟩
  | .hbm, ⟨25, _⟩ => ⟨S_, .i32⟩
  | .hbm, ⟨26, _⟩ => ⟨S1700000, .i32⟩
  | .hbm, ⟨27, _⟩ => ⟨S1700000, .i32⟩
  | .hbm, ⟨28, _⟩ => ⟨S1700000, .i32⟩
  | .hbm, ⟨29, _⟩ => ⟨S1700000x1, .i32⟩
  | .hbm, ⟨30, _⟩ => ⟨S1700000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S1700000, .f32⟩
  | .hbm, ⟨41, _⟩ => ⟨S100000x128, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000x128, .f32⟩
  | .hbm, ⟨51, _⟩ => ⟨S1700000x1, .f32⟩
  | .hbm, ⟨52, _⟩ => ⟨S1700000x128, .f32⟩
  | .hbm, ⟨53, _⟩ => ⟨S1700000x128, .f32⟩
  | .hbm, ⟨54, _⟩ => ⟨S_, .f32⟩
  | .hbm, ⟨55, _⟩ => ⟨S100000x128, .f32⟩
  | .hbm, ⟨56, _⟩ => ⟨S1700000x1, .i32⟩
  | .hbm, ⟨57, _⟩ => ⟨S100000x128, .f32⟩
  | .hbm, ⟨58, _⟩ => ⟨S1x128, .f32⟩
  | .hbm, ⟨59, _⟩ => ⟨S100000x128, .f32⟩
  | .hbm, ⟨60, _⟩ => ⟨S100000x128, .f32⟩
  | .hbm, ⟨61, _⟩ => ⟨S_, .f32⟩
  | .hbm, ⟨62, _⟩ => ⟨S100000x128, .f32⟩
  | .hbm, ⟨63, _⟩ => ⟨S100000x128, .f32⟩
  | .hbm, ⟨64, _⟩ => ⟨S100000x256, .f32⟩
  | .hbm, ⟨65, _⟩ => ⟨S1x256, .f32⟩
  | .hbm, ⟨66, _⟩ => ⟨S100000x256, .f32⟩
  | .hbm, ⟨67, _⟩ => ⟨S100000x256, .f32⟩
  | .hbm, ⟨68, _⟩ => ⟨S_, .f32⟩
  | .hbm, ⟨69, _⟩ => ⟨S100000x256, .f32⟩
  | .hbm, ⟨70, _⟩ => ⟨S100000x256, .f32⟩
  | .hbm, ⟨71, _⟩ => ⟨S100000x64, .f32⟩
  | .hbm, ⟨72, _⟩ => ⟨S100000x64, .f32⟩
  | .hbm, ⟨73, _⟩ => ⟨S100000x64, .f32⟩
  | .hbm, ⟨74, _⟩ => ⟨S100000x64, .f32⟩
  | .hbm, ⟨75, _⟩ => ⟨S64x100000, .f32⟩
  | .hbm, ⟨76, _⟩ => ⟨S_, .f32⟩
  | .hbm, ⟨77, _⟩ => ⟨S100000x1, .f32⟩
  | .hbm, ⟨78, _⟩ => ⟨S64x1, .f32⟩
  | .hbm, ⟨79, _⟩ => ⟨S100000x1, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S64x100000, .f32⟩
  | .hbm, ⟨87, _⟩ => ⟨S64x64, .f32⟩
  | .hbm, ⟨88, _⟩ => ⟨S100000x64, .f32⟩
  | .hbm, ⟨89, _⟩ => ⟨S100000x64, .f32⟩
  | .hbm, ⟨90, _⟩ => ⟨S100000x64, .f32⟩
  | .hbm, ⟨91, _⟩ => ⟨S100000x128, .f32⟩
  | .hbm, ⟨92, _⟩ => ⟨S100000x256, .f32⟩
  | .hbm, ⟨93, _⟩ => ⟨S100000x128, .f32⟩
  | .hbm, ⟨94, _⟩ => ⟨S1x128, .f32⟩
  | .hbm, ⟨95, _⟩ => ⟨S100000x128, .f32⟩
  | .hbm, ⟨96, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_call0_cst : Ref sig .tc := ⟨.hbm, 61, rfl⟩
abbrev main_call0_v0 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_call1_cst : Ref sig .tc := ⟨.hbm, 68, rfl⟩
abbrev main_call1_v0 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_7 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_8 : Ref sig .tc := ⟨.hbm, 80, rfl⟩
abbrev main_v58 : Ref sig .tc := ⟨.hbm, 81, rfl⟩
abbrev main_cst_9 : Ref sig .tc := ⟨.hbm, 82, rfl⟩
abbrev main_v59 : Ref sig .tc := ⟨.hbm, 83, rfl⟩
abbrev main_cst_10 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  slices_S100000x256_S100000x64_0_0 : S100000x256.Slices ![0, 0] S100000x64
  slices_S100000x256_S100000x64_0_64 : S100000x256.Slices ![0, 64] S100000x64
  slices_S100000x256_S100000x64_0_128 : S100000x256.Slices ![0, 128] S100000x64
  slices_S100000x256_S100000x64_0_192 : S100000x256.Slices ![0, 192] S100000x64
  transposes_S100000x64_S64x100000_1_0 : S100000x64.Transposes [1, 0] S64x100000
  bcast_S_S100000x1 : S_.BroadcastsInDim S100000x1 (![] : Fin 0 → Fin S100000x1.rank)
  reducesTo_S100000x1_S_d0_1 : S100000x1.ReducesTo [0, 1] S_
  h_S_ : 0 < S_.numel
  bcast_S_S100000x64 : S_.BroadcastsInDim S100000x64 (![] : Fin 0 → Fin S100000x64.rank)
  concatenates_S100000x64_S100000x64_S100000x128_d1 : Shape.Concatenates [S100000x64, S100000x64] S100000x128 1
  concatenates_S100000x128_S100000x128_S100000x256_d1 : Shape.Concatenates [S100000x128, S100000x128] S100000x256 1
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x256_S100000x256_1_0_0_1_n_n_wf : DotDims.WF S100000x128 S128x256 S100000x256 [1] [0] [0] [1] [] []
  dot_S64x100000_S100000x1_S64x1_1_0_0_1_n_n_wf : DotDims.WF S64x100000 S100000x1 S64x1 [1] [0] [0] [1] [] []
  dot_S100000x64_S64x1_S100000x1_1_0_0_1_n_n_wf : DotDims.WF S100000x64 S64x1 S100000x1 [1] [0] [0] [1] [] []
  dot_S64x100000_S100000x64_S64x64_1_0_0_1_n_n_wf : DotDims.WF S64x100000 S100000x64 S64x64 [1] [0] [0] [1] [] []
  dot_S100000x64_S64x64_S100000x64_1_0_0_1_n_n_wf : DotDims.WF S100000x64 S64x64 S100000x64 [1] [0] [0] [1] [] []
  dot_S100000x256_S256x128_S100000x128_1_0_0_1_n_n_wf : DotDims.WF S100000x256 S256x128 S100000x128 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def dot_S64x100000_S100000x1_S64x1_1_0_0_1_n_n : DotDims S64x100000 S100000x1 S64x1 where
  lhsContracting := [1]
  rhsContracting := [0]
  lhsNonContracting := [0]
  rhsNonContracting := [1]
  lhsBatch := []
  rhsBatch := []
  wf := dot_S64x100000_S100000x1_S64x1_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf
def dot_S64x100000_S100000x64_S64x64_1_0_0_1_n_n : DotDims S64x100000 S100000x64 S64x64 where
  lhsContracting := [1]
  rhsContracting := [0]
  lhsNonContracting := [0]
  rhsNonContracting := [1]
  lhsBatch := []
  rhsBatch := []
  wf := dot_S64x100000_S100000x64_S64x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.RunValue.lean ====
/-
  The tiled program's run with its result named: the same launch of the four segments (host stretch, tiled region, host
  stretch, tiled region) that shows the arguments unchanged, read once more at the result buffer.
-/
import proofs.«109391_j52415780880537_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the tiled program terminates without a fault; its result buffer ends at the contents
    the boundary fold `W4` names (what the second region's write-backs leave), and the eight arguments end as launched. -/
theorem run_value : θ_run defs (onTc (τ := τ) (main (F := F))) ⟨m, fun _ => 0, ρ⟩ (fun r => ∀ c : Dev nD,
      r.2.mem ((c.tc : Thread nD τ).loc main_v38) = W4 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v38 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.RunValue

end
-- ==== Proof.Spec.lean ====
/-
  The mathematics of the two programs, index by index over the extended reals.

  A graph has 100000 nodes with 128 features each and 1600000 directed edges; `EI` holds, for edge `e`, its source
  word (row 0) and its target word (row 1).  A word names a node for an ACCUMULATION when, read as a signed integer, it
  is the node's number (`hits`; any other word is dropped); a word names the row a GATHER reads after a negative word
  is moved up by the node count and the result is clamped into the table (`rowW`).

  Shared by both programs: the projected features `H = X · Wg` and the rectified attention features
  `T = max (X · Wa + ba) 0`, whose four blocks of 64 lanes are `Tu`, `Tv`, `Tz`, `Tt`.

  The tiled program (`…K`) counts the edges into each node, adds one for the self loop, takes the inverse square root
  `dinvK`, scales the projected rows by it BEFORE the edges move them (`hsK`), accumulates the scaled rows along the
  edges (`aggK`), and scales the sum and the node's own scaled row once more (`xlK`).  Its attention statistics are
  sums of 50 tiles of 2000 rows; the normalising scalar multiplies the 64×64 matrix `mK` before the rows meet it.

  The plain program (`…R`) appends one self-loop edge per node to the edge list (1700000 entries), counts over the
  long list, scales each moved row by the product of the two inverse square roots (`normR`), and multiplies the
  attention rows by the normalising scalar after the two products.
-/
import Idealize.ShloMosaic.Lib.ValueIdx
import Idealize.ShloMosaic.PureOps.Ideal
import Idealize.ShloMosaic.PureOps.Ideal.Laws

noncomputable section

namespace Cert.Gcn

open Idealize.ShloMosaic Idealize.ShloMosaic.ValueIdx

/-- The float patterns of one and of the node count, read over the extended reals. -/
def one : EReal := Ideal.ofBits .f32 0x3F800000#32
def big : EReal := Ideal.ofBits .f32 0x47C35000#32

/-- A word moved up by the node count when it is negative. -/
def wrapW (w : BitVec 32) : BitVec 32 := Scalar.select (IntOp.cmpi .slt w 0#32) (IntOp.addi w 100000#32) w

/-- The row of a 100000-row table a gather reads for the word `w`. -/
def rowW (w : BitVec 32) : Fin 100000 := ⟨min (wrapW w).toInt.toNat (100000 - 1), by omega⟩

/-- The word `w` is node `n`'s number, read signed and unclamped. -/
def hits (w : BitVec 32) (n : Fin 100000) : Prop := w.toInt = (n.val : Int)

instance (w : BitVec 32) (n : Fin 100000) : Decidable (hits w n) := by unfold hits; infer_instance

variable (X : FVec Ideal ⟨2, ![100000, 128]⟩ .f32) (EI : IVec ⟨2, ![2, 1600000]⟩ 32)
  (Wg : FVec Ideal ⟨2, ![128, 128]⟩ .f32) (bg : FVec Ideal ⟨1, ![128]⟩ .f32)
  (Wa : FVec Ideal ⟨2, ![128, 256]⟩ .f32) (ba : FVec Ideal ⟨1, ![256]⟩ .f32)
  (Wr : FVec Ideal ⟨2, ![256, 128]⟩ .f32) (br : FVec Ideal ⟨1, ![128]⟩ .f32)

/-- Edge `e`'s source and target words. -/
def srcW (e : Fin 1600000) : BitVec 32 := EI (ix2 (0 : Fin 2) e)
def dstW (e : Fin 1600000) : BitVec 32 := EI (ix2 (1 : Fin 2) e)

/-- The long list: the edges, then node `i`'s self loop at position `1600000 + i`. -/
def srcL (e : Fin 1700000) : BitVec 32 :=
  if h : e.val < 1600000 then srcW EI ⟨e.val, h⟩ else BitVec.ofNat 32 (e.val - 1600000)
def dstL (e : Fin 1700000) : BitVec 32 :=
  if h : e.val < 1600000 then dstW EI ⟨e.val, h⟩ else BitVec.ofNat 32 (e.val - 1600000)

/-- Row `r` of tile `t`. -/
def tileRow (t : Fin 50) (r : Fin 2000) : Fin 100000 := ⟨t.val * 2000 + r.val, by have := t.isLt; have := r.isLt; omega⟩

/-- Lane `k` of block `b` (of four) of the 256 attention lanes. -/
def lane0 (k : Fin 64) : Fin 256 := ⟨k.val, by have := k.isLt; omega⟩
def lane1 (k : Fin 64) : Fin 256 := ⟨64 + k.val, by have := k.isLt; omega⟩
def lane2 (k : Fin 64) : Fin 256 := ⟨128 + k.val, by have := k.isLt; omega⟩
def lane3 (k : Fin 64) : Fin 256 := ⟨192 + k.val, by have := k.isLt; omega⟩

/-- The three row blocks of the 256-row reduction matrix. -/
def rowA (j : Fin 128) : Fin 256 := ⟨j.val, by have := j.isLt; omega⟩
def rowB (k : Fin 64) : Fin 256 := ⟨128 + k.val, by have := k.isLt; omega⟩
def rowC (k : Fin 64) : Fin 256 := ⟨192 + k.val, by have := k.isLt; omega⟩

/-! ## Shared -/

/-- The projected features. -/
def H (n : Fin 100000) (j : Fin 128) : EReal := ∑ k : Fin 128, X (ix2 n k) * Wg (ix2 k j)

/-- The rectified attention features. -/
def T (n : Fin 100000) (q : Fin 256) : EReal := max ((∑ k : Fin 128, X (ix2 n k) * Wa (ix2 k q)) + ba (ix1 q)) 0

/-! ## The tiled program -/

def cntK (n : Fin 100000) : EReal := 0 + ∑ e : Fin 1600000, if hits (dstW EI e) n then one else 0
def dinvK (n : Fin 100000) : EReal := Ideal.rsqrt (cntK EI n + one)
def hsK (n : Fin 100000) (j : Fin 128) : EReal := dinvK EI n * H X Wg n j
def aggK (n : Fin 100000) (j : Fin 128) : EReal :=
  0 + ∑ e : Fin 1600000, if hits (dstW EI e) n then hsK X EI Wg (rowW (srcW EI e)) j else 0
def xlK (n : Fin 100000) (j : Fin 128) : EReal :=
  max (dinvK EI n * (aggK X EI Wg n j + hsK X EI Wg n j) + bg (ix1 j)) 0
/-- Column sums of the first 128 attention lanes, tile by tile. -/
def colK (q : Fin 128) : EReal :=
  0 + ∑ t : Fin 50, ∑ r : Fin 2000, T X Wa ba (tileRow t r) ⟨q.val, by have := q.isLt; omega⟩
def mK (j k : Fin 64) : EReal :=
  0 + ∑ t : Fin 50, ∑ r : Fin 2000, T X Wa ba (tileRow t r) (lane1 j) * T X Wa ba (tileRow t r) (lane2 k)
def sK : EReal :=
  0 + ∑ k : Fin 64, Ideal.div (colK X Wa ba ⟨k.val, by have := k.isLt; omega⟩) big
    * colK X Wa ba ⟨64 + k.val, by have := k.isLt; omega⟩
def dnK : EReal := Ideal.div one (sK X Wa ba)
def msK (j k : Fin 64) : EReal := mK X Wa ba j k * dnK X Wa ba
def resK (n : Fin 100000) (k : Fin 64) : EReal := ∑ j : Fin 64, T X Wa ba n (lane0 j) * msK X Wa ba j k
def outK (n : Fin 100000) (c : Fin 128) : EReal :=
  (((∑ j : Fin 128, xlK X EI Wg bg n j * Wr (ix2 (rowA j) c))
      + ∑ k : Fin 64, resK X Wa ba n k * Wr (ix2 (rowB k) c))
    + ∑ k : Fin 64, T X Wa ba n (lane3 k) * Wr (ix2 (rowC k) c))
  + br (ix1 c)

/-! ## The plain program -/

def degR (n : Fin 100000) : EReal := 0 + ∑ e : Fin 1700000, if hits (dstL EI e) n then one else 0
def dinvR (n : Fin 100000) : EReal := Ideal.rsqrt (degR EI n)
def normR (e : Fin 1700000) : EReal := dinvR EI (rowW (srcL EI e)) * dinvR EI (rowW (dstL EI e))
def aggR (n : Fin 100000) (j : Fin 128) : EReal :=
  0 + ∑ e : Fin 1700000, if hits (dstL EI e) n then H X Wg (rowW (srcL EI e)) j * normR EI e else 0
def xlR (n : Fin 100000) (j : Fin 128) : EReal := max (aggR X EI Wg n j + bg (ix1 j)) 0
def sumvR (k : Fin 64) : EReal := ∑ n : Fin 100000, T X Wa ba n (lane1 k) * one
def meanR : EReal :=
  Ideal.div (0 + ∑ n : Fin 100000, ∑ k : Fin 64, T X Wa ba n (lane0 k) * sumvR X Wa ba k) big
def dR : EReal := Ideal.div one (meanR X Wa ba)
def mR (j k : Fin 64) : EReal := ∑ n : Fin 100000, T X Wa ba n (lane1 j) * T X Wa ba n (lane2 k)
def resR (n : Fin 100000) (k : Fin 64) : EReal := (∑ j : Fin 64, T X Wa ba n (lane0 j) * mR X Wa ba j k) * dR X Wa ba
/-- Row `n` of the concatenated features: 128 local lanes, 64 attention lanes, 64 pass-through lanes. -/
def catR (n : Fin 100000) (q : Fin 256) : EReal :=
  if h : q.val < 128 then xlR X EI Wg bg n ⟨q.val, h⟩
  else if h' : q.val < 192 then resR X Wa ba n ⟨q.val - 128, by omega⟩
  else T X Wa ba n ⟨192 + (q.val - 192), by have := q.isLt; omega⟩
def outR (n : Fin 100000) (c : Fin 128) : EReal :=
  (∑ q : Fin 256, catR X EI Wg bg Wa ba n q * Wr (ix2 q c)) + br (ix1 c)

end Cert.Gcn

end
-- ==== Proof.TileDefs.lean ====
/-
  Typed views of the buffers the two tiled regions read and write, as extended-real arrays, and the rectified
  attention feature read off them: for node `n` and lane `q` it is `max (x[n,·] · Wa[·,q] + ba[q]) 0`, where `x`,
  `Wa` and the bias row `[1,256]` are the contents of their buffers when the first tiled region is entered.
-/
import proofs.«109391_j52415780880537_2_alg».proof.Proof.Gen.KernelIdeal.Frame
import proofs.«109391_j52415780880537_2_alg».proof.Proof.Spec
import Idealize.ShloMosaic.Lib.ValueIdx

noncomputable section

open Idealize.ShloMosaic Idealize.ShloMosaic.TcCoe Idealize.SL.Sem Idealize.ShloMosaic.ValueIdx

namespace Cert.KernelIdeal.Tile

open Cert.KernelIdeal Cert.KernelIdeal.Gen

variable (V : (c : Dev nD) → (b : Ref sig .tc) → Buf (Elt Ideal) ((c : Thread nD τ).loc b))

/-! ## What a region finds -/

/-- The node features `[100000,128]`. -/
abbrev bX (c : Dev nD) : S100000x128.Idx → EReal := V c main_arg0
/-- The inverse-root degree column `[100000,1]`. -/
abbrev bD (c : Dev nD) : S100000x1.Idx → EReal := V c main_v11
/-- The projection matrix `[128,128]`. -/
abbrev bWg (c : Dev nD) : S128x128.Idx → EReal := V c main_arg2
/-- The attention matrix `[128,256]` and its bias row `[1,256]`. -/
abbrev bWa (c : Dev nD) : S128x256.Idx → EReal := V c main_arg4
abbrev bBa (c : Dev nD) : S1x256.Idx → EReal := V c main_v12
/-- The edge-accumulated rows `[100000,128]`, the scaled projection `[100000,128]`, the projection bias row `[1,128]`. -/
abbrev bAgg (c : Dev nD) : S100000x128.Idx → EReal := V c main_v23
abbrev bHs (c : Dev nD) : S100000x128.Idx → EReal := V c main_v13_0
abbrev bBg (c : Dev nD) : S1x128.Idx → EReal := V c main_v36
/-- The kept attention lanes `[100000,128]`, the scaled 64×64 matrix, the reduction matrix `[256,128]`, its bias row. -/
abbrev bUt (c : Dev nD) : S100000x128.Idx → EReal := V c main_v13_1
abbrev bMs (c : Dev nD) : S64x64.Idx → EReal := V c main_v35
abbrev bWr (c : Dev nD) : S256x128.Idx → EReal := V c main_arg6
abbrev bBr (c : Dev nD) : S1x128.Idx → EReal := V c main_v37

/-! ## What a region leaves -/

/-- The four arrays the first tiled region writes, after its last grid point. -/
abbrev oHs (c : Dev nD) : S100000x128.Idx → EReal := (dat0 V c).arrAt 5 cfg0.N
abbrev oUt (c : Dev nD) : S100000x128.Idx → EReal := (dat0 V c).arrAt 6 cfg0.N
abbrev oCol (c : Dev nD) : S50x1x128.Idx → EReal := (dat0 V c).arrAt 7 cfg0.N
abbrev oM (c : Dev nD) : S50x64x64.Idx → EReal := (dat0 V c).arrAt 8 cfg0.N
/-- The array the second tiled region writes, after its last grid point. -/
abbrev oOut (c : Dev nD) : S100000x128.Idx → EReal := (dat1 V c).arrAt 8 cfg1.N

/-- The attention feature of node `n`, lane `q`, from the buffers as the first region finds them. -/
def Tv (c : Dev nD) (n : Fin 100000) (q : Fin 256) : EReal :=
  max ((∑ k : Fin 128, bX V c (ix2 n k) * bWa V c (ix2 k q)) + bBa V c (ix2 (0 : Fin 1) q)) 0

end Cert.KernelIdeal.Tile

end
-- ==== Proof.LibEdgeIndex.lean ====
/-
  Gathers and accumulating scatters whose index array is a column [E, 1] of row numbers, read at an index.

  An index column `idx : [E, 1]` names one row per entry `e` (an edge).  Two readings of it occur:

  * a GATHER takes, for entry `e`, the row `idx[e, 0]` of a table with `N` rows — read signed and clamped into
    `[0, N - 1]` (`rowOf`).  From a vector `[N]` the result is `[E]`, its entry `e` the table at that row; from a
    matrix `[N, D]` the result is `[E, D]`, its entry `(e, j)` the table at that row and column `j`.
  * an ACCUMULATING SCATTER adds, for entry `e`, an update into row `idx[e, 0]` of the operand — read signed and
    NOT clamped: an update whose row is outside `[0, N - 1]` is dropped.  Entry `e` lands on row `n` exactly when
    `idx[e, 0] = n` as integers (`lands`).  Over the extended reals the result at row `n` is the operand there plus
    the sum over the entries that land on `n` of their updates; into a matrix `[N, D]` from updates `[E, D]` the
    update `(e, j')` lands on `(n, j)` exactly when `e` lands on `n` and `j' = j`, so column `j` of the result
    collects column `j` of the updates.

  Stated for any extents, over the dimension records with these dimension numbers; a printed record with the same
  numbers is such a record by unfolding.
-/
import Idealize.ShloMosaic.Lib.ValueIdx
import Idealize.ShloMosaic.PureOps.Ideal
import Idealize.ShloMosaic.PureOps.Ideal.Laws

noncomputable section

namespace Cert.EdgeIndex

open Idealize.ShloMosaic Idealize.ShloMosaic.ValueIdx

variable {α : Type} {N E D w : ℕ}

/-- A sum over a rank-1 index set is the sum over its coordinate. -/
def idxEquiv1 {n : ℕ} : (⟨1, ![n]⟩ : Shape).Idx ≃ Fin n where
  toFun i := i 0
  invFun a := ix1 a
  left_inv i := (eq_ix1 i).symm
  right_inv _ := rfl

theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- The index column's entry for `e`. -/
abbrev at0 (e : Fin E) : (⟨2, ![E, 1]⟩ : Shape).Idx := ix2 e (0 : Fin 1)

/-- The row a gather reads for entry `e`: the column's word read signed, clamped into `[0, N - 1]`. -/
def rowOf (hN : 0 < N) (idx : IVec ⟨2, ![E, 1]⟩ w) (e : Fin E) : Fin N :=
  ⟨min (idx (at0 e)).toInt.toNat (N - 1), by omega⟩

/-- Entry `e` of the index column names row `n`, as integers, with no clamping. -/
def lands (idx : IVec ⟨2, ![E, 1]⟩ w) (e : Fin E) (n : Fin N) : Prop := (idx (at0 e)).toInt = (n.val : Int)

instance (idx : IVec ⟨2, ![E, 1]⟩ w) (e : Fin E) (n : Fin N) : Decidable (lands idx e n) := by
  unfold lands; infer_instance

/-! ## Gathers -/

/-- The dimension numbers of `vector[idx]`: one collapsed axis, the index vector on the column's second axis. -/
abbrev vecGather (N E : ℕ) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- `vector[idx]` at entry `e`: the vector at the clamped row. -/
theorem vecGather_apply (hN : 0 < N) (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e) = x (ix1 (rowOf hN idx e)) := by
  unfold Host.gather
  congr 1
  funext a
  obtain rfl : a = 0 := Subsingleton.elim _ _
  refine Fin.ext ?_
  show (vecGather N E wf).start (ix1 e) idx 0 + (vecGather N E wf).batchCoord (ix1 e) 0 + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = at0 e := by
    funext b; refine Fin.ext ?_
    match b with
    | ⟨0, _⟩ => rfl
    | ⟨1, _⟩ => rfl
  rw [hsi]
  rfl

/-- The dimension numbers of `matrix[idx]` (whole rows): the row axis collapsed, the column axis an offset axis. -/
abbrev rowGather (N D E : ℕ) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- `matrix[idx]` at entry `(e, j)`: the matrix at the clamped row, column `j`. -/
theorem rowGather_apply (hN : 0 < N) (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (rowGather N D E wf) x idx (ix2 e j) = x (ix2 (rowOf hN idx e) j) := by
  unfold Host.gather
  congr 1
  have h0 : ((rowGather N D E wf).operandIdx (ix2 e j) idx (0 : Fin 2)).val = (rowOf hN idx e).val := by
    show (rowGather N D E wf).start (ix2 e j) idx (0 : Fin 2) + (rowGather N D E wf).batchCoord (ix2 e j) (0 : Fin 2)
      + (rowGather N D E wf).offCoord (ix2 e j) (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N D E wf).startIndexMap from List.mem_singleton.mpr rfl)]
    have hsi : (rowGather N D E wf).siIdx (ix2 e j) ⟨List.idxOf (0 : Fin 2) (rowGather N D E wf).startIndexMap,
        List.idxOf_lt_length_iff.2 (List.mem_singleton.mpr rfl)⟩ = at0 e := by
      funext b; refine Fin.ext ?_
      match b with
      | ⟨0, _⟩ => rfl
      | ⟨1, _⟩ => rfl
    rw [hsi]
    rfl
  have h1 : ((rowGather N D E wf).operandIdx (ix2 e j) idx (1 : Fin 2)).val = j.val := by
    show (rowGather N D E wf).start (ix2 e j) idx (1 : Fin 2) + (rowGather N D E wf).batchCoord (ix2 e j) (1 : Fin 2)
      + (rowGather N D E wf).offCoord (ix2 e j) (1 : Fin 2) = _
    rw [GatherDims.batchCoord_eq_zero _ _ _ List.not_mem_nil]
    have hs : (rowGather N D E wf).start (ix2 e j) idx (1 : Fin 2) = 0 := by
      unfold GatherDims.start
      split
      · rename_i h
        exact ((by decide : ¬ (1 : Fin 2) ∈ ([0] : List (Fin 2))) h).elim
      · rfl
    have ho : (rowGather N D E wf).offCoord (ix2 e j) (1 : Fin 2) = j.val := by
      unfold GatherDims.offCoord
      split
      · rfl
      · rename_i h
        exact absurd ((GatherDims.mem_sKept _ _).mpr
          ⟨fun hh => absurd (hh : (1 : Fin 2) ∈ ([0] : List (Fin 2))) (by decide), List.not_mem_nil⟩) h
    rw [hs, ho, Nat.add_zero, Nat.zero_add]
  funext a
  refine Fin.ext ?_
  match a with
  | ⟨0, _⟩ => exact h0
  | ⟨1, _⟩ => exact h1

/-! ## Accumulating scatters -/

/-- An update lands on the operand index `i` exactly when, on every axis, its start plus its window coordinate is
    `i`'s coordinate. -/
theorem resultIdx?_eq_some_iff {s si u : Shape} (d : ScatterDims s si u) (j : u.Idx) (idx : IVec si w) (i : s.Idx) :
    d.resultIdx? j idx = some i ↔ ∀ a, d.start j idx a + (d.window j a : Int) = ((i a).val : Int) := by
  unfold ScatterDims.resultIdx?
  constructor
  · intro h
    split at h
    · rename_i hb
      have hf := Option.some.inj h
      intro a
      have ha := congrArg (fun f => ((f a).val : Int)) hf
      have hb' := (hb a).1
      simp only [Int.toNat_of_nonneg hb'] at ha
      exact ha
    · cases h
  · intro h
    have hb : ∀ a, 0 ≤ d.start j idx a + (d.window j a : Int) ∧ d.start j idx a + (d.window j a : Int) < s.size a := fun a => by
      rw [h a]
      exact ⟨Int.natCast_nonneg _, by exact_mod_cast (i a).isLt⟩
    rw [dif_pos hb]
    congr 1
    funext a
    apply Fin.ext
    show (d.start j idx a + (d.window j a : Int)).toNat = (i a).val
    rw [h a, Int.toNat_natCast]

/-- An operand axis carries a window coordinate exactly when it is not an inserted axis. -/
theorem mem_sKept_iff {s si u : Shape} (d : ScatterDims s si u) (a : Fin s.rank) : a ∈ d.sKept ↔ a ∉ d.insertedWindowDims := by
  simp [ScatterDims.sKept, Shape.kept, List.mem_filter, List.mem_finRange]

/-- The dimension numbers of `vector.at[idx].add(updates)`. -/
abbrev vecScatter (N E : ℕ) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

theorem vecScatter_lands (wf : ScatterDims.WF ⟨1, ![N]⟩ ⟨2, ![E, 1]⟩ ⟨1, ![E]⟩ [] [0] [0] 1)
    (idx : IVec ⟨2, ![E, 1]⟩ w) (e : Fin E) (n : Fin N) :
    (vecScatter N E wf).resultIdx? (ix1 e) idx = some (ix1 n) ↔ lands idx e n := by
  rw [resultIdx?_eq_some_iff]
  have hstart : (vecScatter N E wf).start (ix1 e) idx (0 : Fin 1) = (idx (at0 e)).toInt := by
    unfold ScatterDims.start
    rw [dif_pos (show (0 : Fin 1) ∈ (vecScatter N E wf).scatterDimsToOperandDims from List.mem_singleton.mpr rfl)]
    congr 2
    funext b; refine Fin.ext ?_
    match b with
    | ⟨0, _⟩ => rfl
    | ⟨1, _⟩ => rfl
  have hwin : (vecScatter N E wf).window (ix1 e) (0 : Fin 1) = 0 := by
    unfold ScatterDims.window
    split
    · rename_i h
      exact absurd (List.mem_singleton.mpr rfl) ((mem_sKept_iff _ _).mp h)
    · rfl
  constructor
  · intro h
    have h0 : (idx (at0 e)).toInt + ((0 : ℕ) : Int) = (n.val : Int) := by
      have := h (0 : Fin 1)
      rw [hstart, hwin] at this
      exact this
    show (idx (at0 e)).toInt = (n.val : Int)
    rw [Nat.cast_zero, add_zero] at h0
    exact h0
  · intro h a
    obtain rfl : a = 0 := Subsingleton.elim _ _
    rw [hstart, hwin]
    show (idx (at0 e)).toInt + ((0 : ℕ) : Int) = (n.val : Int)
    rw [Nat.cast_zero, add_zero]
    exact h

/-- `vector.at[idx].add(updates)` at row `n`, over the extended reals: the operand there plus the updates of the
    entries that land on `n`. -/
theorem vecScatterAdd_apply (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32) (n : Fin N) :
    Host.scatterAdd (F := Ideal) (vecScatter N E wf) x idx upd (ix1 n)
      = x (ix1 n) + ∑ e : Fin E, if lands idx e n then upd (ix1 e) else 0 := by
  show Ideal.hostScatterAdd (vecScatter N E wf) x idx upd (ix1 n) = _
  unfold Ideal.hostScatterAdd
  congr 1
  rw [Finset.sum_filter, sum_idx1]
  exact Finset.sum_congr rfl fun e _ => if_congr (vecScatter_lands wf idx e n) rfl rfl

/-- The dimension numbers of `matrix.at[idx].add(updates)` with whole-row updates. -/
abbrev rowScatter (N D E : ℕ) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

theorem rowScatter_lands (wf : ScatterDims.WF ⟨2, ![N, D]⟩ ⟨2, ![E, 1]⟩ ⟨2, ![E, D]⟩ [1] [0] [0] 1)
    (idx : IVec ⟨2, ![E, 1]⟩ w) (e : Fin E) (j' : Fin D) (n : Fin N) (j : Fin D) :
    (rowScatter N D E wf).resultIdx? (ix2 e j') idx = some (ix2 n j) ↔ lands idx e n ∧ j' = j := by
  rw [resultIdx?_eq_some_iff]
  have hstart0 : (rowScatter N D E wf).start (ix2 e j') idx (0 : Fin 2) = (idx (at0 e)).toInt := by
    unfold ScatterDims.start
    rw [dif_pos (show (0 : Fin 2) ∈ (rowScatter N D E wf).scatterDimsToOperandDims from List.mem_singleton.mpr rfl)]
    congr 2
    funext b; refine Fin.ext ?_
    match b with
    | ⟨0, _⟩ => rfl
    | ⟨1, _⟩ => rfl
  have hwin0 : (rowScatter N D E wf).window (ix2 e j') (0 : Fin 2) = 0 := by
    unfold ScatterDims.window
    split
    · rename_i h
      exact absurd (List.mem_singleton.mpr rfl) ((mem_sKept_iff _ _).mp h)
    · rfl
  have hstart1 : (rowScatter N D E wf).start (ix2 e j') idx (1 : Fin 2) = 0 := by
    unfold ScatterDims.start
    split
    · rename_i h
      exact ((by decide : ¬ (1 : Fin 2) ∈ ([0] : List (Fin 2))) h).elim
    · rfl
  have hwin1 : (rowScatter N D E wf).window (ix2 e j') (1 : Fin 2) = j'.val := by
    unfold ScatterDims.window
    split
    · rfl
    · rename_i h
      exact absurd ((mem_sKept_iff _ _).mpr
        (fun hh => absurd (hh : (1 : Fin 2) ∈ ([0] : List (Fin 2))) (by decide))) h
  constructor
  · intro h
    have h0 : (idx (at0 e)).toInt + ((0 : ℕ) : Int) = (n.val : Int) := by
      have := h (0 : Fin 2)
      rw [hstart0, hwin0] at this
      exact this
    have h1 : (0 : Int) + ((j'.val : ℕ) : Int) = (j.val : Int) := by
      have := h (1 : Fin 2)
      rw [hstart1, hwin1] at this
      exact this
    rw [Nat.cast_zero, add_zero] at h0
    rw [zero_add] at h1
    exact ⟨h0, Fin.ext (by exact_mod_cast h1)⟩
  · rintro ⟨h, rfl⟩ a
    match a with
    | ⟨0, _⟩ =>
      show (rowScatter N D E wf).start (ix2 e j') idx (0 : Fin 2) + (((rowScatter N D E wf).window (ix2 e j') (0 : Fin 2) : ℕ) : Int) = (n.val : Int)
      rw [hstart0, hwin0, Nat.cast_zero, add_zero]
      exact h
    | ⟨1, _⟩ =>
      show (rowScatter N D E wf).start (ix2 e j') idx (1 : Fin 2) + (((rowScatter N D E wf).window (ix2 e j') (1 : Fin 2) : ℕ) : Int) = (j'.val : Int)
      rw [hstart1, hwin1, zero_add]

/-- `matrix.at[idx].add(updates)` at `(n, j)`, over the extended reals: the operand there plus column `j` of the
    updates of the entries that land on row `n`. -/
theorem rowScatterAdd_apply (wf : ScatterDims.WF ⟨2, ![N, D]⟩ ⟨2, ![E, 1]⟩ ⟨2, ![E, D]⟩ [1] [0] [0] 1)
    (x : FVec Ideal ⟨2, ![N, D]⟩ .f32) (idx : IVec ⟨2, ![E, 1]⟩ w) (upd : FVec Ideal ⟨2, ![E, D]⟩ .f32) (n : Fin N) (j : Fin D) :
    Host.scatterAdd (F := Ideal) (rowScatter N D E wf) x idx upd (ix2 n j)
      = x (ix2 n j) + ∑ e : Fin E, if lands idx e n then upd (ix2 e j) else 0 := by
  show Ideal.hostScatterAdd (rowScatter N D E wf) x idx upd (ix2 n j) = _
  unfold Ideal.hostScatterAdd
  congr 1
  rw [Finset.sum_filter, sum_idx2]
  refine Finset.sum_congr rfl fun e _ => ?_
  rw [Finset.sum_congr rfl fun j' _ => if_congr (rowScatter_lands wf idx e j' n j) rfl rfl]
  by_cases h : lands idx e n
  · simp only [h, true_and, if_true]
    rw [Finset.sum_ite_eq' Finset.univ j (fun j' => upd (ix2 e j'))]
    simp
  · simp only [h, false_and, if_false, Finset.sum_const_zero]

end Cert.EdgeIndex

end
-- ==== Proof.LibColumn.lean ====
/-
  Two layout operations read at an index given by coordinates, for a column kept after a sum along the rows'
  entries (`keepdims`): a vector `[a]` cast to the column `[a, 1]`, and a column `[a, 1]` broadcast along a new
  second axis to `[a, b]`. Both are instances of the general "layout operation read at an index" lemmas with the
  coordinates' arithmetic discharged, in the same form as the row versions the index library already has.
-/
import Idealize.ShloMosaic.Lib.Pipeline.Value
import Idealize.ShloMosaic.Lib.ValueIdx

namespace Cert.GraphConv.Column

open Idealize.ShloMosaic Idealize.ShloMosaic.ValueIdx

variable {α : Type}

/-- A vector `[a]` cast to the column `[a, 1]` reads, at `(i, u)`, the operand at `i`, whatever the unit
    coordinate `u`: both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.GraphConv.Column
-- ==== Proof.LibBroadcasts.lean ====
/-
  Three broadcasts read at an entry.

  A scalar splat reads the scalar everywhere.  A vector `[a]` laid as a column `[a, 1]` and then along `b` columns reads,
  at `(n, j)`, the vector at `n`.  A vector `[b]` laid as a row `[1, b]` and then down `a` rows reads, at `(n, j)`, the
  vector at `j`.
-/
import Idealize.ShloMosaic.Lib.Pipeline.Value
import Idealize.ShloMosaic.Lib.ValueIdx

noncomputable section

namespace Cert.Broadcasts

open Idealize.ShloMosaic Idealize.ShloMosaic.ValueIdx

variable {α : Type}

/-- A splat of a scalar reads the scalar at every index. -/
theorem splat_apply {t : Shape} (dims : Fin (⟨0, ![]⟩ : Shape).rank → Fin t.rank) (h : (⟨0, ![]⟩ : Shape).BroadcastsInDim t dims)
    (x : (⟨0, ![]⟩ : Shape).Idx → α) (j : t.Idx) : broadcastInDim t dims h x j = x ix0 :=
  broadcastInDim_apply dims h x j ix0 (fun q => q.elim0)

/-- A vector laid as a column and then along the columns: at `(n, j)` the vector at `n`. -/
theorem alongColumns_apply {a b : ℕ} (d : (⟨1, ![a]⟩ : Shape).Idx → α)
    (h0 : (⟨1, ![a]⟩ : Shape).BroadcastsInDim ⟨2, ![a, 1]⟩ ![0])
    (h1 : (⟨2, ![a, 1]⟩ : Shape).BroadcastsInDim ⟨2, ![a, b]⟩ ![0, 1]) (n : Fin a) (j : Fin b) :
    broadcastInDim ⟨2, ![a, b]⟩ ![0, 1] h1 (broadcastInDim ⟨2, ![a, 1]⟩ ![0] h0 d) (ix2 n j) = d (ix1 n) := by
  refine (broadcastInDim_apply ![0, 1] h1 _ (ix2 n j) (ix2 n (0 : Fin 1)) (fun q => ?_)).trans ?_
  · match q with
    | ⟨0, _⟩ =>
      show n.val = if a = 1 then 0 else n.val
      by_cases ha : a = 1
      · rw [if_pos ha]; have := n.isLt; omega
      · rw [if_neg ha]
    | ⟨1, _⟩ =>
      show (0 : ℕ) = if (1 : ℕ) = 1 then 0 else j.val
      rw [if_pos rfl]
  · refine broadcastInDim_apply ![0] h0 d (ix2 n (0 : Fin 1)) (ix1 n) (fun q => ?_)
    match q with
    | ⟨0, _⟩ =>
      show n.val = if a = 1 then 0 else n.val
      by_cases ha : a = 1
      · rw [if_pos ha]; have := n.isLt; omega
      · rw [if_neg ha]

/-- A vector laid as a row and then down the rows: at `(n, j)` the vector at `j`. -/
theorem downRows_apply {a b : ℕ} (x : (⟨1, ![b]⟩ : Shape).Idx → α)
    (h0 : (⟨1, ![b]⟩ : Shape).BroadcastsInDim ⟨2, ![1, b]⟩ ![1])
    (h1 : (⟨2, ![1, b]⟩ : Shape).BroadcastsInDim ⟨2, ![a, b]⟩ ![0, 1]) (n : Fin a) (j : Fin b) :
    broadcastInDim ⟨2, ![a, b]⟩ ![0, 1] h1 (broadcastInDim ⟨2, ![1, b]⟩ ![1] h0 x) (ix2 n j) = x (ix1 j) := by
  refine (broadcastInDim_apply ![0, 1] h1 _ (ix2 n j) (ix2 (0 : Fin 1) j) (fun q => ?_)).trans ?_
  · match q with
    | ⟨0, _⟩ =>
      show (0 : ℕ) = if (1 : ℕ) = 1 then 0 else n.val
      rw [if_pos rfl]
    | ⟨1, _⟩ =>
      show j.val = if b = 1 then 0 else j.val
      by_cases hb : b = 1
      · rw [if_pos hb]; have := j.isLt; omega
      · rw [if_neg hb]
  · refine broadcastInDim_apply ![1] h0 x (ix2 (0 : Fin 1) j) (ix1 j) (fun q => ?_)
    match q with
    | ⟨0, _⟩ =>
      show j.val = if b = 1 then 0 else j.val
      by_cases hb : b = 1
      · rw [if_pos hb]; have := j.isLt; omega
      · rw [if_neg hb]

/-- A vector laid as a column: at `(n, u)` the vector at `n`. -/
theorem column_apply {a : ℕ} (d : (⟨1, ![a]⟩ : Shape).Idx → α)
    (h0 : (⟨1, ![a]⟩ : Shape).BroadcastsInDim ⟨2, ![a, 1]⟩ ![0]) (n : Fin a) (u : Fin 1) :
    broadcastInDim ⟨2, ![a, 1]⟩ ![0] h0 d (ix2 n u) = d (ix1 n) := by
  refine broadcastInDim_apply ![0] h0 d (ix2 n u) (ix1 n) (fun q => ?_)
  match q with
  | ⟨0, _⟩ =>
    show n.val = if a = 1 then 0 else n.val
    by_cases ha : a = 1
    · rw [if_pos ha]; have := n.isLt; omega
    · rw [if_neg ha]

end Cert.Broadcasts

end
-- ==== Proof.Host0.lean ====
/-
  The host operations before the first tiled region, read at an index.

  The region finds, besides the untouched arguments, two arrays the host wrote: the bias row `[1,256]` (the attention
  bias reshaped) and the column `[100000,1]` of inverse square roots of the degrees.  The degree of node `n` is one (its
  self loop) plus the number of edges whose target word is `n`'s number: ones are accumulated into zeros through the
  column of target words, an entry landing on `n` exactly when its word, read signed, is `n`.
-/
import proofs.«109391_j52415780880537_2_alg».proof.Proof.Gen.KernelIdeal.Frame
import proofs.«109391_j52415780880537_2_alg».proof.Proof.Spec
import proofs.«109391_j52415780880537_2_alg».proof.Proof.TileDefs
import proofs.«109391_j52415780880537_2_alg».proof.Proof.LibEdgeIndex
import proofs.«109391_j52415780880537_2_alg».proof.Proof.LibColumn
import proofs.«109391_j52415780880537_2_alg».proof.Proof.LibBroadcasts
import Idealize.ShloMosaic.Lib.StableHlo.Run
import Idealize.ShloMosaic.Lib.Pipeline.Value
import Idealize.ShloMosaic.Lib.ValueLayout

noncomputable section

open Idealize.ShloMosaic Idealize.ShloMosaic.TcCoe Idealize.SL.Sem Idealize.ShloMosaic.ValueIdx

namespace Cert.KernelIdeal.HostA

open Cert.KernelIdeal Cert.KernelIdeal.Gen

/-- Row `r` of the edge array `[2,1600000]`, sliced out, flattened and stood up as an index column `[1600000,1]`,
    holds at entry `e` the word `EI[r, e]`. -/
theorem column_of_row (EI : S2x1600000.Idx → BitVec 32) (r : Fin 2) (hs : S2x1600000.Slices ![r.val, 0] S1x1600000)
    (e : Fin 1600000) (u : Fin 1) :
    broadcastInDim S1600000x1 ![0] bcast_S1600000_S1600000x1_0
      (shapeCast S1600000 (extractStridedSlice S1x1600000 ![r.val, 0] EI hs) shapeCasts_S1x1600000_S1600000) (ix2 e u)
      = EI (ix2 r e) := by
  rw [Cert.Broadcasts.column_apply, shapeCast_1a_a_apply]
  refine extractStridedSlice_apply _ _ _ _ _ fun a => ?_
  match a with
  | ⟨0, _⟩ => show r.val = r.val + 0; omega
  | ⟨1, _⟩ => show e.val = 0 + e.val; omega

variable (m : (ℓ : Loc nD τ sig) → Buf (Elt Ideal) ℓ) (ρ : Dev nD → PrngReg)

/-- The edge array as launched. -/
abbrev aEI (c : Dev nD) : S2x1600000.Idx → BitVec 32 := m ((c : Thread nD τ).loc main_arg1)

/-- The first region finds the node features, the projection matrix and the attention matrix as launched. -/
theorem V1_X (c : Dev nD) : Tile.bX (V1 m ρ) c = (m ((c : Thread nD τ).loc main_arg0) : S100000x128.Idx → EReal) := by
  show StableHlo.after hostOps0 (W0 m ρ c) (Proc.devRef .tc main_arg0) = _
  after_results
theorem V1_Wg (c : Dev nD) : Tile.bWg (V1 m ρ) c = (m ((c : Thread nD τ).loc main_arg2) : S128x128.Idx → EReal) := by
  show StableHlo.after hostOps0 (W0 m ρ c) (Proc.devRef .tc main_arg2) = _
  after_results
theorem V1_Wa (c : Dev nD) : Tile.bWa (V1 m ρ) c = (m ((c : Thread nD τ).loc main_arg4) : S128x256.Idx → EReal) := by
  show StableHlo.after hostOps0 (W0 m ρ c) (Proc.devRef .tc main_arg4) = _
  after_results

/-- The bias row it finds is the attention bias, lane by lane. -/
theorem V1_ba (c : Dev nD) (q : Fin 256) :
    Tile.bBa (V1 m ρ) c (ix2 (0 : Fin 1) q) = (m ((c : Thread nD τ).loc main_arg5) : S256.Idx → EReal) (ix1 q) := by
  have e : Tile.bBa (V1 m ρ) c = shapeCast S1x256 (m ((c : Thread nD τ).loc main_arg5) : S256.Idx → EReal) shapeCasts_S256_S1x256 := by
    show StableHlo.after hostOps0 (W0 m ρ c) (Proc.devRef .tc main_v12) = _
    after_results
    rfl
  rw [e]
  exact shapeCast_a_1a_apply _ _ _ _

/-- The inverse square root of a sum of two arrays, at an index. -/
theorem rsqrt_add_apply {s : Shape} (A B : FVec Ideal s .f32) (i : s.Idx) :
    Host.rsqrt (F := Ideal) (addf A B) i = Ideal.rsqrt (A i + B i) := rfl

/-- The degree column's term, read at node `n`: zeros plus the ones of the edges whose target word is `n`'s number,
    plus one, under the inverse square root. -/
theorem dinv_term_apply (EI : S2x1600000.Idx → BitVec 32) (n : Fin 100000) (u : Fin 1) :
    shapeCast S100000x1 (Host.rsqrt (F := Ideal) (addf
      (Host.scatterAdd scatter_S100000_S1600000x1_S1600000_n_0_0_1 (broadcastInDim S100000 ![] bcast_S_S100000 (constant (F := Ideal) S_ .f32 0x00000000#32))
        (broadcastInDim S1600000x1 ![0] bcast_S1600000_S1600000x1_0 (shapeCast S1600000 (extractStridedSlice S1x1600000 ![1, 0] EI slices_S2x1600000_S1x1600000_1_0) shapeCasts_S1x1600000_S1600000))
        (broadcastInDim S1600000 ![] bcast_S_S1600000 (constant (F := Ideal) S_ .f32 0x3F800000#32)))
      (broadcastInDim S100000 ![] bcast_S_S100000 (constant (F := Ideal) S_ .f32 0x3F800000#32)))) shapeCasts_S100000_S100000x1 (ix2 n u)
      = Cert.Gcn.dinvK EI n := by
  rw [Cert.GraphConv.Column.shapeCast_a_a1_apply]
  generalize hidx : broadcastInDim S1600000x1 ![0] bcast_S1600000_S1600000x1_0 (shapeCast S1600000 (extractStridedSlice S1x1600000 ![1, 0] EI slices_S2x1600000_S1x1600000_1_0) shapeCasts_S1x1600000_S1600000) = idx
  have hcol : ∀ e : Fin 1600000, idx (ix2 e (0 : Fin 1)) = EI (ix2 (1 : Fin 2) e) := fun e => by
    rw [← hidx]; exact column_of_row EI (1 : Fin 2) slices_S2x1600000_S1x1600000_1_0 e 0
  generalize hz : broadcastInDim S100000 ![] bcast_S_S100000 (constant (F := Ideal) S_ .f32 0x00000000#32) = zs
  generalize ho : broadcastInDim S1600000 ![] bcast_S_S1600000 (constant (F := Ideal) S_ .f32 0x3F800000#32) = os
  generalize ho' : broadcastInDim S100000 ![] bcast_S_S100000 (constant (F := Ideal) S_ .f32 0x3F800000#32) = os'
  have hzs : ∀ i, zs i = 0 := fun i => by rw [← hz, Cert.Broadcasts.splat_apply]; exact Ideal.ofBits_zero_f32
  have hos : ∀ i, os i = Cert.Gcn.one := fun i => by rw [← ho, Cert.Broadcasts.splat_apply]; rfl
  have hos' : ∀ i, os' i = Cert.Gcn.one := fun i => by rw [← ho', Cert.Broadcasts.splat_apply]; rfl
  refine (rsqrt_add_apply _ _ _).trans ?_
  unfold Cert.Gcn.dinvK Cert.Gcn.cntK
  refine congrArg Ideal.rsqrt (congrArg₂ (· + ·) ?_ (hos' _))
  refine (Cert.EdgeIndex.vecScatterAdd_apply (N := 100000) (E := 1600000) (w := 32) _ zs idx os n).trans ?_
  refine congrArg₂ (· + ·) (hzs _) (Finset.sum_congr rfl fun e _ => if_congr ?_ (hos _) rfl)
  show (idx (ix2 e (0 : Fin 1))).toInt = (n.val : Int) ↔ _
  rw [hcol]
  exact Iff.rfl

/-- The column it finds holds, at node `n`, the inverse square root of the node's degree. -/
theorem V1_dinv (c : Dev nD) (n : Fin 100000) :
    Tile.bD (V1 m ρ) c (ix2 n (0 : Fin 1)) = Cert.Gcn.dinvK (aEI m c) n := by
  have e : Tile.bD (V1 m ρ) c = shapeCast S100000x1 (Host.rsqrt (F := Ideal) (addf
      (Host.scatterAdd scatter_S100000_S1600000x1_S1600000_n_0_0_1 (broadcastInDim S100000 ![] bcast_S_S100000 (constant (F := Ideal) S_ .f32 0x00000000#32))
        (broadcastInDim S1600000x1 ![0] bcast_S1600000_S1600000x1_0 (shapeCast S1600000 (extractStridedSlice S1x1600000 ![1, 0] (aEI m c) slices_S2x1600000_S1x1600000_1_0) shapeCasts_S1x1600000_S1600000))
        (broadcastInDim S1600000 ![] bcast_S_S1600000 (constant (F := Ideal) S_ .f32 0x3F800000#32)))
      (broadcastInDim S100000 ![] bcast_S_S100000 (constant (F := Ideal) S_ .f32 0x3F800000#32)))) shapeCasts_S100000_S100000x1 := by
    show StableHlo.after hostOps0 (W0 m ρ c) (Proc.devRef .tc main_v11) = _
    after_results
    rfl
  rw [e]
  exact dinv_term_apply (aEI m c) n 0

end Cert.KernelIdeal.HostA

end
-- ==== Proof.Host1Laws.lean ====
/-
  Terms the host forms between the two tiled regions, read at an index.

  Moving rows along edges: the accumulating scatter of the gathered rows, at `(n, j)`, is the sum over the edges whose
  target word is `n`'s number of column `j` of the table's row named by the edge's source word.
  Statistics: a sum over the leading axis of a `[50, b, c]` array is the sum of its 50 slabs; the normalising scalar and
  the scaled 64×64 matrix follow the formula of the source text.
-/
import proofs.«109391_j52415780880537_2_alg».proof.Proof.Gen.KernelIdeal
import proofs.«109391_j52415780880537_2_alg».proof.Proof.Spec
import proofs.«109391_j52415780880537_2_alg».proof.Proof.LibEdgeIndex
import proofs.«109391_j52415780880537_2_alg».proof.Proof.LibBroadcasts
import Idealize.ShloMosaic.Lib.Pipeline.Value
import Idealize.ShloMosaic.Lib.ValueLayout
import Idealize.ShloMosaic.Lib.IdealHost
import Idealize.ShloMosaic.PureOps.Ideal.Laws

noncomputable section

open Idealize.ShloMosaic Idealize.ShloMosaic.ValueIdx

namespace Cert.KernelIdeal.HostLaws

open Cert.KernelIdeal Cert.KernelIdeal.Facts₀ Cert.KernelIdeal.Facts

/-- Row `r` of the edge array, sliced out and flattened, holds at entry `e` the word `EI[r, e]`. -/
theorem edge_word (EI : S2x1600000.Idx → BitVec 32) (r : Fin 2) (hs : S2x1600000.Slices ![r.val, 0] S1x1600000) (e : Fin 1600000) :
    shapeCast S1600000 (extractStridedSlice S1x1600000 ![r.val, 0] EI hs) shapeCasts_S1x1600000_S1600000 (ix1 e) = EI (ix2 r e) := by
  rw [shapeCast_1a_a_apply]
  refine extractStridedSlice_apply _ _ _ _ _ fun a => ?_
  match a with
  | ⟨0, _⟩ => show r.val = r.val + 0; omega
  | ⟨1, _⟩ => show e.val = 0 + e.val; omega

/-- A word array with its negative entries moved up, at an index. -/
theorem wrap_apply {s : Shape} (a z k : IVec s 32) (i : s.Idx) :
    select (cmpi .slt a z) (addi a k) a i = Scalar.select (IntOp.cmpi .slt (a i) (z i)) (IntOp.addi (a i) (k i)) (a i) := rfl

/-- The flattened source words. -/
abbrev srcs (EI : S2x1600000.Idx → BitVec 32) : S1600000.Idx → BitVec 32 :=
  shapeCast S1600000 (extractStridedSlice S1x1600000 ![0, 0] EI slices_S2x1600000_S1x1600000_0_0) shapeCasts_S1x1600000_S1600000
/-- The flattened target words. -/
abbrev dsts (EI : S2x1600000.Idx → BitVec 32) : S1600000.Idx → BitVec 32 :=
  shapeCast S1600000 (extractStridedSlice S1x1600000 ![1, 0] EI slices_S2x1600000_S1x1600000_1_0) shapeCasts_S1x1600000_S1600000

/-- The rows of `HS` named by the source words, accumulated into the nodes named by the target words. -/
theorem agg_term_apply (EI : S2x1600000.Idx → BitVec 32) (HS : S100000x128.Idx → EReal) (n : Fin 100000) (j : Fin 128) :
    Host.scatterAdd (F := Ideal) scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 (dsts EI))
      (Host.gather gather_S100000x128_S1600000x1_S1600000x128_1_0_n_n_0_1_1128 HS
        (broadcastInDim S1600000x1 ![0] bcast_S1600000_S1600000x1_0
          (select (cmpi .slt (srcs EI) (broadcastInDim S1600000 ![] bcast_S_S1600000 (constantI S_ 32 0#32)))
            (addi (srcs EI) (broadcastInDim S1600000 ![] bcast_S_S1600000 (constantI S_ 32 100000#32)))
            (srcs EI))))
      (ix2 n j)
    = 0 + ∑ e : Fin 1600000,
        if Cert.Gcn.hits (Cert.Gcn.dstW EI e) n then HS (ix2 (Cert.Gcn.rowW (Cert.Gcn.srcW EI e)) j) else 0 := by
  generalize hz : broadcastInDim S100000x128 ![] bcast_S_S100000x128 (constant (F := Ideal) S_ .f32 0x00000000#32) = zs
  generalize hidx : broadcastInDim S1600000x1 ![0] bcast_S1600000_S1600000x1_0 (dsts EI) = idx
  generalize hsel : broadcastInDim S1600000x1 ![0] bcast_S1600000_S1600000x1_0
      (select (cmpi .slt (srcs EI) (broadcastInDim S1600000 ![] bcast_S_S1600000 (constantI S_ 32 0#32)))
        (addi (srcs EI) (broadcastInDim S1600000 ![] bcast_S_S1600000 (constantI S_ 32 100000#32)))
        (srcs EI)) = sidx
  have hzs : ∀ i, zs i = 0 := fun i => by rw [← hz, Cert.Broadcasts.splat_apply]; exact Ideal.ofBits_zero_f32
  have hcol : ∀ e : Fin 1600000, idx (ix2 e (0 : Fin 1)) = Cert.Gcn.dstW EI e := fun e => by
    rw [← hidx, Cert.Broadcasts.column_apply]; exact edge_word EI (1 : Fin 2) slices_S2x1600000_S1x1600000_1_0 e
  have hsrc : ∀ e : Fin 1600000, sidx (ix2 e (0 : Fin 1)) = Cert.Gcn.wrapW (Cert.Gcn.srcW EI e) := fun e => by
    rw [← hsel, Cert.Broadcasts.column_apply]
    have hs : srcs EI (ix1 e) = Cert.Gcn.srcW EI e := edge_word EI (0 : Fin 2) slices_S2x1600000_S1x1600000_0_0 e
    rw [wrap_apply, Cert.Broadcasts.splat_apply, Cert.Broadcasts.splat_apply, hs]
    rfl
  generalize hg : Host.gather gather_S100000x128_S1600000x1_S1600000x128_1_0_n_n_0_1_1128 HS sidx = G
  have hG : ∀ e : Fin 1600000, G (ix2 e j) = HS (ix2 (Cert.Gcn.rowW (Cert.Gcn.srcW EI e)) j) := fun e => by
    rw [← hg]
    refine (Cert.EdgeIndex.rowGather_apply (N := 100000) (D := 128) (E := 1600000) (w := 32) (by omega) _ HS sidx e j).trans ?_
    refine congrArg (fun r => HS (ix2 r j)) (Fin.ext ?_)
    show min ((sidx (ix2 e (0 : Fin 1))).toInt.toNat) (100000 - 1) = _
    rw [hsrc]
    rfl
  refine (Cert.EdgeIndex.rowScatterAdd_apply (N := 100000) (D := 128) (E := 1600000) (w := 32) _ zs idx G n j).trans ?_
  refine congrArg₂ (· + ·) (hzs _) (Finset.sum_congr rfl fun e _ => if_congr ?_ (hG e) rfl)
  show (idx (ix2 e (0 : Fin 1))).toInt = (n.val : Int) ↔ _
  rw [hcol]
  exact Iff.rfl

/-! ## Sums over the 50 tiles -/

/-- The host's sum of a `[50, 64, 64]` array over its leading axis, at `(j, k)`. -/
theorem sum_tiles_m (MM : S50x64x64.Idx → EReal) (init : S_.Idx → EReal) (h' : S50x64x64.ReducesTo [0] S64x64) (hu : 0 < S_.numel)
    (j k : Fin 64) :
    Host.reduceAdd (F := Ideal) (φ := .f32) MM init h' hu (ix2 j k) = init ix0 + ∑ t : Fin 50, MM (ix3 t j k) := by
  rw [hostReduceAdd_apply, Ideal.hostReduceAdd_single h' (by decide : S50x64x64.Reduces [0] S64x64)]
  refine congrArg₂ (· + ·) (congrArg init (Subsingleton.elim _ _)) (Finset.sum_congr rfl fun t _ => congrArg MM ?_)
  funext a
  refine Fin.ext ?_
  match a with
  | ⟨0, _⟩ => rfl
  | ⟨1, _⟩ => rfl
  | ⟨2, _⟩ => rfl

/-- The host's sum of a `[50, 1, 128]` array over its leading axis, at `(0, q)`. -/
theorem sum_tiles_col (COL : S50x1x128.Idx → EReal) (init : S_.Idx → EReal) (h' : S50x1x128.ReducesTo [0] S1x128) (hu : 0 < S_.numel)
    (u : Fin 1) (q : Fin 128) :
    Host.reduceAdd (F := Ideal) (φ := .f32) COL init h' hu (ix2 u q) = init ix0 + ∑ t : Fin 50, COL (ix3 t u q) := by
  rw [hostReduceAdd_apply, Ideal.hostReduceAdd_single h' (by decide : S50x1x128.Reduces [0] S1x128)]
  refine congrArg₂ (· + ·) (congrArg init (Subsingleton.elim _ _)) (Finset.sum_congr rfl fun t _ => congrArg COL ?_)
  funext a
  refine Fin.ext ?_
  match a with
  | ⟨0, _⟩ => rfl
  | ⟨1, _⟩ => rfl
  | ⟨2, _⟩ => rfl

/-- The host's sum of a `[64]` vector to a scalar. -/
theorem sum_lanes (v : S64.Idx → EReal) (init : S_.Idx → EReal) (h' : S64.ReducesTo [0] S_) (hu : 0 < S_.numel) (i : S_.Idx) :
    Host.reduceAdd (F := Ideal) (φ := .f32) v init h' hu i = init ix0 + ∑ k : Fin 64, v (ix1 k) := by
  rw [hostReduceAdd_apply, Ideal.hostReduceAdd_total h' (fun b => b.elim0), Cert.EdgeIndex.sum_idx1]
  exact congrArg (fun z => z + _) (congrArg init (Subsingleton.elim _ _))

instance : Subsingleton S_.Idx := ⟨fun a b => funext fun d => d.elim0⟩

/-- The scaled 64×64 matrix the host forms from the tiles' column sums `COL` and products `MM`. -/
theorem ms_term_apply (COL : S50x1x128.Idx → EReal) (MM : S50x64x64.Idx → EReal) (j k : Fin 64) :
    mulf (F := Ideal) (Host.reduceAdd (F := Ideal) (φ := .f32) MM (constant (F := Ideal) S_ .f32 0x00000000#32) reducesTo_S50x64x64_S64x64_d0 h_S_)
      (broadcastInDim S64x64 ![] bcast_S_S64x64
        (Host.divf (F := Ideal) (constant (F := Ideal) S_ .f32 0x3F800000#32)
          (Host.reduceAdd (F := Ideal) (φ := .f32)
            (mulf (F := Ideal)
              (Host.divf (F := Ideal)
                (extractStridedSlice S64 ![0]
                  (shapeCast S128 (Host.reduceAdd (F := Ideal) (φ := .f32) COL (constant (F := Ideal) S_ .f32 0x00000000#32) reducesTo_S50x1x128_S1x128_d0 h_S_) shapeCasts_S1x128_S128)
                  slices_S128_S64_0)
                (broadcastInDim S64 ![] bcast_S_S64 (constant (F := Ideal) S_ .f32 0x47C35000#32)))
              (extractStridedSlice S64 ![64]
                (shapeCast S128 (Host.reduceAdd (F := Ideal) (φ := .f32) COL (constant (F := Ideal) S_ .f32 0x00000000#32) reducesTo_S50x1x128_S1x128_d0 h_S_) shapeCasts_S1x128_S128)
                slices_S128_S64_64))
            (constant (F := Ideal) S_ .f32 0x00000000#32) reducesTo_S64_S_d0 h_S_)))
      (ix2 j k)
    = (0 + ∑ t : Fin 50, MM (ix3 t j k))
      * Ideal.div Cert.Gcn.one
          (0 + ∑ k' : Fin 64,
            Ideal.div (0 + ∑ t : Fin 50, COL (ix3 t (0 : Fin 1) ⟨k'.val, by have := k'.isLt; omega⟩)) Cert.Gcn.big
              * (0 + ∑ t : Fin 50, COL (ix3 t (0 : Fin 1) ⟨64 + k'.val, by have := k'.isLt; omega⟩))) := by
  have hzero : (constant (F := Ideal) S_ .f32 0x00000000#32) ix0 = (0 : EReal) := Ideal.ofBits_zero_f32
  generalize hR : shapeCast S128 (Host.reduceAdd (F := Ideal) (φ := .f32) COL (constant (F := Ideal) S_ .f32 0x00000000#32) reducesTo_S50x1x128_S1x128_d0 h_S_) shapeCasts_S1x128_S128 = R
  have hRq : ∀ q : Fin 128, R (ix1 q) = 0 + ∑ t : Fin 50, COL (ix3 t (0 : Fin 1) q) := fun q => by
    rw [← hR, shapeCast_1a_a_apply, sum_tiles_col, hzero]
  have hlo : ∀ k' : Fin 64, extractStridedSlice S64 ![0] R slices_S128_S64_0 (ix1 k') = R (ix1 ⟨k'.val, by have := k'.isLt; omega⟩) := fun k' =>
    extractStridedSlice_apply _ _ _ _ _ fun a => by
      match a with
      | ⟨0, _⟩ => show k'.val = 0 + k'.val; omega
  have hhi : ∀ k' : Fin 64, extractStridedSlice S64 ![64] R slices_S128_S64_64 (ix1 k') = R (ix1 ⟨64 + k'.val, by have := k'.isLt; omega⟩) := fun k' =>
    extractStridedSlice_apply _ _ _ _ _ fun a => by
      match a with
      | ⟨0, _⟩ => show 64 + k'.val = 64 + k'.val; rfl
  generalize hlo' : extractStridedSlice S64 ![0] R slices_S128_S64_0 = Lo at hlo
  generalize hhi' : extractStridedSlice S64 ![64] R slices_S128_S64_64 = Hi at hhi
  generalize hBig : broadcastInDim S64 ![] bcast_S_S64 (constant (F := Ideal) S_ .f32 0x47C35000#32) = Bg
  have hBg : ∀ i, Bg i = Cert.Gcn.big := fun i => by rw [← hBig, Cert.Broadcasts.splat_apply]; rfl
  generalize hS : Host.reduceAdd (F := Ideal) (φ := .f32) (mulf (F := Ideal) (Host.divf (F := Ideal) Lo Bg) Hi) (constant (F := Ideal) S_ .f32 0x00000000#32) reducesTo_S64_S_d0 h_S_ = Sc
  have hSc : Sc ix0 = 0 + ∑ k' : Fin 64,
      Ideal.div (0 + ∑ t : Fin 50, COL (ix3 t (0 : Fin 1) ⟨k'.val, by have := k'.isLt; omega⟩)) Cert.Gcn.big
        * (0 + ∑ t : Fin 50, COL (ix3 t (0 : Fin 1) ⟨64 + k'.val, by have := k'.isLt; omega⟩)) := by
    rw [← hS, sum_lanes, hzero]
    refine congrArg (fun z => (0 : EReal) + z) (Finset.sum_congr rfl fun k' _ => ?_)
    show Ideal.div (Lo (ix1 k')) (Bg (ix1 k')) * Hi (ix1 k') = _
    rw [hlo, hhi, hBg, hRq, hRq]
  generalize hM : Host.reduceAdd (F := Ideal) (φ := .f32) MM (constant (F := Ideal) S_ .f32 0x00000000#32) reducesTo_S50x64x64_S64x64_d0 h_S_ = Mt
  have hMt : Mt (ix2 j k) = 0 + ∑ t : Fin 50, MM (ix3 t j k) := by rw [← hM, sum_tiles_m, hzero]
  generalize hOne : constant (F := Ideal) S_ .f32 0x3F800000#32 = On
  have hOn : On ix0 = Cert.Gcn.one := by rw [← hOne]; rfl
  show Mt (ix2 j k) * broadcastInDim S64x64 ![] bcast_S_S64x64 (Host.divf (F := Ideal) On Sc) (ix2 j k) = _
  rw [Cert.Broadcasts.splat_apply, hMt]
  show _ * Ideal.div (On ix0) (Sc ix0) = _
  rw [hOn, hSc]

end Cert.KernelIdeal.HostLaws

end
-- ==== Proof.Host1.lean ====
/-
  The host operations between the two tiled regions, read at an index.

  After the first region its four output arrays hold what the tiles wrote; every other buffer is as the region found
  it.  The host then (i) moves the scaled projected rows along the edges: the row of edge `e`'s source word — a negative
  word moved up by the node count, then clamped into the table — is accumulated into the node whose number is the
  edge's target word; (ii) adds the 50 tiles' column sums and 64×64 products, forms the normalising scalar
  `1 / ∑ₖ (sumᵤ[k] / 100000) · sumᵥ[k]` and multiplies the summed matrix by it; (iii) reshapes the two bias vectors to rows.
-/
import proofs.«109391_j52415780880537_2_alg».proof.Proof.Gen.KernelIdeal.Frame
import proofs.«109391_j52415780880537_2_alg».proof.Proof.Spec
import proofs.«109391_j52415780880537_2_alg».proof.Proof.TileDefs
import proofs.«109391_j52415780880537_2_alg».proof.Proof.Host0
import proofs.«109391_j52415780880537_2_alg».proof.Proof.Host1Laws
import proofs.«109391_j52415780880537_2_alg».proof.Proof.LibEdgeIndex
import proofs.«109391_j52415780880537_2_alg».proof.Proof.LibBroadcasts
import Idealize.ShloMosaic.Lib.StableHlo.Run
import Idealize.ShloMosaic.Lib.Pipeline.Value
import Idealize.ShloMosaic.Lib.ValueLayout
import Idealize.ShloMosaic.Lib.IdealHost

noncomputable section

open Idealize.ShloMosaic Idealize.ShloMosaic.TcCoe Idealize.SL.Sem Idealize.ShloMosaic.ValueIdx

namespace Cert.KernelIdeal.HostB

open Cert.KernelIdeal Cert.KernelIdeal.Gen Cert.KernelIdeal.HostA Cert.KernelIdeal.HostLaws

variable (m : (ℓ : Loc nD τ sig) → Buf (Elt Ideal) ℓ) (ρ : Dev nD → PrngReg)

/-! ## The buffers after the first region -/

/-- A buffer the first region does not touch and that the first host stretch does not write holds its launch contents. -/
theorem W2_arg3 (c : Dev nD) : W2 m ρ c (Proc.devRef .tc main_arg3) = m ((c : Thread nD τ).loc main_arg3) :=
  (W2_of_ne m ρ c main_arg3 (by decide)).trans (by
    show StableHlo.after hostOps0 (W0 m ρ c) (Proc.devRef .tc main_arg3) = _
    after_results)
theorem W2_arg6 (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results)
theorem W2_arg7 (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results)

/-- The flattened source and target words survive the first region. -/
theorem W2_v1 (c : Dev nD) : (W2 m ρ c (Proc.devRef .tc main_v1) : S1600000.Idx → BitVec 32)
    = shapeCast S1600000 (extractStridedSlice S1x1600000 ![0, 0] (aEI m c) slices_S2x1600000_S1x1600000_0_0) shapeCasts_S1x1600000_S1600000 :=
  (W2_of_ne m ρ c main_v1 (by decide)).trans (by
    show StableHlo.after hostOps0 (W0 m ρ c) (Proc.devRef .tc main_v1) = _
    after_results
    rfl)
theorem W2_v3 (c : Dev nD) : (W2 m ρ c (Proc.devRef .tc main_v3) : S1600000.Idx → BitVec 32)
    = shapeCast S1600000 (extractStridedSlice S1x1600000 ![1, 0] (aEI m c) slices_S2x1600000_S1x1600000_1_0) shapeCasts_S1x1600000_S1600000 :=
  (W2_of_ne m ρ c main_v3 (by decide)).trans (by
    show StableHlo.after hostOps0 (W0 m ρ c) (Proc.devRef .tc main_v3) = _
    after_results
    rfl)

/-- The degree column is an input of the first region: it is left as found. -/
theorem W2_v11 (c : Dev nD) : W2 m ρ c (Proc.devRef .tc main_v11) = V1 m ρ c main_v11 :=
  (W2_arr m ρ c 1).trans (((dat0 (V1 m ρ) c).arrAt_in 1 rfl _).trans (A_eq0 (V1 m ρ) c 1))

/-- The first region's four outputs. -/
theorem W2_hs (c : Dev nD) : W2 m ρ c (Proc.devRef .tc main_v13_0) = Tile.oHs (V1 m ρ) c := W2_arr m ρ c 5
theorem W2_ut (c : Dev nD) : W2 m ρ c (Proc.devRef .tc main_v13_1) = Tile.oUt (V1 m ρ) c := W2_arr m ρ c 6
theorem W2_col (c : Dev nD) : W2 m ρ c (Proc.devRef .tc main_v13_2) = Tile.oCol (V1 m ρ) c := W2_arr m ρ c 7
theorem W2_m (c : Dev nD) : W2 m ρ c (Proc.devRef .tc main_v13_3) = Tile.oM (V1 m ρ) c := W2_arr m ρ c 8

/-! ## What the second region finds -/

/-- The degree column, unchanged since the first host stretch. -/
theorem V3_dinv (c : Dev nD) (n : Fin 100000) :
    Tile.bD (V3 m ρ) c (ix2 n (0 : Fin 1)) = Cert.Gcn.dinvK (aEI m c) n := by
  have e : Tile.bD (V3 m ρ) c = Tile.bD (V1 m ρ) c := by
    show StableHlo.after hostOps1 (W2 m ρ c) (Proc.devRef .tc main_v11) = _
    after_results_simp
    exact W2_v11 m ρ c
  exact (congrFun e _).trans (V1_dinv m ρ c n)

/-- The scaled projection and the kept attention lanes, as the first region left them. -/
theorem V3_hs (c : Dev nD) : Tile.bHs (V3 m ρ) c = Tile.oHs (V1 m ρ) c := by
  show StableHlo.after hostOps1 (W2 m ρ c) (Proc.devRef .tc main_v13_0) = _
  after_results_simp
  exact W2_hs m ρ c
theorem V3_ut (c : Dev nD) : Tile.bUt (V3 m ρ) c = Tile.oUt (V1 m ρ) c := by
  show StableHlo.after hostOps1 (W2 m ρ c) (Proc.devRef .tc main_v13_1) = _
  after_results_simp
  exact W2_ut m ρ c

/-- The reduction matrix as launched; the two bias rows are the bias vectors. -/
theorem V3_wr (c : Dev nD) : Tile.bWr (V3 m ρ) c = (m ((c : Thread nD τ).loc main_arg6) : S256x128.Idx → EReal) := by
  show StableHlo.after hostOps1 (W2 m ρ c) (Proc.devRef .tc main_arg6) = _
  after_results_simp
  exact W2_arg6 m ρ c
theorem V3_bg (c : Dev nD) (j : Fin 128) :
    Tile.bBg (V3 m ρ) c (ix2 (0 : Fin 1) j) = (m ((c : Thread nD τ).loc main_arg3) : S128.Idx → EReal) (ix1 j) := by
  have e : Tile.bBg (V3 m ρ) c = shapeCast S1x128 (m ((c : Thread nD τ).loc main_arg3) : S128.Idx → EReal) shapeCasts_S128_S1x128 := by
    show StableHlo.after hostOps1 (W2 m ρ c) (Proc.devRef .tc main_v36) = _
    after_results_simp
    rw [W2_arg3]
    rfl
  exact (congrFun e _).trans (shapeCast_a_1a_apply _ _ _ _)
theorem V3_br (c : Dev nD) (d : Fin 128) :
    Tile.bBr (V3 m ρ) c (ix2 (0 : Fin 1) d) = (m ((c : Thread nD τ).loc main_arg7) : S128.Idx → EReal) (ix1 d) := by
  have e : Tile.bBr (V3 m ρ) c = shapeCast S1x128 (m ((c : Thread nD τ).loc main_arg7) : S128.Idx → EReal) shapeCasts_S128_S1x128 := by
    show StableHlo.after hostOps1 (W2 m ρ c) (Proc.devRef .tc main_v37) = _
    after_results_simp
    rw [W2_arg7]
    rfl
  exact (congrFun e _).trans (shapeCast_a_1a_apply _ _ _ _)

/-- The edge-accumulated rows: the first region's scaled rows moved along the edges. -/
theorem V3_agg (c : Dev nD) (n : Fin 100000) (j : Fin 128) :
    Tile.bAgg (V3 m ρ) c (ix2 n j)
      = 0 + ∑ e : Fin 1600000, if Cert.Gcn.hits (Cert.Gcn.dstW (aEI m c) e) n
          then Tile.oHs (V1 m ρ) c (ix2 (Cert.Gcn.rowW (Cert.Gcn.srcW (aEI m c) e)) j) else 0 := by
  have e : Tile.bAgg (V3 m ρ) c = Host.scatterAdd (F := Ideal) scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 (dsts (aEI m c)))
      (Host.gather gather_S100000x128_S1600000x1_S1600000x128_1_0_n_n_0_1_1128 (Tile.oHs (V1 m ρ) c)
        (broadcastInDim S1600000x1 ![0] bcast_S1600000_S1600000x1_0
          (select (cmpi .slt (srcs (aEI m c)) (broadcastInDim S1600000 ![] bcast_S_S1600000 (constantI S_ 32 0#32)))
            (addi (srcs (aEI m c)) (broadcastInDim S1600000 ![] bcast_S_S1600000 (constantI S_ 32 100000#32)))
            (srcs (aEI m c))))) := by
    show StableHlo.after hostOps1 (W2 m ρ c) (Proc.devRef .tc main_v23) = _
    after_results_simp
    rw [W2_v3, W2_v1, W2_hs]
  exact (congrFun e _).trans (agg_term_apply (aEI m c) (Tile.oHs (V1 m ρ) c) n j)

/-- The scaled 64×64 matrix, from the first region's per-tile statistics. -/
theorem V3_ms (c : Dev nD) (j k : Fin 64) :
    Tile.bMs (V3 m ρ) c (ix2 j k)
      = (0 + ∑ t : Fin 50, Tile.oM (V1 m ρ) c (ix3 t j k))
        * Ideal.div Cert.Gcn.one
            (0 + ∑ k' : Fin 64,
              Ideal.div (0 + ∑ t : Fin 50, Tile.oCol (V1 m ρ) c (ix3 t (0 : Fin 1) ⟨k'.val, by have := k'.isLt; omega⟩)) Cert.Gcn.big
                * (0 + ∑ t : Fin 50, Tile.oCol (V1 m ρ) c (ix3 t (0 : Fin 1) ⟨64 + k'.val, by have := k'.isLt; omega⟩))) := by
  have e : Tile.bMs (V3 m ρ) c = mulf (F := Ideal) (Host.reduceAdd (F := Ideal) (φ := .f32) (Tile.oM (V1 m ρ) c) (constant (F := Ideal) S_ .f32 0x00000000#32) reducesTo_S50x64x64_S64x64_d0 h_S_)
      (broadcastInDim S64x64 ![] bcast_S_S64x64
        (Host.divf (F := Ideal) (constant (F := Ideal) S_ .f32 0x3F800000#32)
          (Host.reduceAdd (F := Ideal) (φ := .f32)
            (mulf (F := Ideal)
              (Host.divf (F := Ideal)
                (extractStridedSlice S64 ![0]
                  (shapeCast S128 (Host.reduceAdd (F := Ideal) (φ := .f32) (Tile.oCol (V1 m ρ) c) (constant (F := Ideal) S_ .f32 0x00000000#32) reducesTo_S50x1x128_S1x128_d0 h_S_) shapeCasts_S1x128_S128)
                  slices_S128_S64_0)
                (broadcastInDim S64 ![] bcast_S_S64 (constant (F := Ideal) S_ .f32 0x47C35000#32)))
              (extractStridedSlice S64 ![64]
                (shapeCast S128 (Host.reduceAdd (F := Ideal) (φ := .f32) (Tile.oCol (V1 m ρ) c) (constant (F := Ideal) S_ .f32 0x00000000#32) reducesTo_S50x1x128_S1x128_d0 h_S_) shapeCasts_S1x128_S128)
                slices_S128_S64_64))
            (constant (F := Ideal) S_ .f32 0x00000000#32) reducesTo_S64_S_d0 h_S_))) := by
    show StableHlo.after hostOps1 (W2 m ρ c) (Proc.devRef .tc main_v35) = _
    after_results_simp
    rw [W2_m, W2_col]
    rfl
  exact (congrFun e _).trans (ms_term_apply (Tile.oCol (V1 m ρ) c) (Tile.oM (V1 m ρ) c) j k)

end Cert.KernelIdeal.HostB

end
-- ==== Proof.LibPlainDot.lean ====
/-
  A plain matrix product — an [M, K] operand times a [K, N] operand, the left one contracted on its second axis
  and the right one on its first, no batch axis — read at the entry (r, c) over the extended reals: the sum over
  k of the left operand at (r, k) times the right operand at (k, c). Stated once for the on-chip product
  accumulated into a zero splat and once for the host's dot_general, for any dimension record that is the plain
  one, so that both sides of a comparison land on the same sum over `Fin K`.
-/
import Idealize.ShloMosaic.Lib.ValueIdx
import Idealize.ShloMosaic.PureOps.Ideal.Laws

noncomputable section

namespace Cert.PlainDot

open Idealize.ShloMosaic Idealize.ShloMosaic.ValueIdx

variable {M K N : ℕ}

/-- The contraction index of the plain product has one axis, of extent `K`. -/
theorem contr_rank : (DotDims.plain M K N).contr.rank = 1 := rfl
theorem contr_size : (DotDims.plain M K N).contr.size ⟨0, by rw [contr_rank]; exact Nat.one_pos⟩ = K := rfl

/-- The one-coordinate contraction index with coordinate `k`. -/
abbrev cidx (k : Fin K) : (DotDims.plain M K N).contr.Idx := (contrEquiv1 (DotDims.plain M K N) K contr_rank contr_size).symm k

/-- The left operand is read at row `r`, column `k`. -/
theorem lhsIdx_eq (r : Fin M) (c : Fin N) (k : Fin K) :
    (DotDims.plain M K N).lhsIdx (ix2 r c) (cidx k) = ix2 r k := by
  funext a
  apply Fin.ext
  match a with
  | ⟨0, _⟩ => rfl
  | ⟨1, _⟩ =>
    exact ((DotDims.plain M K N).lhsIdx_val_of_single rfl (ix2 r c) (cidx k)).trans
      (contrEquiv1_symm_val (DotDims.plain M K N) K contr_rank contr_size k)

/-- The right operand is read at row `k`, column `c`. -/
theorem rhsIdx_eq (r : Fin M) (c : Fin N) (k : Fin K) :
    (DotDims.plain M K N).rhsIdx (ix2 r c) (cidx k) = ix2 k c := by
  funext a
  apply Fin.ext
  match a with
  | ⟨0, _⟩ =>
    exact ((DotDims.plain M K N).rhsIdx_val_of_single rfl (ix2 r c) (cidx k)).trans
      (contrEquiv1_symm_val (DotDims.plain M K N) K contr_rank contr_size k)
  | ⟨1, _⟩ => rfl

/-- The contraction sum of the plain product, re-indexed over `Fin K`. -/
theorem sum_eq (l : (⟨2, ![M, K]⟩ : Shape).Idx → EReal) (r : (⟨2, ![K, N]⟩ : Shape).Idx → EReal) (p : Fin M) (c : Fin N) :
    (∑ q : (DotDims.plain M K N).contr.Idx, l ((DotDims.plain M K N).lhsIdx (ix2 p c) q) * r ((DotDims.plain M K N).rhsIdx (ix2 p c) q))
      = ∑ k : Fin K, l (ix2 p k) * r (ix2 k c) := by
  rw [← Equiv.sum_comp (contrEquiv1 (DotDims.plain M K N) K contr_rank contr_size).symm]
  refine Finset.sum_congr rfl fun k _ => ?_
  rw [lhsIdx_eq p c k, rhsIdx_eq p c k]

/-- The on-chip product accumulated into the zero splat, at entry `(p, c)`: the plain sum. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (c : Fin N) :
    FloatOps.matmul d prec l r (constant (F := Ideal) ⟨2, ![M, N]⟩ .f32 0x00000000#32) (ix2 p c) = ∑ k : Fin K, l (ix2 p k) * r (ix2 k c) := by
  subst hd
  rw [Ideal.matmul_constant_zero_apply]
  exact sum_eq l r p c

/-- The host's dot_general at entry `(p, c)`: the same plain sum, whatever the precision and the schedule key. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂) (p : Fin M) (c : Fin N) :
    FloatOps.dotGeneral d prec sched l r (ix2 p c) = ∑ k : Fin K, l (ix2 p k) * r (ix2 k c) := by
  subst hd
  rw [Ideal.dotGeneral_apply]
  exact sum_eq l r p c

end Cert.PlainDot

end
-- ==== Proof.Tile0A.lean ====
/-
  The first tiled region cuts the 100000 nodes into fifty tiles of 2000 rows; row `p` of the tile at grid point `t` is
  node `2000 t + p`. For that node the region leaves the scaled projection `dinv[n] · ∑ k, x[n,k] · Wg[k,j]` and the kept
  attention lanes: lanes 0–63 and 192–255 of the rectified attention feature `max (∑ k, x[n,k] · Wa[k,q] + ba[q]) 0`
  set side by side (over the extended reals narrowing a float is the identity). Each point writes back its own 2000
  rows and the fifty row blocks cover both arrays, so after the last point each array is that function of node and lane.
-/
import proofs.«109391_j52415780880537_2_alg».proof.Proof.Gen.KernelIdeal.Frame
import proofs.«109391_j52415780880537_2_alg».proof.Proof.Spec
import proofs.«109391_j52415780880537_2_alg».proof.Proof.TileDefs
import proofs.«109391_j52415780880537_2_alg».proof.Proof.LibPlainDot
import proofs.«109391_j52415780880537_2_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Tile.RowArrays

open Cert.KernelIdeal Cert.KernelIdeal.Gen

/-! ## The two stored values of a tile, entry by entry -/

/-- The scaled projection of a tile at row `p`, lane `j`. -/
theorem scaledProj_apply (x0 : Vec Ideal S2000x128 .f32) (w : Vec Ideal S128x128 .f32) (d : Vec Ideal S2000x1 .f32)
    (p : Fin 2000) (j : Fin 128) :
    k0_pay3 x0 w d (ix2 p j) = d (ix2 p (0 : Fin 1)) * ∑ k : Fin 128, x0 (ix2 p k) * w (ix2 k j) := by
  unfold k0_pay3 k0_pay2
  refine congrArg₂ (· * ·) ?_ ?_
  · refine (Cert.GraphConv.Column.broadcastTo_a1_ab_apply _ _ p j).trans ?_
    rw [shapeCast_self]
  · exact Cert.PlainDot.matmul_zero_apply _ rfl _ _ _ p j

/-- The rectified attention feature of a tile at row `p`, lane `q`. -/
theorem attn_apply (x0 : Vec Ideal S2000x128 .f32) (w : Vec Ideal S128x256 .f32) (b : Vec Ideal S1x256 .f32)
    (p : Fin 2000) (q : Fin 256) :
    k0_pay4 x0 w b (ix2 p q) = max ((∑ k : Fin 128, x0 (ix2 p k) * w (ix2 k q)) + b (ix2 (0 : Fin 1) q)) 0 := by
  unfold k0_pay4 k0_pay2
  refine congrArg₂ max (congrArg₂ (· + ·) ?_ ?_) ?_
  · exact Cert.PlainDot.matmul_zero_apply _ rfl _ _ _ p q
  · refine (broadcastTo_1b_ab_apply _ _ p q).trans ?_
    rw [shapeCast_self]
  · exact Ideal.ofBits_zero_f32

/-- The kept lanes of a tile: lane `q` below 64 is attention lane `q`, lane `q` from 64 on is attention lane `q + 128`
    (the concatenation of lanes 0–63 and lanes 192–255 of the attention feature). -/
theorem kept_apply (x0 : Vec Ideal S2000x128 .f32) (w : Vec Ideal S128x256 .f32) (b : Vec Ideal S1x256 .f32)
    (p : Fin 2000) (q : Fin 128) :
    k0_pay8 x0 w b (ix2 p q)
      = if h : q.val < 64 then k0_pay4 x0 w b (ix2 p (⟨q.val, by omega⟩ : Fin 256))
        else k0_pay4 x0 w b (ix2 p (⟨q.val + 128, by have := q.isLt; omega⟩ : Fin 256)) := by
  unfold k0_pay8 k0_pay5
  show concatenate S2000x128 1 [⟨S2000x64, extractStridedSlice S2000x64 ![0, 0] (k0_pay4 x0 w b) slices_S2000x256_o0_0_S2000x64⟩,
      ⟨S2000x64, extractStridedSlice S2000x64 ![0, 192] (k0_pay4 x0 w b) slices_S2000x256_o0_192_S2000x64⟩]
      concatenates_S2000x64_S2000x64_S2000x128_d1 (ix2 p q) = _
  by_cases h : q.val < 64
  · rw [dif_pos h]
    refine (concatenate_pair_apply_left (t := S2000x128) (s₁ := S2000x64) (s₂ := S2000x64) (1 : Fin 2) _ _ _ (ix2 p q) rfl
      (ix2 p (⟨q.val, h⟩ : Fin 64) : S2000x64.Idx) (fun a => ?_)).trans ?_
    · match a with
      | ⟨0, _⟩ => rfl
      | ⟨1, _⟩ => rfl
    · exact slice2_axis1_apply 0 (k0_pay4 x0 w b) slices_S2000x256_o0_0_S2000x64 p (⟨q.val, h⟩ : Fin 64) _ (Nat.zero_add _).symm
  · rw [dif_neg h]
    have hq := q.isLt
    refine (concatenate_pair_apply_right (t := S2000x128) (s₁ := S2000x64) (s₂ := S2000x64) (1 : Fin 2) _ _ _ (ix2 p q) rfl rfl
      (ix2 p (⟨q.val - 64, by omega⟩ : Fin 64) : S2000x64.Idx) (fun a ha => ?_) ?_).trans ?_
    · match a with
      | ⟨0, _⟩ => rfl
      | ⟨1, _⟩ => exact absurd rfl ha
    · show q.val - 64 + 64 = q.val; omega
    · exact slice2_axis1_apply 192 (k0_pay4 x0 w b) slices_S2000x256_o0_192_S2000x64 p (⟨q.val - 64, by omega⟩ : Fin 64) _ (by show q.val + 128 = 192 + (q.val - 64); omega)

variable (V : (c : Dev nD) → (b : Ref sig .tc) → Buf (Elt Ideal) ((c : Thread nD τ).loc b))

/-! ## Where a tile's blocks sit in their arrays -/

theorem zeroOffsets : (![0, 0] : Fin 2 → Nat) = fun _ => 0 := funext fun a => by fin_cases a <;> rfl

/-- The block index of every window at grid point `t`: the row-tiled windows sit at row block `t`, the whole-array
    windows at block zero (decided over the fifty points). -/
theorem blockIndex : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Row `p` of the tile at grid point `t` is row `2000 t + p` of the array. -/
def tileRow (t : Fin cfg0.N) (p : Fin 2000) : Fin 100000 :=
  ⟨t.val * 2000 + p.val, by have := t.isLt; have h : cfg0.N = 50 := N_0; omega⟩

theorem tileRow_val (t : Fin cfg0.N) (p : Fin 2000) : (tileRow t p).val = t.val * 2000 + p.val := rfl

/-- The feature block of a tile: rows `2000 t …` of the node features. -/
theorem xBlock (c : Dev nD) (t : Fin cfg0.N) (p : Fin 2000) (k : Fin 128) :
    (iblk0 V c 0 t : Vec Ideal S2000x128 .f32) (ix2 p k) = bX V c (ix2 (tileRow t p) k) := by
  obtain ⟨e0, e1, -⟩ := blockIndex t
  unfold iblk0
  rw [View.read_apply]
  show V c main_arg0 _ = V c main_arg0 _
  refine congrArg _ (funext fun a => Fin.ext ?_)
  match a with
  | ⟨0, _⟩ => show win0_0.index t (0 : Fin 2) * 2000 + 1 * p.val = t.val * 2000 + p.val; omega
  | ⟨1, _⟩ => show win0_0.index t (1 : Fin 2) * 128 + 1 * k.val = k.val; omega

/-- The inverse-root-degree block of a tile: the same rows of the column. -/
theorem dBlock (c : Dev nD) (t : Fin cfg0.N) (p : Fin 2000) (u : Fin 1) :
    (iblk0 V c 1 t : Vec Ideal S2000x1 .f32) (ix2 p u) = bD V c (ix2 (tileRow t p) u) := by
  obtain ⟨-, -, e0, e1, -⟩ := blockIndex t
  unfold iblk0
  rw [View.read_apply]
  show V c main_v11 _ = V c main_v11 _
  refine congrArg _ (funext fun a => Fin.ext ?_)
  match a with
  | ⟨0, _⟩ => show win0_1.index t (0 : Fin 2) * 2000 + 1 * p.val = t.val * 2000 + p.val; omega
  | ⟨1, _⟩ => show win0_1.index t (1 : Fin 2) * 1 + 1 * u.val = u.val; omega

/-- The projection matrix is staged whole at every point. -/
theorem wgBlock (c : Dev nD) (t : Fin cfg0.N) (k : Fin 128) (j : Fin 128) :
    (iblk0 V c 2 t : Vec Ideal S128x128 .f32) (ix2 k j) = bWg V c (ix2 k j) := by
  obtain ⟨-, -, -, -, e0, e1, -⟩ := blockIndex t
  unfold iblk0
  rw [View.read_apply]
  show V c main_arg2 _ = V c main_arg2 _
  refine congrArg _ (funext fun a => Fin.ext ?_)
  match a with
  | ⟨0, _⟩ => show win0_2.index t (0 : Fin 2) * 128 + 1 * k.val = k.val; omega
  | ⟨1, _⟩ => show win0_2.index t (1 : Fin 2) * 128 + 1 * j.val = j.val; omega

/-- The attention matrix is staged whole at every point. -/
theorem waBlock (c : Dev nD) (t : Fin cfg0.N) (k : Fin 128) (q : Fin 256) :
    (iblk0 V c 3 t : Vec Ideal S128x256 .f32) (ix2 k q) = bWa V c (ix2 k q) := by
  obtain ⟨-, -, -, -, -, -, e0, e1, -⟩ := blockIndex t
  unfold iblk0
  rw [View.read_apply]
  show V c main_arg4 _ = V c main_arg4 _
  refine congrArg _ (funext fun a => Fin.ext ?_)
  match a with
  | ⟨0, _⟩ => show win0_3.index t (0 : Fin 2) * 128 + 1 * k.val = k.val; omega
  | ⟨1, _⟩ => show win0_3.index t (1 : Fin 2) * 256 + 1 * q.val = q.val; omega

/-- The attention bias row is staged whole at every point. -/
theorem baBlock (c : Dev nD) (t : Fin cfg0.N) (u : Fin 1) (q : Fin 256) :
    (iblk0 V c 4 t : Vec Ideal S1x256 .f32) (ix2 u q) = bBa V c (ix2 u q) := by
  obtain ⟨-, -, -, -, -, -, -, -, e0, e1, -⟩ := blockIndex t
  unfold iblk0
  rw [View.read_apply]
  show V c main_v12 _ = V c main_v12 _
  refine congrArg _ (funext fun a => Fin.ext ?_)
  match a with
  | ⟨0, _⟩ => show win0_4.index t (0 : Fin 2) * 1 + 1 * u.val = u.val; omega
  | ⟨1, _⟩ => show win0_4.index t (1 : Fin 2) * 256 + 1 * q.val = q.val; omega

/-- Entry `(p, j)` of the scaled projection's block at point `t` is entry `(2000 t + p, j)` of its array. -/
theorem hsEmb (t : Fin cfg0.N) (p : Fin 2000) (j : Fin 128) :
    ((cfg0.win 5).blk t).view.emb (ix2 p j) = (ix2 (tileRow t p) j : S100000x128.Idx) := by
  obtain ⟨-, -, -, -, -, -, -, -, -, -, e0, e1, -⟩ := blockIndex t
  refine funext fun a => Fin.ext ?_
  match a with
  | ⟨0, _⟩ => show win0_5.index t (0 : Fin 2) * 2000 + 1 * p.val = t.val * 2000 + p.val; omega
  | ⟨1, _⟩ => show win0_5.index t (1 : Fin 2) * 128 + 1 * j.val = j.val; omega

/-- Entry `(p, q)` of the kept attention lanes' block at point `t` is entry `(2000 t + p, q)` of its array. -/
theorem utEmb (t : Fin cfg0.N) (p : Fin 2000) (q : Fin 128) :
    ((cfg0.win 6).blk t).view.emb (ix2 p q) = (ix2 (tileRow t p) q : S100000x128.Idx) := by
  obtain ⟨-, -, -, -, -, -, -, -, -, -, -, -, e0, e1⟩ := blockIndex t
  refine funext fun a => Fin.ext ?_
  match a with
  | ⟨0, _⟩ => show win0_6.index t (0 : Fin 2) * 2000 + 1 * p.val = t.val * 2000 + p.val; omega
  | ⟨1, _⟩ => show win0_6.index t (1 : Fin 2) * 128 + 1 * q.val = q.val; omega

/-! ## The scaled projection array -/

/-- The scaled projection of node `n`, lane `j`, from the arrays as the region finds them. -/
def hsAt (c : Dev nD) (n : Fin 100000) (j : Fin 128) : EReal :=
  bD V c (ix2 n (0 : Fin 1)) * ∑ k : Fin 128, bX V c (ix2 n k) * bWg V c (ix2 k j)

/-- The whole array of them. -/
def hsArray (c : Dev nD) : S100000x128.Idx → EReal := fun i => hsAt V c (i 0) (i 1)

/-- Grid point `t` writes back rows `2000 t …` of that array. -/
theorem hs_flushed (c : Dev nD) (t : Fin cfg0.N) :
    (dat0 V c).flushed 5 t = ((cfg0.win 5).blk t).view.read (Elt Ideal) (hsArray V c) := by
  show (cfg0.win 5).cut (grid0.coords t) ((dat0 V c).after 5 t) = _
  rw [after0_5]
  unfold out0_5
  rw [View.canon_unit_zero zeroOffsets]
  simp only [View.ld_unit_zero (S := S2000x128) zeroOffsets, View.ld_unit_zero (S := S128x128) zeroOffsets,
    View.ld_unit_zero (S := S2000x1) zeroOffsets]
  funext y
  obtain ⟨p, j, rfl⟩ : ∃ (p : Fin 2000) (j : Fin 128), y = ix2 p j := ⟨y 0, y 1, eq_ix2 y⟩
  show k0_pay3 (iblk0 V c 0 t) (iblk0 V c 2 t) (iblk0 V c 1 t) (ix2 p j) = hsArray V c (((cfg0.win 5).blk t).view.emb (ix2 p j))
  refine (scaledProj_apply (iblk0 V c 0 t) (iblk0 V c 2 t) (iblk0 V c 1 t) p j).trans ?_
  rw [hsEmb t p j, dBlock V c t p 0]
  simp only [xBlock V c t p, wgBlock V c t]
  rfl

/-- An array index lies in point `t`'s block of the scaled projection iff each coordinate is in the block's range. -/
theorem hs_mem_blk (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v13_0).slice (win0_5.rect t)).set ↔ _
  rw [View.set_slice_whole, Rect.mem_set_unit]
  exact Iff.rfl

/-- Row `r` of the array lies in the block of point `r / 2000`. -/
theorem hs_cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 50 := N_0
  let t : Fin cfg0.N := ⟨(i 0).val / 2000, by omega⟩
  have ht : t.val = (i 0).val / 2000 := rfl
  obtain ⟨-, -, -, -, -, -, -, -, -, -, e0, e1, -⟩ := blockIndex t
  refine ⟨t, flush0_5 t, ?_⟩
  rw [hs_mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- So after the last point the array is the scaled projection, entry by entry. -/
theorem hs_final (c : Dev nD) : (dat0 V c).arrAt 5 cfg0.N = hsArray V c :=
  (dat0 V c).arrAt_eq_of_cover 5 (hsArray V c) (fun t _ => hs_flushed V c t) hs_cover

/-! ## The kept attention lanes' array -/

/-- The kept attention lane `q` of node `n`: attention lane `q` below 64, attention lane `q + 128` from 64 on. -/
def utAt (c : Dev nD) (n : Fin 100000) (q : Fin 128) : EReal :=
  if h : q.val < 64 then Tv V c n ⟨q.val, by omega⟩ else Tv V c n ⟨q.val + 128, by have := q.isLt; omega⟩

/-- The whole array of them. -/
def utArray (c : Dev nD) : S100000x128.Idx → EReal := fun i => utAt V c (i 0) (i 1)

/-- The attention feature of a tile's row is the node's, read off the arrays the region finds. -/
theorem attn_tile (c : Dev nD) (t : Fin cfg0.N) (p : Fin 2000) (q : Fin 256) :
    k0_pay4 (iblk0 V c 0 t) (iblk0 V c 3 t) (iblk0 V c 4 t) (ix2 p q) = Tv V c (tileRow t p) q := by
  refine (attn_apply (iblk0 V c 0 t) (iblk0 V c 3 t) (iblk0 V c 4 t) p q).trans ?_
  rw [baBlock V c t 0 q]
  simp only [xBlock V c t p, waBlock V c t]
  rfl

/-- Grid point `t` writes back rows `2000 t …` of that array. -/
theorem ut_flushed (c : Dev nD) (t : Fin cfg0.N) :
    (dat0 V c).flushed 6 t = ((cfg0.win 6).blk t).view.read (Elt Ideal) (utArray V c) := by
  show (cfg0.win 6).cut (grid0.coords t) ((dat0 V c).after 6 t) = _
  rw [after0_6]
  unfold out0_6
  rw [View.canon_unit_zero zeroOffsets]
  simp only [View.ld_unit_zero (S := S2000x128) zeroOffsets, View.ld_unit_zero (S := S128x256) zeroOffsets,
    View.ld_unit_zero (S := S1x256) zeroOffsets]
  funext y
  obtain ⟨p, q, rfl⟩ : ∃ (p : Fin 2000) (q : Fin 128), y = ix2 p q := ⟨y 0, y 1, eq_ix2 y⟩
  show k0_pay8 (iblk0 V c 0 t) (iblk0 V c 3 t) (iblk0 V c 4 t) (ix2 p q) = utArray V c (((cfg0.win 6).blk t).view.emb (ix2 p q))
  refine (kept_apply (iblk0 V c 0 t) (iblk0 V c 3 t) (iblk0 V c 4 t) p q).trans ?_
  rw [utEmb t p q]
  simp only [attn_tile V c t p]
  rfl

/-- An array index lies in point `t`'s block of the kept lanes iff each coordinate is in the block's range. -/
theorem ut_mem_blk (t : Fin cfg0.N) (i : S100000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v13_1).slice (win0_6.rect t)).set ↔ _
  rw [View.set_slice_whole, Rect.mem_set_unit]
  exact Iff.rfl

/-- Row `r` of the array lies in the block of point `r / 2000`. -/
theorem ut_cover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 50 := N_0
  let t : Fin cfg0.N := ⟨(i 0).val / 2000, by omega⟩
  have ht : t.val = (i 0).val / 2000 := rfl
  obtain ⟨-, -, -, -, -, -, -, -, -, -, -, -, e0, e1⟩ := blockIndex t
  refine ⟨t, flush0_6 t, ?_⟩
  rw [ut_mem_blk]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 128 ≤ (i 1).val ∧ (i 1).val < win0_6.index t (1 : Fin 2) * 128 + 128; omega

/-- So after the last point the array is the kept attention lanes, entry by entry. -/
theorem ut_final (c : Dev nD) : (dat0 V c).arrAt 6 cfg0.N = utArray V c :=
  (dat0 V c).arrAt_eq_of_cover 6 (utArray V c) (fun t _ => ut_flushed V c t) ut_cover

end Cert.KernelIdeal.Tile.RowArrays

namespace Cert.KernelIdeal.Tile

open Cert.KernelIdeal Cert.KernelIdeal.Gen

variable (V : (c : Dev nD) → (b : Ref sig .tc) → Buf (Elt Ideal) ((c : Thread nD τ).loc b))

/-- The scaled projection array after the first tiled region: row `n` is the node's inverse-root degree (the column
    `[100000,1]` the region finds) times the node's projected features. -/
theorem hs_arr (c : Dev nD) (n : Fin 100000) (j : Fin 128) :
    oHs V c (ix2 n j) = bD V c (ix2 n (0 : Fin 1)) * ∑ k : Fin 128, bX V c (ix2 n k) * bWg V c (ix2 k j) := by
  show (dat0 V c).arrAt 5 cfg0.N (ix2 n j) = _
  rw [RowArrays.hs_final V c]
  rfl

/-- The attention array kept for the second region: lanes 0–63 of row `n` are attention lanes 0–63, lanes 64–127 are
    attention lanes 192–255. -/
theorem ut_arr (c : Dev nD) (n : Fin 100000) (q : Fin 128) :
    oUt V c (ix2 n q)
      = if h : q.val < 64 then Tv V c n ⟨q.val, by omega⟩ else Tv V c n ⟨q.val + 128, by have := q.isLt; omega⟩ := by
  show (dat0 V c).arrAt 6 cfg0.N (ix2 n q) = _
  rw [RowArrays.ut_final V c]
  rfl

end Cert.KernelIdeal.Tile

end
-- ==== Proof.LibDotTN.lean ====
/-
  A matrix product that contracts the FIRST axis of both operands — a [K, M] operand against a [K, N] operand,
  giving [M, N], no batch axis: the product of the left operand's transpose with the right operand, taken without
  forming the transpose — read at the entry (p, c) over the extended reals: the sum over k of the left operand at
  (k, p) times the right operand at (k, c). Stated for the on-chip product accumulated into a zero splat, for any
  dimension record that is this one.
-/
import Idealize.ShloMosaic.Lib.ValueIdx
import Idealize.ShloMosaic.PureOps.Ideal.Laws

noncomputable section

open scoped BigOperators

namespace Cert.DotTN

open Idealize.ShloMosaic Idealize.ShloMosaic.ValueIdx

/-- The dimension record: both operands contracted on axis 0, their axes 1 kept, left before right. -/
def tn (K M N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

variable {K M N : ℕ}

/-- The contraction index has one axis, of extent `K`. -/
theorem contr_rank : (tn K M N).contr.rank = 1 := rfl
theorem contr_size : (tn K M N).contr.size ⟨0, by rw [contr_rank]; exact Nat.one_pos⟩ = K := rfl

/-- The one-coordinate contraction index with coordinate `k`. -/
abbrev cidx (k : Fin K) : (tn K M N).contr.Idx := (contrEquiv1 (tn K M N) K contr_rank contr_size).symm k

/-- The left operand is read at row `k`, column `p`. -/
theorem lhsIdx_eq (p : Fin M) (c : Fin N) (k : Fin K) :
    (tn K M N).lhsIdx (ix2 p c) (cidx k) = ix2 k p := by
  funext a
  apply Fin.ext
  match a with
  | ⟨0, _⟩ =>
    exact ((tn K M N).lhsIdx_val_of_single rfl (ix2 p c) (cidx k)).trans
      (contrEquiv1_symm_val (tn K M N) K contr_rank contr_size k)
  | ⟨1, _⟩ => rfl

/-- The right operand is read at row `k`, column `c`. -/
theorem rhsIdx_eq (p : Fin M) (c : Fin N) (k : Fin K) :
    (tn K M N).rhsIdx (ix2 p c) (cidx k) = ix2 k c := by
  funext a
  apply Fin.ext
  match a with
  | ⟨0, _⟩ =>
    exact ((tn K M N).rhsIdx_val_of_single rfl (ix2 p c) (cidx k)).trans
      (contrEquiv1_symm_val (tn K M N) K contr_rank contr_size k)
  | ⟨1, _⟩ => rfl

/-- The contraction sum, re-indexed over `Fin K`. -/
theorem sum_eq (l : (⟨2, ![K, M]⟩ : Shape).Idx → EReal) (r : (⟨2, ![K, N]⟩ : Shape).Idx → EReal) (p : Fin M) (c : Fin N) :
    (∑ q : (tn K M N).contr.Idx, l ((tn K M N).lhsIdx (ix2 p c) q) * r ((tn K M N).rhsIdx (ix2 p c) q))
      = ∑ k : Fin K, l (ix2 k p) * r (ix2 k c) := by
  rw [← Equiv.sum_comp (contrEquiv1 (tn K M N) K contr_rank contr_size).symm]
  refine Finset.sum_congr rfl fun k _ => ?_
  rw [lhsIdx_eq p c k, rhsIdx_eq p c k]

/-- The on-chip product accumulated into the zero splat, at entry `(p, c)`: that sum. -/
theorem matmul_zero_apply {φ₁ φ₂ : FTy} (d : DotDims ⟨2, ![K, M]⟩ ⟨2, ![K, N]⟩ ⟨2, ![M, N]⟩) (hd : d = tn K M N)
    (prec : Option ContractPrecision) (l : FVec Ideal ⟨2, ![K, M]⟩ φ₁) (r : FVec Ideal ⟨2, ![K, N]⟩ φ₂) (p : Fin M) (c : Fin N) :
    FloatOps.matmul d prec l r (constant (F := Ideal) ⟨2, ![M, N]⟩ .f32 0x00000000#32) (ix2 p c) = ∑ k : Fin K, l (ix2 k p) * r (ix2 k c) := by
  subst hd
  rw [Ideal.matmul_constant_zero_apply]
  exact sum_eq l r p c

end Cert.DotTN

end
-- ==== Proof.LibLaneSum.lean ====
/-
  A float sum along ONE axis of a vector, read over the extended reals at an index given by coordinates: it is the
  finite sum over that axis's coordinate of the source at the index with the coordinate put back. Three forms:
  along the last axis of a matrix `[a, b]` (each row's sum), along the last axis of a rank-3 array `[a, c, b]`
  (each row's sum, slab by slab), and along the first axis of a matrix `[a, b]` (each column's sum). Each is the
  general one-axis law with the re-inserted index written by coordinates.
-/
import Idealize.ShloMosaic.PureOps.Ideal.Laws
import Idealize.ShloMosaic.Lib.ValueIdx

namespace Cert.LaneSum

open Idealize.ShloMosaic Idealize.ShloMosaic.ValueIdx

variable {φ : FTy}

/-- The sum of row `i` of a matrix: over the column coordinate. -/
theorem sum_last2 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ d : Fin b, src (ix2 i d) := by
  refine (Ideal.multiReduction_add_single src acc h hφ hacc (ix1 i)).trans ?_
  refine Finset.sum_congr rfl fun d _ => ?_
  exact congrArg src (funext fun ax => Fin.ext (by match ax with | ⟨0, _⟩ => rfl | ⟨1, _⟩ => rfl))

/-- The sum of row `(i, j)` of a rank-3 array: over the last coordinate. -/
theorem sum_last3 {a c b : ℕ} (src : FVec Ideal ⟨3, ![a, c, b]⟩ φ) (acc : BitVec φ.bits)
    (h : (⟨3, ![a, c, b]⟩ : Shape).Reduces [2] ⟨2, ![a, c]⟩) (hφ : FKind.Formats φ) (hacc : acc = FKind.add.neutral φ hφ)
    (i : Fin a) (j : Fin c) :
    multiReduction .add [2] ⟨2, ![a, c]⟩ src acc h hφ hacc (ix2 i j) = ∑ d : Fin b, src (ix3 i j d) := by
  refine (Ideal.multiReduction_add_single src acc h hφ hacc (ix2 i j)).trans ?_
  refine Finset.sum_congr rfl fun d _ => ?_
  exact congrArg src (funext fun ax => Fin.ext (by match ax with | ⟨0, _⟩ => rfl | ⟨1, _⟩ => rfl | ⟨2, _⟩ => rfl))

/-- The sum of column `j` of a matrix: over the row coordinate. -/
theorem sum_first2 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ i : Fin a, src (ix2 i j) := by
  refine (Ideal.multiReduction_add_single src acc h hφ hacc (ix1 j)).trans ?_
  refine Finset.sum_congr rfl fun i _ => ?_
  exact congrArg src (funext fun ax => Fin.ext (by match ax with | ⟨0, _⟩ => rfl | ⟨1, _⟩ => rfl))

end Cert.LaneSum
-- ==== Proof.Tile0B.lean ====
/-
  The attention statistics the first tiled region leaves, tile by tile. Entry (r, q) of a tile's rectified product is
  max (x[r,·] · Wa[·,q] + ba[q]) 0 over the tile's rows; the row of column sums adds lanes 0–63 and lanes 64–127 over the
  tile's 2000 rows and lays the two halves side by side, and the 64×64 product contracts the rows of lanes 64–127 against
  lanes 128–191. Grid point t reads rows t·2000 … t·2000 + 1999 of the node features and the whole matrix and bias row, and
  its two output blocks are slab t of the [50,1,128] and [50,64,64] arrays, so the slabs tile both arrays.
-/
import proofs.«109391_j52415780880537_2_alg».proof.Proof.Gen.KernelIdeal.Frame
import proofs.«109391_j52415780880537_2_alg».proof.Proof.Spec
import proofs.«109391_j52415780880537_2_alg».proof.Proof.TileDefs
import proofs.«109391_j52415780880537_2_alg».proof.Proof.LibPlainDot
import proofs.«109391_j52415780880537_2_alg».proof.Proof.LibDotTN
import proofs.«109391_j52415780880537_2_alg».proof.Proof.LibLaneSum
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Tile

open Cert.KernelIdeal Cert.KernelIdeal.Gen

variable (V : (c : Dev nD) → (b : Ref sig .tc) → Buf (Elt Ideal) ((c : Thread nD τ).loc b))

namespace Stats

/-- The rectified attention feature of row `r`, lane `q` of a tile, from the tile's rows, the matrix and the bias row. -/
def feat (x0 : Vec Ideal S2000x128 .f32) (x3 : Vec Ideal S128x256 .f32) (x4 : Vec Ideal S1x256 .f32)
    (r : Fin 2000) (q : Fin 256) : EReal :=
  max ((∑ k : Fin 128, x0 (ix2 r k) * x3 (ix2 k q)) + x4 (ix2 (0 : Fin 1) q)) 0

/-- Entry `(r, q)` of the rectified product: the plain product's sum, the bias row's entry, the maximum with the zero word. -/
theorem pay4_apply (x0 : Vec Ideal S2000x128 .f32) (x3 : Vec Ideal S128x256 .f32) (x4 : Vec Ideal S1x256 .f32)
    (r : Fin 2000) (q : Fin 256) : k0_pay4 x0 x3 x4 (ix2 r q) = feat x0 x3 x4 r q := by
  unfold k0_pay4 k0_pay2 feat
  simp only [maximumf_apply, addf_apply, broadcast_apply]
  have hm : matmul dot_S2000x128_S128x256_S2000x256_1_0_0_1_n_n none (truncf FTy.bf16 x0 bitsLt_bf16_f32)
          (truncf FTy.bf16 x3 bitsLt_bf16_f32) (constant (F := Ideal) S2000x256 FTy.f32 0x00000000#32) (ix2 r q)
        = ∑ k : Fin 128, x0 (ix2 r k) * x3 (ix2 k q) :=
    Cert.PlainDot.matmul_zero_apply _ rfl none _ _ r q
  have hb : broadcastTo S2000x256 (shapeCast S1x256 x4 shapeCasts_S1x256_S1x256) broadcasts_S1x256_S2000x256 (ix2 r q)
        = x4 (ix2 (0 : Fin 1) q) := by
    rw [shapeCast_self]
    exact broadcastTo_1b_ab_apply x4 broadcasts_S1x256_S2000x256 r q
  rw [hm, hb, Ideal.ofBits_def, Ideal.ofBits_zero_f32]

/-- The four blocks of 64 lanes are column slices of the rectified product. -/
theorem pay5_apply (x0 : Vec Ideal S2000x128 .f32) (x3 : Vec Ideal S128x256 .f32) (x4 : Vec Ideal S1x256 .f32)
    (r : Fin 2000) (k : Fin 64) : k0_pay5 x0 x3 x4 (ix2 r k) = feat x0 x3 x4 r (Cert.Gcn.lane0 k) := by
  unfold k0_pay5
  exact (slice2_axis1_apply 0 (k0_pay4 x0 x3 x4) slices_S2000x256_o0_0_S2000x64 r k (Cert.Gcn.lane0 k)
    (by show k.val = 0 + k.val; omega)).trans (pay4_apply x0 x3 x4 r _)

theorem pay6_apply (x0 : Vec Ideal S2000x128 .f32) (x3 : Vec Ideal S128x256 .f32) (x4 : Vec Ideal S1x256 .f32)
    (r : Fin 2000) (k : Fin 64) : k0_pay6 x0 x3 x4 (ix2 r k) = feat x0 x3 x4 r (Cert.Gcn.lane1 k) := by
  unfold k0_pay6
  exact (slice2_axis1_apply 64 (k0_pay4 x0 x3 x4) slices_S2000x256_o0_64_S2000x64 r k (Cert.Gcn.lane1 k) rfl).trans
    (pay4_apply x0 x3 x4 r _)

theorem pay7_apply (x0 : Vec Ideal S2000x128 .f32) (x3 : Vec Ideal S128x256 .f32) (x4 : Vec Ideal S1x256 .f32)
    (r : Fin 2000) (k : Fin 64) : k0_pay7 x0 x3 x4 (ix2 r k) = feat x0 x3 x4 r (Cert.Gcn.lane2 k) := by
  unfold k0_pay7
  exact (slice2_axis1_apply 128 (k0_pay4 x0 x3 x4) slices_S2000x256_o0_128_S2000x64 r k (Cert.Gcn.lane2 k) rfl).trans
    (pay4_apply x0 x3 x4 r _)

theorem pay10_apply (x0 : Vec Ideal S2000x128 .f32) (x3 : Vec Ideal S128x256 .f32) (x4 : Vec Ideal S1x256 .f32)
    (r : Fin 2000) (k : Fin 64) : k0_pay10 x0 x3 x4 (ix2 r k) = feat x0 x3 x4 r (Cert.Gcn.lane1 k) := by
  unfold k0_pay10
  exact pay6_apply x0 x3 x4 r k

/-- A column sum of 64 lanes of a tile, laid out as a row. -/
theorem colsum_apply (src : FVec Ideal S2000x64 .f32) (k : Fin 64) (u : Fin 1) :
    shapeCast S1x64 (multiReduction .add [0] S64 src 0x00000000#32 reduces_S2000x64_S64 (.inl rfl) rfl) shapeCasts_S64_S1x64 (ix2 u k)
      = ∑ r : Fin 2000, src (ix2 r k) :=
  (shapeCast_a_1a_apply _ shapeCasts_S64_S1x64 u k).trans
    (Cert.LaneSum.sum_first2 src 0x00000000#32 reduces_S2000x64_S64 (.inl rfl) rfl k)

/-- Lane `q` of the row of column sums: the first 64 lanes come from the left piece, the next 64 from the right one. -/
theorem pay9_apply (x0 : Vec Ideal S2000x128 .f32) (x3 : Vec Ideal S128x256 .f32) (x4 : Vec Ideal S1x256 .f32)
    (a b : Fin 1) (q : Fin 128) :
    k0_pay9 x0 x3 x4 (ix3 a b q) = ∑ r : Fin 2000, feat x0 x3 x4 r ⟨q.val, by have := q.isLt; omega⟩ := by
  unfold k0_pay9
  refine (shapeCast_ab_1ab_apply _ shapeCasts_S1x128_S1x1x128 a b q).trans ?_
  by_cases hq : q.val < 64
  · refine (concatenate_pair_apply_left (t := S1x128) (s₁ := S1x64) (s₂ := S1x64) (1 : Fin 2) _ _
      concatenates_S1x64_S1x64_S1x128_d1 (ix2 b q) rfl (ix2 b (⟨q.val, hq⟩ : Fin 64))
      (fun d => by match d with | ⟨0, _⟩ => rfl | ⟨1, _⟩ => rfl)).trans ?_
    refine (colsum_apply _ (⟨q.val, hq⟩ : Fin 64) b).trans (Finset.sum_congr rfl fun r _ => ?_)
    exact (pay5_apply x0 x3 x4 r _).trans (congrArg (feat x0 x3 x4 r) (Fin.ext rfl))
  · have hq' : q.val - 64 < 64 := by have := q.isLt; omega
    refine (concatenate_pair_apply_right (t := S1x128) (s₁ := S1x64) (s₂ := S1x64) (1 : Fin 2) _ _
      concatenates_S1x64_S1x64_S1x128_d1 (ix2 b q) rfl rfl (ix2 b (⟨q.val - 64, hq'⟩ : Fin 64))
      (fun d hd => by match d with | ⟨0, _⟩ => rfl | ⟨1, _⟩ => exact absurd rfl hd)
      (by show q.val - 64 + 64 = q.val; omega)).trans ?_
    refine (colsum_apply _ (⟨q.val - 64, hq'⟩ : Fin 64) b).trans (Finset.sum_congr rfl fun r _ => ?_)
    exact (pay6_apply x0 x3 x4 r _).trans (congrArg (feat x0 x3 x4 r) (Fin.ext (by show 64 + (q.val - 64) = q.val; omega)))

/-- Entry `(j, k)` of the tile's product contracting the rows: lanes 64–127 against lanes 128–191. -/
theorem pay1_apply (x0 : Vec Ideal S2000x128 .f32) (x3 : Vec Ideal S128x256 .f32) (x4 : Vec Ideal S1x256 .f32)
    (a : Fin 1) (j k : Fin 64) :
    k0_pay1 (k0_pay7 x0 x3 x4) (k0_pay10 x0 x3 x4) (ix3 a j k)
      = ∑ r : Fin 2000, feat x0 x3 x4 r (Cert.Gcn.lane1 j) * feat x0 x3 x4 r (Cert.Gcn.lane2 k) := by
  unfold k0_pay1
  refine (shapeCast_ab_1ab_apply _ shapeCasts_S64x64_S1x64x64 a j k).trans ?_
  refine (Cert.DotTN.matmul_zero_apply _ rfl none _ _ j k).trans (Finset.sum_congr rfl fun r _ => ?_)
  rw [truncf_apply, pay10_apply, pay7_apply]

/-! ## The blocks a grid point reads -/

theorem zeros2 : (![0, 0] : Fin 2 → Nat) = fun _ => 0 := funext fun a => by fin_cases a <;> rfl
theorem zeros3 : (![0, 0, 0] : Fin 3 → Nat) = fun _ => 0 := funext fun a => by fin_cases a <;> rfl

/-- A grid point as a tile number. -/
def tileOf (t : Fin cfg0.N) : Fin 50 := ⟨t.val, lt_of_lt_of_eq t.isLt N_0⟩

/-- The block indices, decided over the grid: the rows and the two outputs move with the point on axis 0, the matrix
    and the bias row stay. -/
theorem block_indices : ∀ t : Fin cfg0.N,
    win0_0.index t (0 : Fin 2) = t.val ∧ win0_0.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_7.index t (0 : Fin 3) = t.val ∧ win0_7.index t (1 : Fin 3) = 0 ∧ win0_7.index t (2 : Fin 3) = 0
    ∧ win0_8.index t (0 : Fin 3) = t.val ∧ win0_8.index t (1 : Fin 3) = 0 ∧ win0_8.index t (2 : Fin 3) = 0 :=
  (by decide +kernel : ∀ t : Fin grid0.N, _)

/-- Row `r` of the point's block of node features is row `r` of its tile. -/
theorem blkX_apply (c : Dev nD) (t : Fin cfg0.N) (r : Fin 2000) (k : Fin 128) :
    (iblk0 V c 0 t : Vec Ideal S2000x128 .f32) (ix2 r k) = bX V c (ix2 (Cert.Gcn.tileRow (tileOf t) r) k) := by
  obtain ⟨e0, e1, -⟩ := block_indices t
  unfold iblk0
  rw [View.read_apply]
  show V c main_arg0 _ = V c main_arg0 _
  congr 1
  funext a
  apply Fin.ext
  match a with
  | ⟨0, _⟩ => show win0_0.index t (0 : Fin 2) * 2000 + 1 * r.val = t.val * 2000 + r.val; rw [e0]; omega
  | ⟨1, _⟩ => show win0_0.index t (1 : Fin 2) * 128 + 1 * k.val = k.val; rw [e1]; omega

/-- The attention matrix is read whole at every point. -/
theorem blkW_apply (c : Dev nD) (t : Fin cfg0.N) (k : Fin 128) (q : Fin 256) :
    (iblk0 V c 3 t : Vec Ideal S128x256 .f32) (ix2 k q) = bWa V c (ix2 k q) := by
  obtain ⟨-, -, e0, e1, -⟩ := block_indices t
  unfold iblk0
  rw [View.read_apply]
  show V c main_arg4 _ = V c main_arg4 _
  congr 1
  funext a
  apply Fin.ext
  match a with
  | ⟨0, _⟩ => show win0_3.index t (0 : Fin 2) * 128 + 1 * k.val = k.val; rw [e0]; omega
  | ⟨1, _⟩ => show win0_3.index t (1 : Fin 2) * 256 + 1 * q.val = q.val; rw [e1]; omega

/-- So is the bias row. -/
theorem blkB_apply (c : Dev nD) (t : Fin cfg0.N) (u : Fin 1) (q : Fin 256) :
    (iblk0 V c 4 t : Vec Ideal S1x256 .f32) (ix2 u q) = bBa V c (ix2 u q) := by
  obtain ⟨-, -, -, -, e0, e1, -⟩ := block_indices t
  unfold iblk0
  rw [View.read_apply]
  show V c main_v12 _ = V c main_v12 _
  congr 1
  funext a
  apply Fin.ext
  match a with
  | ⟨0, _⟩ => show win0_4.index t (0 : Fin 2) * 1 + 1 * u.val = u.val; rw [e0]; omega
  | ⟨1, _⟩ => show win0_4.index t (1 : Fin 2) * 256 + 1 * q.val = q.val; rw [e1]; omega

/-- The feature of a block row is the attention feature of the tile's row. -/
theorem feat_blk (c : Dev nD) (t : Fin cfg0.N) (r : Fin 2000) (q : Fin 256) :
    feat (iblk0 V c 0 t) (iblk0 V c 3 t) (iblk0 V c 4 t) r q = Tv V c (Cert.Gcn.tileRow (tileOf t) r) q := by
  unfold feat Tv
  refine congrArg (fun z => max z 0) (congrArg₂ (· + ·) (Finset.sum_congr rfl fun k _ => ?_) (blkB_apply V c t 0 q))
  exact congrArg₂ (· * ·) (blkX_apply V c t r k) (blkW_apply V c t k q)

/-! ## The two arrays, index by index -/

/-- Tile `t`'s sum of attention lane `q` (of the first 128) over its rows. -/
def colSum (c : Dev nD) (t : Fin 50) (q : Fin 128) : EReal :=
  ∑ r : Fin 2000, Tv V c (Cert.Gcn.tileRow t r) ⟨q.val, by have := q.isLt; omega⟩

/-- Tile `t`'s sum over its rows of lane `64 + j` times lane `128 + k`. -/
def prodSum (c : Dev nD) (t : Fin 50) (j k : Fin 64) : EReal :=
  ∑ r : Fin 2000, Tv V c (Cert.Gcn.tileRow t r) (Cert.Gcn.lane1 j) * Tv V c (Cert.Gcn.tileRow t r) (Cert.Gcn.lane2 k)

/-- The array of column sums `[50,1,128]` and the array of products `[50,64,64]`. -/
def colArr (c : Dev nD) : S50x1x128.Idx → EReal := fun i => colSum V c ⟨(i 0).val, (i 0).isLt⟩ ⟨(i 2).val, (i 2).isLt⟩
def prodArr (c : Dev nD) : S50x64x64.Idx → EReal :=
  fun i => prodSum V c ⟨(i 0).val, (i 0).isLt⟩ ⟨(i 1).val, (i 1).isLt⟩ ⟨(i 2).val, (i 2).isLt⟩

/-- What a point writes back to the column sums is its block of `colArr`. -/
theorem col_flushed (c : Dev nD) (t : Fin cfg0.N) :
    (dat0 V c).flushed 7 t = ((cfg0.win 7).blk t).view.read (Elt Ideal) (colArr V c) := by
  show (cfg0.win 7).cut (grid0.coords t) ((dat0 V c).after 7 t) = _
  rw [after0_7]
  unfold out0_7
  rw [View.canon_unit_zero zeros3]
  simp only [View.ld_unit_zero (S := S2000x128) zeros2, View.ld_unit_zero (S := S128x256) zeros2, View.ld_unit_zero (S := S1x256) zeros2]
  obtain ⟨-, -, -, -, -, -, e0, e1, e2, -⟩ := block_indices t
  funext y
  obtain ⟨a, b, q, rfl⟩ : ∃ (a : Fin 1) (b : Fin 1) (q : Fin 128), y = ix3 a b q := ⟨y 0, y 1, y 2, eq_ix3 y⟩
  show k0_pay9 (iblk0 V c 0 t) (iblk0 V c 3 t) (iblk0 V c 4 t) (ix3 a b q) = colArr V c (((cfg0.win 7).blk t).view.emb (ix3 a b q))
  refine (pay9_apply _ _ _ a b q).trans ?_
  refine (Finset.sum_congr rfl fun r _ => feat_blk V c t r _).trans ?_
  show colSum V c (tileOf t) q = colSum V c ⟨_, _⟩ ⟨_, _⟩
  refine congrArg₂ (colSum V c) (Fin.ext ?_) (Fin.ext ?_)
  · show t.val = win0_7.index t (0 : Fin 3) * 1 + 1 * a.val
    rw [e0]; omega
  · show q.val = win0_7.index t (2 : Fin 3) * 128 + 1 * q.val
    rw [e2]; omega

/-- What a point writes back to the products is its block of `prodArr`. -/
theorem prod_flushed (c : Dev nD) (t : Fin cfg0.N) :
    (dat0 V c).flushed 8 t = ((cfg0.win 8).blk t).view.read (Elt Ideal) (prodArr V c) := by
  show (cfg0.win 8).cut (grid0.coords t) ((dat0 V c).after 8 t) = _
  rw [after0_8]
  unfold out0_8
  rw [View.canon_unit_zero zeros3]
  simp only [View.ld_unit_zero (S := S2000x128) zeros2, View.ld_unit_zero (S := S128x256) zeros2, View.ld_unit_zero (S := S1x256) zeros2]
  obtain ⟨-, -, -, -, -, -, -, -, -, e0, e1, e2⟩ := block_indices t
  funext y
  obtain ⟨a, j, k, rfl⟩ : ∃ (a : Fin 1) (j : Fin 64) (k : Fin 64), y = ix3 a j k := ⟨y 0, y 1, y 2, eq_ix3 y⟩
  show k0_pay1 (k0_pay7 (iblk0 V c 0 t) (iblk0 V c 3 t) (iblk0 V c 4 t)) (k0_pay10 (iblk0 V c 0 t) (iblk0 V c 3 t) (iblk0 V c 4 t)) (ix3 a j k)
    = prodArr V c (((cfg0.win 8).blk t).view.emb (ix3 a j k))
  refine (pay1_apply _ _ _ a j k).trans ?_
  refine (Finset.sum_congr rfl fun r _ => congrArg₂ (· * ·) (feat_blk V c t r _) (feat_blk V c t r _)).trans ?_
  show prodSum V c (tileOf t) j k = prodSum V c ⟨_, _⟩ ⟨_, _⟩ ⟨_, _⟩
  have h0 : tileOf t = ⟨_, ((((cfg0.win 8).blk t).view.emb (ix3 a j k)) 0).isLt⟩ := Fin.ext (by
    show t.val = win0_8.index t (0 : Fin 3) * 1 + 1 * a.val
    rw [e0]; omega)
  have h1 : j = ⟨_, ((((cfg0.win 8).blk t).view.emb (ix3 a j k)) 1).isLt⟩ := Fin.ext (by
    show j.val = win0_8.index t (1 : Fin 3) * 64 + 1 * j.val
    rw [e1]; omega)
  have h2 : k = ⟨_, ((((cfg0.win 8).blk t).view.emb (ix3 a j k)) 2).isLt⟩ := Fin.ext (by
    show k.val = win0_8.index t (2 : Fin 3) * 64 + 1 * k.val
    rw [e2]; omega)
  exact (congrArg (fun z => prodSum V c z j k) h0).trans
    ((congrArg (fun z => prodSum V c _ z k) h1).trans (congrArg (fun z => prodSum V c _ _ z) h2))

/-- An index of either array is in point `t`'s block iff each coordinate is in the block's range on its axis. -/
theorem col_mem_blk (t : Fin cfg0.N) (i : S50x1x128.Idx) :
    i ∈ ((cfg0.win 7).blk t).view.set ↔ ∀ a : Fin 3, win0_7.index t a * S1x1x128.size a ≤ (i a).val ∧ (i a).val < win0_7.index t a * S1x1x128.size a + S1x1x128.size a := by
  show i ∈ ((View.whole main_v13_2).slice (win0_7.rect t)).set ↔ _
  rw [View.set_slice_whole, Rect.mem_set_unit]
  exact Iff.rfl

theorem prod_mem_blk (t : Fin cfg0.N) (i : S50x64x64.Idx) :
    i ∈ ((cfg0.win 8).blk t).view.set ↔ ∀ a : Fin 3, win0_8.index t a * S1x64x64.size a ≤ (i a).val ∧ (i a).val < win0_8.index t a * S1x64x64.size a + S1x64x64.size a := by
  show i ∈ ((View.whole main_v13_3).slice (win0_8.rect t)).set ↔ _
  rw [View.set_slice_whole, Rect.mem_set_unit]
  exact Iff.rfl

/-- Index `(t, ·, ·)` lies in point `t`'s block. -/
theorem col_cover (i : S50x1x128.Idx) : ∃ t : Fin cfg0.N, (cfg0.win 7).flush t = true ∧ i ∈ ((cfg0.win 7).blk t).view.set := by
  have h0 : (i 0).val < 50 := (i 0).isLt
  have h1 : (i 1).val < 1 := (i 1).isLt
  have h2 : (i 2).val < 128 := (i 2).isLt
  obtain ⟨t, ht⟩ : ∃ t : Fin cfg0.N, t.val = (i 0).val := ⟨⟨(i 0).val, lt_of_lt_of_eq h0 N_0.symm⟩, rfl⟩
  obtain ⟨-, -, -, -, -, -, e0, e1, e2, -⟩ := block_indices t
  refine ⟨t, flush0_7 t, ?_⟩
  rw [col_mem_blk]
  intro a
  match a with
  | ⟨0, _⟩ => show win0_7.index t (0 : Fin 3) * 1 ≤ (i 0).val ∧ (i 0).val < win0_7.index t (0 : Fin 3) * 1 + 1; rw [e0]; omega
  | ⟨1, _⟩ => show win0_7.index t (1 : Fin 3) * 1 ≤ (i 1).val ∧ (i 1).val < win0_7.index t (1 : Fin 3) * 1 + 1; rw [e1]; omega
  | ⟨2, _⟩ => show win0_7.index t (2 : Fin 3) * 128 ≤ (i 2).val ∧ (i 2).val < win0_7.index t (2 : Fin 3) * 128 + 128; rw [e2]; omega

theorem prod_cover (i : S50x64x64.Idx) : ∃ t : Fin cfg0.N, (cfg0.win 8).flush t = true ∧ i ∈ ((cfg0.win 8).blk t).view.set := by
  have h0 : (i 0).val < 50 := (i 0).isLt
  have h1 : (i 1).val < 64 := (i 1).isLt
  have h2 : (i 2).val < 64 := (i 2).isLt
  obtain ⟨t, ht⟩ : ∃ t : Fin cfg0.N, t.val = (i 0).val := ⟨⟨(i 0).val, lt_of_lt_of_eq h0 N_0.symm⟩, rfl⟩
  obtain ⟨-, -, -, -, -, -, -, -, -, e0, e1, e2⟩ := block_indices t
  refine ⟨t, flush0_8 t, ?_⟩
  rw [prod_mem_blk]
  intro a
  match a with
  | ⟨0, _⟩ => show win0_8.index t (0 : Fin 3) * 1 ≤ (i 0).val ∧ (i 0).val < win0_8.index t (0 : Fin 3) * 1 + 1; rw [e0]; omega
  | ⟨1, _⟩ => show win0_8.index t (1 : Fin 3) * 64 ≤ (i 1).val ∧ (i 1).val < win0_8.index t (1 : Fin 3) * 64 + 64; rw [e1]; omega
  | ⟨2, _⟩ => show win0_8.index t (2 : Fin 3) * 64 ≤ (i 2).val ∧ (i 2).val < win0_8.index t (2 : Fin 3) * 64 + 64; rw [e2]; omega

/-- The blocks tile each array, so after the last point the arrays hold `colArr` and `prodArr`. -/
theorem col_final (c : Dev nD) : (dat0 V c).arrAt 7 cfg0.N = colArr V c :=
  (dat0 V c).arrAt_eq_of_cover 7 (colArr V c) (fun t _ => col_flushed V c t) col_cover

theorem prod_final (c : Dev nD) : (dat0 V c).arrAt 8 cfg0.N = prodArr V c :=
  (dat0 V c).arrAt_eq_of_cover 8 (prodArr V c) (fun t _ => prod_flushed V c t) prod_cover

end Stats

open Stats

/-- Tile `t`'s column sums of the first 128 attention lanes over its 2000 rows. -/
theorem col_arr (c : Dev nD) (t : Fin 50) (q : Fin 128) :
    oCol V c (ix3 t (0 : Fin 1) q)
      = ∑ r : Fin 2000, Tv V c (Cert.Gcn.tileRow t r) ⟨q.val, by have := q.isLt; omega⟩ := by
  show (dat0 V c).arrAt 7 cfg0.N (ix3 t (0 : Fin 1) q) = _
  rw [col_final]
  rfl

/-- Tile `t`'s 64×64 product of attention lanes 64–127 (transposed) with lanes 128–191 over its 2000 rows. -/
theorem m_arr (c : Dev nD) (t : Fin 50) (j k : Fin 64) :
    oM V c (ix3 t j k)
      = ∑ r : Fin 2000, Tv V c (Cert.Gcn.tileRow t r) (Cert.Gcn.lane1 j) * Tv V c (Cert.Gcn.tileRow t r) (Cert.Gcn.lane2 k) := by
  show (dat0 V c).arrAt 8 cfg0.N (ix3 t j k) = _
  rw [prod_final]
  rfl

end Cert.KernelIdeal.Tile

end
-- ==== Proof.Tile1.lean ====
/-
  The second tiled region writes one [2000,128] block per block of 2000 rows. At row p and lane d the block holds the
  sum over 128 lanes j of the rectified local feature max (dinv[p] * (agg[p,j] + hs[p,j]) + bias[j]) 0 times row j of
  the reduction matrix, plus the sum over 64 lanes k of (the sum over 64 lanes j of ut[p,j] times the scaled 64×64
  matrix at (j,k)) times row 128+k, plus the sum over 64 lanes k of ut[p,64+k] times row 192+k, plus the second bias
  row at d: each of the four matrix products is the finite sum over its contracted axis. The row-blocked inputs of
  grid point t are rows t*2000 + p of their arrays and the whole inputs are read at their own indices; the 50 blocks
  tile the 100000 rows, so after the last grid point the array is that function of the entry buffers at every index.
-/
import proofs.«109391_j52415780880537_2_alg».proof.Proof.Gen.KernelIdeal.Frame
import proofs.«109391_j52415780880537_2_alg».proof.Proof.Spec
import proofs.«109391_j52415780880537_2_alg».proof.Proof.TileDefs
import proofs.«109391_j52415780880537_2_alg».proof.Proof.LibPlainDot
import proofs.«109391_j52415780880537_2_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Tile

open Cert.KernelIdeal Cert.KernelIdeal.Gen

variable (V : (c : Dev nD) → (b : Ref sig .tc) → Buf (Elt Ideal) ((c : Thread nD τ).loc b))

namespace SecondRegion

/-- The rectified local feature at (p, j): the column entry of row p times the sum of the two row entries, plus the
    bias entry of lane j, against zero. A change of format is the identity over the extended reals. -/
theorem xl_apply (x2 : Vec Ideal S2000x1 .f32) (x0 x1 : Vec Ideal S2000x128 .f32) (x3 : Vec Ideal S1x128 .f32)
    (p : Fin 2000) (j : Fin 128) :
    truncf (F := Ideal) .bf16
        (maximumf
          (addf (mulf (broadcastTo S2000x128 x2 broadcasts_S2000x1_S2000x128) (addf x0 x1))
            (broadcastTo S2000x128 x3 broadcasts_S1x128_S2000x128))
          (broadcast S2000x128 (FloatOps.ofBits FTy.f32 0#32))) bitsLt_bf16_f32 (ix2 p j)
      = max (x2 (ix2 p (0 : Fin 1)) * (x0 (ix2 p j) + x1 (ix2 p j)) + x3 (ix2 (0 : Fin 1) j)) 0 := by
  show max (broadcastTo S2000x128 x2 broadcasts_S2000x1_S2000x128 (ix2 p j) * (x0 (ix2 p j) + x1 (ix2 p j))
      + broadcastTo S2000x128 x3 broadcasts_S1x128_S2000x128 (ix2 p j)) (Ideal.ofBits .f32 0x00000000#32) = _
  rw [Cert.GraphConv.Column.broadcastTo_a1_ab_apply, broadcastTo_1b_ab_apply, Ideal.ofBits_zero_f32]

/-- The stored block at (p, d), over any eight input blocks: three products against the row blocks 0–127, 128–191 and
    192–255 of the [256,128] matrix, the middle one of a product with the 64×64 matrix, plus the bias row. Each product
    is the sum over its contracted axis; each slice reads its operand at the offset row or lane. -/
theorem pay_apply (x2 : Vec Ideal S2000x1 .f32) (x0 x1 : Vec Ideal S2000x128 .f32) (x3 : Vec Ideal S1x128 .f32)
    (x4 : Vec Ideal S2000x128 .bf16) (x5 : Vec Ideal S64x64 .f32) (x6 : Vec Ideal S256x128 .f32) (x7 : Vec Ideal S1x128 .f32)
    (p : Fin 2000) (d : Fin 128) :
    k1_pay1 (F := Ideal) (k1_pay2 x2 x0 x1 x3 x4 x5 x6) (k1_pay3 x7) (ix2 p d)
      = (((∑ j : Fin 128, max (x2 (ix2 p (0 : Fin 1)) * (x0 (ix2 p j) + x1 (ix2 p j)) + x3 (ix2 (0 : Fin 1) j)) 0
            * x6 (ix2 (Cert.Gcn.rowA j) d))
          + ∑ k : Fin 64, (∑ j : Fin 64, x4 (ix2 p ⟨j.val, by have := j.isLt; omega⟩) * x5 (ix2 j k))
              * x6 (ix2 (Cert.Gcn.rowB k) d))
        + ∑ k : Fin 64, x4 (ix2 p ⟨64 + k.val, by have := k.isLt; omega⟩) * x6 (ix2 (Cert.Gcn.rowC k) d))
      + x7 (ix2 (0 : Fin 1) d) := by
  unfold k1_pay1 k1_pay2 k1_pay3
  dsimp only
  simp only [shapeCast_self]
  refine congrArg₂ (· + ·) (congrArg₂ (· + ·) (congrArg₂ (· + ·) ?_ ?_) ?_) ?_
  · refine (Cert.PlainDot.matmul_zero_apply _ rfl none _ _ p d).trans (Finset.sum_congr rfl fun j _ => congrArg₂ (· * ·) ?_ ?_)
    · exact xl_apply x2 x0 x1 x3 p j
    · exact slice2_axis0_apply 0 _ _ j d (Cert.Gcn.rowA j) (by show j.val = 0 + j.val; omega)
  · refine (Cert.PlainDot.matmul_zero_apply _ rfl none _ _ p d).trans (Finset.sum_congr rfl fun k _ => congrArg₂ (· * ·) ?_ ?_)
    · refine (Cert.PlainDot.matmul_zero_apply _ rfl none _ _ p k).trans (Finset.sum_congr rfl fun j _ => congrArg₂ (· * ·) ?_ rfl)
      exact slice2_axis1_apply 0 _ _ p j _ (by show j.val = 0 + j.val; omega)
    · exact slice2_axis0_apply 128 _ _ k d (Cert.Gcn.rowB k) rfl
  · refine (Cert.PlainDot.matmul_zero_apply _ rfl none _ _ p d).trans (Finset.sum_congr rfl fun k _ => congrArg₂ (· * ·) ?_ ?_)
    · exact slice2_axis1_apply 64 _ _ p k _ rfl
    · exact slice2_axis0_apply 192 _ _ k d (Cert.Gcn.rowC k) rfl
  · exact broadcastTo_1b_ab_apply _ _ p d

theorem zero_offsets : (![0, 0] : Fin 2 → Nat) = fun _ => 0 := funext fun a => by fin_cases a <;> rfl

/-- The block index maps over the 50 grid points: the five row-blocked windows sit at block (t, 0), the four whole
    windows at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- The grid has 50 points. -/
theorem point_lt (t : Fin cfg1.N) : t.val < 50 := Nat.lt_of_lt_of_eq t.isLt N_1

/-- Row r of the t-th block of 2000 rows: row t * 2000 + r of the array. -/
def rowAt (t : Fin cfg1.N) (r : Fin 2000) : Fin 100000 :=
  ⟨t.val * 2000 + r.val, by have := point_lt t; have := r.isLt; omega⟩

/-- The accumulated rows' block at point t is rows t * 2000 + p of the array. -/
theorem agg_block (c : Dev nD) (t : Fin cfg1.N) (p : Fin 2000) (j : Fin 128) :
    (iblk1 V c 0 t : Vec Ideal S2000x128 .f32) (ix2 p j) = bAgg V c (ix2 (rowAt t p) j) := by
  unfold iblk1
  rw [View.read_apply]
  show V c main_v23 _ = V c main_v23 _
  refine congrArg _ (funext fun a => Fin.ext ?_)
  obtain ⟨e0, e1, -⟩ := idx_facts t
  match a with
  | ⟨0, _⟩ => show win1_0.index t (0 : Fin 2) * 2000 + 1 * p.val = t.val * 2000 + p.val; rw [e0]; omega
  | ⟨1, _⟩ => show win1_0.index t (1 : Fin 2) * 128 + 1 * j.val = j.val; rw [e1]; omega

/-- The scaled projection's block at point t is rows t * 2000 + p of the array. -/
theorem hs_block (c : Dev nD) (t : Fin cfg1.N) (p : Fin 2000) (j : Fin 128) :
    (iblk1 V c 1 t : Vec Ideal S2000x128 .f32) (ix2 p j) = bHs V c (ix2 (rowAt t p) j) := by
  unfold iblk1
  rw [View.read_apply]
  show V c main_v13_0 _ = V c main_v13_0 _
  refine congrArg _ (funext fun a => Fin.ext ?_)
  obtain ⟨-, -, e0, e1, -⟩ := idx_facts t
  match a with
  | ⟨0, _⟩ => show win1_1.index t (0 : Fin 2) * 2000 + 1 * p.val = t.val * 2000 + p.val; rw [e0]; omega
  | ⟨1, _⟩ => show win1_1.index t (1 : Fin 2) * 128 + 1 * j.val = j.val; rw [e1]; omega

/-- The inverse-root degree column's block at point t is rows t * 2000 + p of the column. -/
theorem dinv_block (c : Dev nD) (t : Fin cfg1.N) (p : Fin 2000) :
    (iblk1 V c 2 t : Vec Ideal S2000x1 .f32) (ix2 p (0 : Fin 1)) = bD V c (ix2 (rowAt t p) (0 : Fin 1)) := by
  unfold iblk1
  rw [View.read_apply]
  show V c main_v11 _ = V c main_v11 _
  refine congrArg _ (funext fun a => Fin.ext ?_)
  obtain ⟨-, -, -, -, e0, e1, -⟩ := idx_facts t
  match a with
  | ⟨0, _⟩ => show win1_2.index t (0 : Fin 2) * 2000 + 1 * p.val = t.val * 2000 + p.val; rw [e0]; omega
  | ⟨1, _⟩ => show win1_2.index t (1 : Fin 2) * 1 + 1 * 0 = 0; rw [e1]

/-- The projection bias row is read whole at every point. -/
theorem bias_block (c : Dev nD) (t : Fin cfg1.N) (j : Fin 128) :
    (iblk1 V c 3 t : Vec Ideal S1x128 .f32) (ix2 (0 : Fin 1) j) = bBg V c (ix2 (0 : Fin 1) j) := by
  unfold iblk1
  rw [View.read_apply]
  show V c main_v36 _ = V c main_v36 _
  refine congrArg _ (funext fun a => Fin.ext ?_)
  obtain ⟨-, -, -, -, -, -, e0, e1, -⟩ := idx_facts t
  match a with
  | ⟨0, _⟩ => show win1_3.index t (0 : Fin 2) * 1 + 1 * 0 = 0; rw [e0]
  | ⟨1, _⟩ => show win1_3.index t (1 : Fin 2) * 128 + 1 * j.val = j.val; rw [e1]; omega

/-- The attention lanes' block at point t is rows t * 2000 + p of the array. -/
theorem ut_block (c : Dev nD) (t : Fin cfg1.N) (p : Fin 2000) (q : Fin 128) :
    (iblk1 V c 4 t : Vec Ideal S2000x128 .bf16) (ix2 p q) = bUt V c (ix2 (rowAt t p) q) := by
  unfold iblk1
  rw [View.read_apply]
  show V c main_v13_1 _ = V c main_v13_1 _
  refine congrArg _ (funext fun a => Fin.ext ?_)
  obtain ⟨-, -, -, -, -, -, -, -, e0, e1, -⟩ := idx_facts t
  match a with
  | ⟨0, _⟩ => show win1_4.index t (0 : Fin 2) * 2000 + 1 * p.val = t.val * 2000 + p.val; rw [e0]; omega
  | ⟨1, _⟩ => show win1_4.index t (1 : Fin 2) * 128 + 1 * q.val = q.val; rw [e1]; omega

/-- The scaled 64×64 matrix is read whole at every point. -/
theorem ms_block (c : Dev nD) (t : Fin cfg1.N) (j k : Fin 64) :
    (iblk1 V c 5 t : Vec Ideal S64x64 .f32) (ix2 j k) = bMs V c (ix2 j k) := by
  unfold iblk1
  rw [View.read_apply]
  show V c main_v35 _ = V c main_v35 _
  refine congrArg _ (funext fun a => Fin.ext ?_)
  obtain ⟨-, -, -, -, -, -, -, -, -, -, e0, e1, -⟩ := idx_facts t
  match a with
  | ⟨0, _⟩ => show win1_5.index t (0 : Fin 2) * 64 + 1 * j.val = j.val; rw [e0]; omega
  | ⟨1, _⟩ => show win1_5.index t (1 : Fin 2) * 64 + 1 * k.val = k.val; rw [e1]; omega

/-- The reduction matrix is read whole at every point. -/
theorem wr_block (c : Dev nD) (t : Fin cfg1.N) (r : Fin 256) (d : Fin 128) :
    (iblk1 V c 6 t : Vec Ideal S256x128 .f32) (ix2 r d) = bWr V c (ix2 r d) := by
  unfold iblk1
  rw [View.read_apply]
  show V c main_arg6 _ = V c main_arg6 _
  refine congrArg _ (funext fun a => Fin.ext ?_)
  obtain ⟨-, -, -, -, -, -, -, -, -, -, -, -, e0, e1, -⟩ := idx_facts t
  match a with
  | ⟨0, _⟩ => show win1_6.index t (0 : Fin 2) * 256 + 1 * r.val = r.val; rw [e0]; omega
  | ⟨1, _⟩ => show win1_6.index t (1 : Fin 2) * 128 + 1 * d.val = d.val; rw [e1]; omega

/-- The reduction bias row is read whole at every point. -/
theorem br_block (c : Dev nD) (t : Fin cfg1.N) (d : Fin 128) :
    (iblk1 V c 7 t : Vec Ideal S1x128 .f32) (ix2 (0 : Fin 1) d) = bBr V c (ix2 (0 : Fin 1) d) := by
  unfold iblk1
  rw [View.read_apply]
  show V c main_v37 _ = V c main_v37 _
  refine congrArg _ (funext fun a => Fin.ext ?_)
  obtain ⟨-, -, -, -, -, -, -, -, -, -, -, -, -, -, e0, e1, -⟩ := idx_facts t
  match a with
  | ⟨0, _⟩ => show win1_7.index t (0 : Fin 2) * 1 + 1 * 0 = 0; rw [e0]
  | ⟨1, _⟩ => show win1_7.index t (1 : Fin 2) * 128 + 1 * d.val = d.val; rw [e1]; omega

/-- Entry (n, d) of the result, from the buffers the region finds. -/
def outRow (c : Dev nD) (n : Fin 100000) (d : Fin 128) : EReal :=
  (((∑ j : Fin 128, max (bD V c (ix2 n (0 : Fin 1)) * (bAgg V c (ix2 n j) + bHs V c (ix2 n j)) + bBg V c (ix2 (0 : Fin 1) j)) 0
        * bWr V c (ix2 (Cert.Gcn.rowA j) d))
      + ∑ k : Fin 64, (∑ j : Fin 64, bUt V c (ix2 n ⟨j.val, by have := j.isLt; omega⟩) * bMs V c (ix2 j k))
          * bWr V c (ix2 (Cert.Gcn.rowB k) d))
    + ∑ k : Fin 64, bUt V c (ix2 n ⟨64 + k.val, by have := k.isLt; omega⟩) * bWr V c (ix2 (Cert.Gcn.rowC k) d))
  + bBr V c (ix2 (0 : Fin 1) d)

/-- The whole result array, index by index. -/
def outG (c : Dev nD) : S100000x128.Idx → EReal := fun i => outRow V c (i 0) (i 1)

/-- What the body stores at (p, d) at point t is entry (t * 2000 + p, d) of the result. -/
theorem point_eq (c : Dev nD) (t : Fin cfg1.N) (p : Fin 2000) (d : Fin 128) :
    k1_pay1 (F := Ideal) (k1_pay2 (iblk1 V c 2 t) (iblk1 V c 0 t) (iblk1 V c 1 t) (iblk1 V c 3 t) (iblk1 V c 4 t)
        (iblk1 V c 5 t) (iblk1 V c 6 t)) (k1_pay3 (iblk1 V c 7 t)) (ix2 p d)
      = outRow V c (rowAt t p) d := by
  refine (pay_apply (iblk1 V c 2 t) (iblk1 V c 0 t) (iblk1 V c 1 t) (iblk1 V c 3 t) (iblk1 V c 4 t)
    (iblk1 V c 5 t) (iblk1 V c 6 t) (iblk1 V c 7 t) p d).trans ?_
  unfold outRow
  simp only [agg_block, hs_block, dinv_block, bias_block, ut_block, ms_block, wr_block, br_block]

/-- What point t writes back is block t of the result array. -/
theorem flushed_eq (c : Dev nD) (t : Fin cfg1.N) :
    (dat1 V c).flushed 8 t = ((cfg1.win 8).blk t).view.read (Elt Ideal) (outG V c) := by
  show (cfg1.win 8).cut (grid1.coords t) ((dat1 V c).after 8 t) = _
  rw [after1_8]
  unfold out1_8
  rw [View.canon_unit_zero zero_offsets]
  simp only [View.ld_unit_zero (S := S2000x128) zero_offsets, View.ld_unit_zero (S := S2000x1) zero_offsets,
    View.ld_unit_zero (S := S1x128) zero_offsets, View.ld_unit_zero (S := S64x64) zero_offsets,
    View.ld_unit_zero (S := S256x128) zero_offsets]
  funext y
  obtain ⟨p, d, rfl⟩ : ∃ (p : Fin 2000) (d : Fin 128), y = ix2 p d := ⟨y 0, y 1, eq_ix2 y⟩
  rw [View.read_apply]
  refine (point_eq V c t p d).trans ?_
  obtain ⟨-, -, -, -, -, -, -, -, -, -, -, -, -, -, -, -, e0, e1⟩ := idx_facts t
  refine congrArg₂ (outRow V c) (Fin.ext ?_) (Fin.ext ?_)
  · show t.val * 2000 + p.val = win1_8.index t (0 : Fin 2) * 2000 + 1 * p.val; rw [e0]; omega
  · show d.val = win1_8.index t (1 : Fin 2) * 128 + 1 * d.val; rw [e1]; omega

/-- An index of the array lies in the block of point t iff each coordinate lies in the block's range on its axis. -/
theorem mem_blk (t : Fin cfg1.N) (i : S100000x128.Idx) :
    i ∈ ((cfg1.win 8).blk t).view.set ↔ ∀ a : Fin 2, win1_8.index t a * S2000x128.size a ≤ (i a).val
      ∧ (i a).val < win1_8.index t a * S2000x128.size a + S2000x128.size a := by
  show i ∈ ((View.whole main_v38).slice (win1_8.rect t)).set ↔ _
  rw [View.set_slice_whole, Rect.mem_set_unit]
  exact Iff.rfl

/-- Every index of the array lies in the block of the point its row falls in: row n is in block n / 2000. -/
theorem cover (i : S100000x128.Idx) :
    ∃ t : Fin cfg1.N, (cfg1.win 8).flush t = true ∧ i ∈ ((cfg1.win 8).blk t).view.set := by
  have hi0 : (i 0).val < 100000 := (i 0).isLt
  have hi1 : (i 1).val < 128 := (i 1).isLt
  have hN : cfg1.N = 50 := N_1
  have ht : (i 0).val / 2000 < cfg1.N := by rw [hN]; omega
  obtain ⟨-, -, -, -, -, -, -, -, -, -, -, -, -, -, -, -, e0, e1⟩ := idx_facts ⟨(i 0).val / 2000, ht⟩
  refine ⟨⟨(i 0).val / 2000, ht⟩, flush1_8 _, ?_⟩
  rw [mem_blk]
  intro a
  match a with
  | ⟨0, _⟩ =>
    show win1_8.index ⟨(i 0).val / 2000, ht⟩ (0 : Fin 2) * 2000 ≤ (i 0).val
      ∧ (i 0).val < win1_8.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_8.index ⟨(i 0).val / 2000, ht⟩ (1 : Fin 2) * 128 ≤ (i 1).val
      ∧ (i 1).val < win1_8.index ⟨(i 0).val / 2000, ht⟩ (1 : Fin 2) * 128 + 128
    rw [e1]; omega

/-- The result array after the last grid point is that function at every index: the 50 blocks tile the array. -/
theorem out_eq (c : Dev nD) : (dat1 V c).arrAt 8 cfg1.N = outG V c :=
  (dat1 V c).arrAt_eq_of_cover 8 (outG V c) (fun t _ => flushed_eq V c t) cover

end SecondRegion

/-- The result array after the second tiled region, from the buffers the region finds: the rectified local features
    times rows 0–127 of the reduction matrix, plus (attention lanes 0–63 times the scaled 64×64 matrix) times rows
    128–191, plus the pass-through lanes times rows 192–255, plus the bias row. -/
theorem out_arr (c : Dev nD) (n : Fin 100000) (d : Fin 128) :
    oOut V c (ix2 n d)
      = (((∑ j : Fin 128, max (bD V c (ix2 n (0 : Fin 1)) * (bAgg V c (ix2 n j) + bHs V c (ix2 n j)) + bBg V c (ix2 (0 : Fin 1) j)) 0
            * bWr V c (ix2 (Cert.Gcn.rowA j) d))
          + ∑ k : Fin 64, (∑ j : Fin 64, bUt V c (ix2 n ⟨j.val, by have := j.isLt; omega⟩) * bMs V c (ix2 j k))
              * bWr V c (ix2 (Cert.Gcn.rowB k) d))
        + ∑ k : Fin 64, bUt V c (ix2 n ⟨64 + k.val, by have := k.isLt; omega⟩) * bWr V c (ix2 (Cert.Gcn.rowC k) d))
      + bBr V c (ix2 (0 : Fin 1) d) := by
  show (dat1 V c).arrAt 8 cfg1.N (ix2 n d) = _
  rw [SecondRegion.out_eq]
  rfl

end Cert.KernelIdeal.Tile

end
-- ==== Proof.KernelValue.lean ====
/-
  The tiled program's result, entry by entry, is the specification's `outK` of the eight arguments.

  The second region's output row is read off the buffers it finds; those are the first region's arrays and the host's
  terms over them, and the first region's arrays are in turn the projected rows scaled by the inverse-root degrees, the
  rectified attention lanes, and the per-tile sums of those lanes — each identified here with its name in the
  specification.
-/
import proofs.«109391_j52415780880537_2_alg».proof.Proof.Gen.KernelIdeal.Frame
import proofs.«109391_j52415780880537_2_alg».proof.Proof.Spec
import proofs.«109391_j52415780880537_2_alg».proof.Proof.TileDefs
import proofs.«109391_j52415780880537_2_alg».proof.Proof.Host0
import proofs.«109391_j52415780880537_2_alg».proof.Proof.Host1
import proofs.«109391_j52415780880537_2_alg».proof.Proof.Tile0A
import proofs.«109391_j52415780880537_2_alg».proof.Proof.Tile0B
import proofs.«109391_j52415780880537_2_alg».proof.Proof.Tile1

noncomputable section

open Idealize.ShloMosaic Idealize.ShloMosaic.TcCoe Idealize.SL.Sem Idealize.ShloMosaic.ValueIdx

namespace Cert.KernelIdeal.Whole

open Cert.KernelIdeal Cert.KernelIdeal.Gen Cert.KernelIdeal.HostA Cert.KernelIdeal.HostB Cert.KernelIdeal.Tile

variable (m : (ℓ : Loc nD τ sig) → Buf (Elt Ideal) ℓ) (ρ : Dev nD → PrngReg)

/-- The float arguments as launched. -/
abbrev aX (c : Dev nD) : S100000x128.Idx → EReal := m ((c : Thread nD τ).loc main_arg0)
abbrev aWg (c : Dev nD) : S128x128.Idx → EReal := m ((c : Thread nD τ).loc main_arg2)
abbrev abg (c : Dev nD) : S128.Idx → EReal := m ((c : Thread nD τ).loc main_arg3)
abbrev aWa (c : Dev nD) : S128x256.Idx → EReal := m ((c : Thread nD τ).loc main_arg4)
abbrev aba (c : Dev nD) : S256.Idx → EReal := m ((c : Thread nD τ).loc main_arg5)
abbrev aWr (c : Dev nD) : S256x128.Idx → EReal := m ((c : Thread nD τ).loc main_arg6)
abbrev abr (c : Dev nD) : S128.Idx → EReal := m ((c : Thread nD τ).loc main_arg7)

/-- The attention feature the first region computes is the specification's. -/
theorem T_eq (c : Dev nD) (n : Fin 100000) (q : Fin 256) :
    Tv (V1 m ρ) c n q = Cert.Gcn.T (aX m c) (aWa m c) (aba m c) n q := by
  unfold Tv Cert.Gcn.T
  rw [V1_X, V1_Wa, V1_ba]

/-- The first region's scaled projection is the specification's. -/
theorem hs_eq (c : Dev nD) (n : Fin 100000) (j : Fin 128) :
    oHs (V1 m ρ) c (ix2 n j) = Cert.Gcn.hsK (aX m c) (aEI m c) (aWg m c) n j := by
  rw [hs_arr, V1_dinv, V1_X, V1_Wg]
  rfl

/-- The edge-accumulated rows are the specification's. -/
theorem agg_eq (c : Dev nD) (n : Fin 100000) (j : Fin 128) :
    bAgg (V3 m ρ) c (ix2 n j) = Cert.Gcn.aggK (aX m c) (aEI m c) (aWg m c) n j := by
  rw [V3_agg]
  unfold Cert.Gcn.aggK
  refine congrArg (fun z => (0 : EReal) + z) (Finset.sum_congr rfl fun e _ => ?_)
  rw [hs_eq]

/-- The rectified local feature. -/
theorem xl_eq (c : Dev nD) (n : Fin 100000) (j : Fin 128) :
    max (bD (V3 m ρ) c (ix2 n (0 : Fin 1)) * (bAgg (V3 m ρ) c (ix2 n j) + bHs (V3 m ρ) c (ix2 n j)) + bBg (V3 m ρ) c (ix2 (0 : Fin 1) j)) 0
      = Cert.Gcn.xlK (aX m c) (aEI m c) (aWg m c) (abg m c) n j := by
  rw [V3_dinv, agg_eq, V3_hs, hs_eq, V3_bg]
  rfl

/-- The summed column statistics. -/
theorem col_eq (c : Dev nD) (q : Fin 128) :
    0 + ∑ t : Fin 50, oCol (V1 m ρ) c (ix3 t (0 : Fin 1) q) = Cert.Gcn.colK (aX m c) (aWa m c) (aba m c) q := by
  unfold Cert.Gcn.colK
  refine congrArg (fun z => (0 : EReal) + z) (Finset.sum_congr rfl fun t _ => ?_)
  rw [col_arr]
  exact Finset.sum_congr rfl fun r _ => T_eq m ρ c _ _

/-- The scaled 64×64 matrix. -/
theorem ms_eq (c : Dev nD) (j k : Fin 64) :
    bMs (V3 m ρ) c (ix2 j k) = Cert.Gcn.msK (aX m c) (aWa m c) (aba m c) j k := by
  rw [V3_ms]
  unfold Cert.Gcn.msK Cert.Gcn.mK Cert.Gcn.dnK Cert.Gcn.sK
  refine congrArg₂ (· * ·) ?_ (congrArg (Ideal.div Cert.Gcn.one) ?_)
  · refine congrArg (fun z => (0 : EReal) + z) (Finset.sum_congr rfl fun t _ => ?_)
    rw [m_arr]
    exact Finset.sum_congr rfl fun r _ => congrArg₂ (· * ·) (T_eq m ρ c _ _) (T_eq m ρ c _ _)
  · refine congrArg (fun z => (0 : EReal) + z) (Finset.sum_congr rfl fun k' _ => ?_)
    rw [col_eq, col_eq]

/-- The kept attention lanes: the first 64 are attention lanes 0–63, the last 64 attention lanes 192–255. -/
theorem ut_lo (c : Dev nD) (n : Fin 100000) (j : Fin 64) :
    bUt (V3 m ρ) c (ix2 n ⟨j.val, by have := j.isLt; omega⟩) = Cert.Gcn.T (aX m c) (aWa m c) (aba m c) n (Cert.Gcn.lane0 j) := by
  rw [V3_ut, ut_arr, dif_pos (show (⟨j.val, _⟩ : Fin 128).val < 64 from j.isLt), T_eq]
  rfl
theorem ut_hi (c : Dev nD) (n : Fin 100000) (k : Fin 64) :
    bUt (V3 m ρ) c (ix2 n ⟨64 + k.val, by have := k.isLt; omega⟩) = Cert.Gcn.T (aX m c) (aWa m c) (aba m c) n (Cert.Gcn.lane3 k) := by
  rw [V3_ut, ut_arr, dif_neg (show ¬ (⟨64 + k.val, _⟩ : Fin 128).val < 64 from by show ¬ (64 + k.val < 64); omega), T_eq]
  exact congrArg (Cert.Gcn.T (aX m c) (aWa m c) (aba m c) n) (Fin.ext (by show 64 + k.val + 128 = 192 + k.val; omega))

/-- The attention rows after the scaled matrix. -/
theorem res_eq (c : Dev nD) (n : Fin 100000) (k : Fin 64) :
    (∑ j : Fin 64, bUt (V3 m ρ) c (ix2 n ⟨j.val, by have := j.isLt; omega⟩) * bMs (V3 m ρ) c (ix2 j k))
      = Cert.Gcn.resK (aX m c) (aWa m c) (aba m c) n k := by
  unfold Cert.Gcn.resK
  refine Finset.sum_congr rfl fun j _ => ?_
  rw [ut_lo, ms_eq]

/-- THE RESULT: the buffer the second region leaves holds `outK` of the arguments. -/
theorem kernel_value (c : Dev nD) (n : Fin 100000) (d : Fin 128) :
    oOut (V3 m ρ) c (ix2 n d)
      = Cert.Gcn.outK (aX m c) (aEI m c) (aWg m c) (abg m c) (aWa m c) (aba m c) (aWr m c) (abr m c) n d := by
  rw [out_arr]
  unfold Cert.Gcn.outK
  refine congrArg₂ (· + ·) (congrArg₂ (· + ·) (congrArg₂ (· + ·) ?_ ?_) ?_) (V3_br m ρ c d)
  · refine Finset.sum_congr rfl fun j _ => ?_
    rw [xl_eq, V3_wr]
  · refine Finset.sum_congr rfl fun k _ => ?_
    rw [res_eq, V3_wr]
  · refine Finset.sum_congr rfl fun k _ => ?_
    rw [ut_hi, V3_wr]

/-- The result buffer after the run's last boundary is the second region's output array. -/
theorem W4_result (c : Dev nD) : W4 m ρ c (Proc.devRef .tc main_v38) = oOut (V3 m ρ) c := W4_arr m ρ c 8

end Cert.KernelIdeal.Whole

end
-- ==== Proof.RefValue.lean ====
/-
  The plain program's result, entry by entry.

  Each stage of the plain program is read at an index over literal coordinates, bottom-up, and named by the
  specification's function of the eight arguments.  The two long lists are the edge words followed by the node numbers
  (a two-piece join read on either side of position 1600000); the compare / add / select stages move a negative word up
  by the node count; an index column holds its list's word at each row, so an accumulation lands an entry on the node
  its word names and a gather reads the clamped row.  The degree is the count of the long list's targets, its inverse
  square root is gathered at both ends of each entry and multiplied, the projected rows are gathered at the sources,
  scaled and accumulated at the targets.  The attention features are sliced into four blocks of 64 lanes; their
  products and sums over the nodes are contractions read as finite sums, the reduction of a one-column array over
  both axes is a sum over the nodes, and the two joins along the lanes select one of three blocks by the lane number.
-/
import proofs.«109391_j52415780880537_2_alg».proof.Proof.Gen.ReferenceIdeal.Read
import proofs.«109391_j52415780880537_2_alg».proof.Proof.Spec
import proofs.«109391_j52415780880537_2_alg».proof.Proof.LibEdgeIndex
import proofs.«109391_j52415780880537_2_alg».proof.Proof.LibPlainDot
import proofs.«109391_j52415780880537_2_alg».proof.Proof.LibBroadcasts
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.ReferenceIdeal.RefValue

open Cert.ReferenceIdeal Cert.ReferenceIdeal.Gen Cert.ReferenceIdeal.Read

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 : (⟨S128x256, .f32⟩ : BufTy).Contents (Elt Ideal)) (x5 : (⟨S256, .f32⟩ : BufTy).Contents (Elt Ideal))
  (x6 : (⟨S256x128, .f32⟩ : BufTy).Contents (Elt Ideal)) (x7 : (⟨S128, .f32⟩ : BufTy).Contents (Elt Ideal))

/-! ## The two long lists -/

/-- Row 0 of the edge array, flattened, at position `e`. -/
theorem v2_at (e : Fin 1600000) : val_main_v2 (F := Ideal) x1 (ix1 e) = Cert.Gcn.srcW x1 e := by
  rw [val_main_v2_apply, val_main_v1_apply]
  refine congrArg x1 (funext fun a => Fin.ext ?_)
  match a with
  | ⟨0, _⟩ => rfl
  | ⟨1, _⟩ => exact Nat.mod_eq_of_lt e.isLt

/-- Row 1 of the edge array, flattened, at position `e`. -/
theorem v5_at (e : Fin 1600000) : val_main_v5 (F := Ideal) x1 (ix1 e) = Cert.Gcn.dstW x1 e := by
  rw [val_main_v5_apply, val_main_v4_apply]
  refine congrArg x1 (funext fun a => Fin.ext ?_)
  match a with
  | ⟨0, _⟩ => rfl
  | ⟨1, _⟩ => exact Nat.mod_eq_of_lt e.isLt

/-- A list of 1600000 words followed by the node numbers, at position `e`: the word below 1600000, the number
    `e - 1600000` from there on. -/
theorem join_at (y : (⟨S1600000, .i32⟩ : BufTy).Contents (Elt Ideal)) (e : Fin 1700000) :
    concatenate S1700000 0 [⟨S1600000, y⟩, ⟨S100000, val_main_v0 (F := Ideal)⟩] concatenates_S1600000_S100000_S1700000_d0 (ix1 e)
      = if h : e.val < 1600000 then y (ix1 ⟨e.val, h⟩) else BitVec.ofNat 32 (e.val - 1600000) := by
  by_cases h : e.val < 1600000
  · rw [dif_pos h]
    refine concatenate_pair_apply_left (0 : Fin S1700000.rank) y _ concatenates_S1600000_S100000_S1700000_d0 (ix1 e) rfl
      (ix1 ⟨e.val, h⟩) (fun b => ?_)
    match b with
    | ⟨0, _⟩ => rfl
  · rw [dif_neg h]
    have h2 : e.val - 1600000 < 100000 := by have := e.isLt; omega
    refine (concatenate_pair_apply_right (0 : Fin S1700000.rank) y _ concatenates_S1600000_S100000_S1700000_d0 (ix1 e) rfl rfl
      (ix1 ⟨e.val - 1600000, h2⟩) (fun b hb => ?_) ?_).trans ?_
    · exact absurd (Subsingleton.elim _ _) hb
    · show e.val - 1600000 + 1600000 = e.val
      omega
    · rfl

/-- The long source list. -/
theorem v3_at (e : Fin 1700000) : val_main_v3 (F := Ideal) x1 (ix1 e) = Cert.Gcn.srcL x1 e := by
  unfold val_main_v3 Cert.Gcn.srcL
  rw [join_at]
  by_cases h : e.val < 1600000
  · rw [dif_pos h, dif_pos h, v2_at]
  · rw [dif_neg h, dif_neg h]

/-- The long target list. -/
theorem v6_at (e : Fin 1700000) : val_main_v6 (F := Ideal) x1 (ix1 e) = Cert.Gcn.dstL x1 e := by
  unfold val_main_v6 Cert.Gcn.dstL
  rw [join_at]
  by_cases h : e.val < 1600000
  · rw [dif_pos h, dif_pos h, v5_at]
  · rw [dif_neg h, dif_neg h]

/-! ## The wrapped words and the index columns -/

/-- An index built by cases on the axis is the index of its coordinates. -/
local macro "ix_eq" : tactic =>
  `(tactic| exact funext fun a => Fin.ext (by first | (match a with | ⟨0, _⟩ => rfl | ⟨1, _⟩ => rfl) | (match a with | ⟨0, _⟩ => rfl)))

/-- A negative source word moved up by the node count. -/
theorem v16_at (e : Fin 1700000) : val_main_v16 (F := Ideal) x1 (ix1 e) = Cert.Gcn.wrapW (Cert.Gcn.srcL x1 e) := by
  rw [val_main_v16_apply, val_main_v13_apply, val_main_v15_apply, val_main_v12_apply, val_main_v14_apply,
    val_main_c_apply, val_main_c_1_apply, v3_at]
  rfl

/-- A negative target word moved up by the node count. -/
theorem v23_at (e : Fin 1700000) : val_main_v23 (F := Ideal) x1 (ix1 e) = Cert.Gcn.wrapW (Cert.Gcn.dstL x1 e) := by
  rw [val_main_v23_apply, val_main_v20_apply, val_main_v22_apply, val_main_v19_apply, val_main_v21_apply,
    val_main_c_2_apply, val_main_c_3_apply, v6_at]
  rfl

/-- The source word wrapped once more for the row gather. -/
theorem v32_at (e : Fin 1700000) : val_main_v32 (F := Ideal) x1 (ix1 e) = Cert.Gcn.wrapW (Cert.Gcn.srcL x1 e) := by
  rw [val_main_v32_apply, val_main_v29_apply, val_main_v31_apply, val_main_v28_apply, val_main_v30_apply,
    val_main_c_4_apply, val_main_c_5_apply, v3_at]
  rfl

/-- The index columns hold their list's word at each row. -/
theorem v9_at (e : Fin 1700000) (u : Fin 1) : val_main_v9 (F := Ideal) x1 (ix2 e u) = Cert.Gcn.dstL x1 e := by
  rw [val_main_v9_apply]
  exact (congrArg (val_main_v6 (F := Ideal) x1) (by ix_eq)).trans (v6_at x1 e)

theorem v39_at (e : Fin 1700000) (u : Fin 1) : val_main_v39 (F := Ideal) x1 (ix2 e u) = Cert.Gcn.dstL x1 e := by
  rw [val_main_v39_apply]
  exact (congrArg (val_main_v6 (F := Ideal) x1) (by ix_eq)).trans (v6_at x1 e)

theorem v17_at (e : Fin 1700000) (u : Fin 1) :
    val_main_v17 (F := Ideal) x1 (ix2 e u) = Cert.Gcn.wrapW (Cert.Gcn.srcL x1 e) := by
  rw [val_main_v17_apply]
  exact (congrArg (val_main_v16 (F := Ideal) x1) (by ix_eq)).trans (v16_at x1 e)

theorem v24_at (e : Fin 1700000) (u : Fin 1) :
    val_main_v24 (F := Ideal) x1 (ix2 e u) = Cert.Gcn.wrapW (Cert.Gcn.dstL x1 e) := by
  rw [val_main_v24_apply]
  exact (congrArg (val_main_v23 (F := Ideal) x1) (by ix_eq)).trans (v23_at x1 e)

theorem v33_at (e : Fin 1700000) (u : Fin 1) :
    val_main_v33 (F := Ideal) x1 (ix2 e u) = Cert.Gcn.wrapW (Cert.Gcn.srcL x1 e) := by
  rw [val_main_v33_apply]
  exact (congrArg (val_main_v32 (F := Ideal) x1) (by ix_eq)).trans (v32_at x1 e)

/-! ## Degrees and their inverse square roots -/

/-- The zero splats read zero and the one splat reads one. -/
theorem v8_at (i : S100000.Idx) : val_main_v8 (F := Ideal) i = 0 := by
  rw [val_main_v8_apply, val_main_cst_0_apply]
  exact Ideal.ofBits_zero_f32

theorem v7_at (i : S1700000.Idx) : val_main_v7 (F := Ideal) i = Cert.Gcn.one := by
  rw [val_main_v7_apply, val_main_cst_apply]
  rfl

/-- The count of the long list's entries whose target is node `n`. -/
theorem v10_at (n : Fin 100000) : val_main_v10 (F := Ideal) x1 (ix1 n) = Cert.Gcn.degR x1 n := by
  unfold val_main_v10 Cert.Gcn.degR
  refine (Cert.EdgeIndex.vecScatterAdd_apply (N := 100000) (E := 1700000) (w := 32) _ (val_main_v8 (F := Ideal))
    (val_main_v9 (F := Ideal) x1) (val_main_v7 (F := Ideal)) n).trans ?_
  refine congrArg₂ (· + ·) (v8_at _) (Finset.sum_congr rfl fun e _ => if_congr ?_ (v7_at _) rfl)
  show (val_main_v9 (F := Ideal) x1 (ix2 e (0 : Fin 1))).toInt = (n.val : Int) ↔ _
  rw [v9_at]
  exact Iff.rfl

theorem v11_at (n : Fin 100000) : val_main_v11 (F := Ideal) x1 (ix1 n) = Cert.Gcn.dinvR x1 n := by
  unfold Cert.Gcn.dinvR
  rw [val_main_v11_apply, v10_at, Ideal.hostUnary_rsqrt_def]

/-! ## The normalising factor of each entry -/

theorem row17 (e : Fin 1700000) :
    Cert.EdgeIndex.rowOf (N := 100000) (by omega) (val_main_v17 (F := Ideal) x1) e = Cert.Gcn.rowW (Cert.Gcn.srcL x1 e) := by
  refine Fin.ext ?_
  show min ((val_main_v17 (F := Ideal) x1 (ix2 e (0 : Fin 1))).toInt.toNat) (100000 - 1) = _
  rw [v17_at]
  rfl

theorem row24 (e : Fin 1700000) :
    Cert.EdgeIndex.rowOf (N := 100000) (by omega) (val_main_v24 (F := Ideal) x1) e = Cert.Gcn.rowW (Cert.Gcn.dstL x1 e) := by
  refine Fin.ext ?_
  show min ((val_main_v24 (F := Ideal) x1 (ix2 e (0 : Fin 1))).toInt.toNat) (100000 - 1) = _
  rw [v24_at]
  rfl

theorem row33 (e : Fin 1700000) :
    Cert.EdgeIndex.rowOf (N := 100000) (by omega) (val_main_v33 (F := Ideal) x1) e = Cert.Gcn.rowW (Cert.Gcn.srcL x1 e) := by
  refine Fin.ext ?_
  show min ((val_main_v33 (F := Ideal) x1 (ix2 e (0 : Fin 1))).toInt.toNat) (100000 - 1) = _
  rw [v33_at]
  rfl

/-- The inverse square root of the degree at the entry's source. -/
theorem v18_at (e : Fin 1700000) :
    val_main_v18 (F := Ideal) x1 (ix1 e) = Cert.Gcn.dinvR x1 (Cert.Gcn.rowW (Cert.Gcn.srcL x1 e)) := by
  unfold val_main_v18
  refine (Cert.EdgeIndex.vecGather_apply (N := 100000) (E := 1700000) (w := 32) (by omega) _ (val_main_v11 (F := Ideal) x1)
    (val_main_v17 (F := Ideal) x1) e).trans ?_
  rw [row17, v11_at]

/-- The inverse square root of the degree at the entry's target. -/
theorem v25_at (e : Fin 1700000) :
    val_main_v25 (F := Ideal) x1 (ix1 e) = Cert.Gcn.dinvR x1 (Cert.Gcn.rowW (Cert.Gcn.dstL x1 e)) := by
  unfold val_main_v25
  refine (Cert.EdgeIndex.vecGather_apply (N := 100000) (E := 1700000) (w := 32) (by omega) _ (val_main_v11 (F := Ideal) x1)
    (val_main_v24 (F := Ideal) x1) e).trans ?_
  rw [row24, v11_at]

theorem v26_at (e : Fin 1700000) : val_main_v26 (F := Ideal) x1 (ix1 e) = Cert.Gcn.normR x1 e := by
  rw [val_main_v26_apply, v18_at, v25_at]
  rfl

/-- The factor laid along the 128 lanes of its entry. -/
theorem v36_at (e : Fin 1700000) (j : Fin 128) : val_main_v36 (F := Ideal) x1 (ix2 e j) = Cert.Gcn.normR x1 e := by
  rw [val_main_v36_apply, val_main_v35_apply]
  exact (congrArg (val_main_v26 (F := Ideal) x1) (by ix_eq)).trans (v26_at x1 e)

/-! ## The projected rows, moved along the entries and accumulated -/

theorem v27_at (n : Fin 100000) (j : Fin 128) : val_main_v27 (F := Ideal) x0 x2 (ix2 n j) = Cert.Gcn.H x0 x2 n j := by
  rw [val_main_v27_apply]
  refine Finset.sum_congr rfl fun k _ => ?_
  exact congrArg₂ (· * ·) (congrArg x0 (by ix_eq)) (congrArg x2 (by ix_eq))

/-- The projected row of the entry's source. -/
theorem v34_at (e : Fin 1700000) (j : Fin 128) :
    val_main_v34 (F := Ideal) x0 x1 x2 (ix2 e j) = Cert.Gcn.H x0 x2 (Cert.Gcn.rowW (Cert.Gcn.srcL x1 e)) j := by
  unfold val_main_v34
  refine (Cert.EdgeIndex.rowGather_apply (N := 100000) (D := 128) (E := 1700000) (w := 32) (by omega) _
    (val_main_v27 (F := Ideal) x0 x2) (val_main_v33 (F := Ideal) x1) e j).trans ?_
  rw [row33, v27_at]

theorem v37_at (e : Fin 1700000) (j : Fin 128) :
    val_main_v37 (F := Ideal) x0 x1 x2 (ix2 e j)
      = Cert.Gcn.H x0 x2 (Cert.Gcn.rowW (Cert.Gcn.srcL x1 e)) j * Cert.Gcn.normR x1 e := by
  rw [val_main_v37_apply, v34_at, v36_at]
  rfl

theorem v38_at (i : S100000x128.Idx) : val_main_v38 (F := Ideal) i = 0 := by
  rw [val_main_v38_apply, val_main_cst_6_apply]
  exact Ideal.ofBits_zero_f32

/-- The scaled rows of the entries whose target is node `n`, summed. -/
theorem v40_at (n : Fin 100000) (j : Fin 128) :
    val_main_v40 (F := Ideal) x0 x1 x2 (ix2 n j) = Cert.Gcn.aggR x0 x1 x2 n j := by
  unfold val_main_v40 Cert.Gcn.aggR
  refine (Cert.EdgeIndex.rowScatterAdd_apply (N := 100000) (D := 128) (E := 1700000) (w := 32) _ (val_main_v38 (F := Ideal))
    (val_main_v39 (F := Ideal) x1) (val_main_v37 (F := Ideal) x0 x1 x2) n j).trans ?_
  refine congrArg₂ (· + ·) (v38_at _) (Finset.sum_congr rfl fun e _ => if_congr ?_ (v37_at x0 x1 x2 e j) rfl)
  show (val_main_v39 (F := Ideal) x1 (ix2 e (0 : Fin 1))).toInt = (n.val : Int) ↔ _
  rw [v39_at]
  exact Iff.rfl

/-- A bias vector laid down the rows reads, at `(n, j)`, its entry `j`. -/
theorem v42_at (n : Fin 100000) (j : Fin 128) : val_main_v42 (F := Ideal) x3 (ix2 n j) = x3 (ix1 j) := by
  rw [val_main_v42_apply, val_main_v41_apply]
  exact congrArg x3 (by ix_eq)

theorem v44_at (n : Fin 100000) (j : Fin 128) :
    val_main_v44 (F := Ideal) x0 x1 x2 x3 (ix2 n j) = Cert.Gcn.xlR x0 x1 x2 x3 n j := by
  rw [val_main_v44_apply, val_main_v43_apply, v40_at, v42_at, val_main_call0_v0_apply, val_main_call0_cst_apply]
  show max (_ + _) (Ideal.ofBits .f32 0x00000000#32) = _
  rw [Ideal.ofBits_zero_f32]
  rfl

/-! ## The attention features and their four blocks of lanes -/

theorem v49_at (n : Fin 100000) (q : Fin 256) :
    val_main_v49 (F := Ideal) x0 x4 x5 (ix2 n q) = Cert.Gcn.T x0 x4 x5 n q := by
  unfold Cert.Gcn.T
  rw [val_main_v49_apply, val_main_v48_apply, val_main_v45_apply, val_main_v47_apply, val_main_v46_apply,
    val_main_call1_v0_apply, val_main_call1_cst_apply, Ideal.maximumf_def, Ideal.addf_def, Ideal.ofBits_def,
    Ideal.ofBits_zero_f32]
  refine congrArg₂ max (congrArg₂ (· + ·) (Finset.sum_congr rfl fun k _ => ?_) (congrArg x5 (by ix_eq))) rfl
  exact congrArg₂ (· * ·) (congrArg x0 (by ix_eq)) (congrArg x4 (by ix_eq))

theorem v50_at (n : Fin 100000) (k : Fin 64) :
    val_main_v50 (F := Ideal) x0 x4 x5 (ix2 n k) = Cert.Gcn.T x0 x4 x5 n (Cert.Gcn.lane0 k) := by
  rw [val_main_v50_apply]
  exact (congrArg (val_main_v49 (F := Ideal) x0 x4 x5) (by ix_eq)).trans (v49_at x0 x4 x5 n (Cert.Gcn.lane0 k))

theorem v51_at (n : Fin 100000) (k : Fin 64) :
    val_main_v51 (F := Ideal) x0 x4 x5 (ix2 n k) = Cert.Gcn.T x0 x4 x5 n (Cert.Gcn.lane1 k) := by
  rw [val_main_v51_apply]
  exact (congrArg (val_main_v49 (F := Ideal) x0 x4 x5) (by ix_eq)).trans (v49_at x0 x4 x5 n (Cert.Gcn.lane1 k))

theorem v52_at (n : Fin 100000) (k : Fin 64) :
    val_main_v52 (F := Ideal) x0 x4 x5 (ix2 n k) = Cert.Gcn.T x0 x4 x5 n (Cert.Gcn.lane2 k) := by
  rw [val_main_v52_apply]
  exact (congrArg (val_main_v49 (F := Ideal) x0 x4 x5) (by ix_eq)).trans (v49_at x0 x4 x5 n (Cert.Gcn.lane2 k))

theorem v53_at (n : Fin 100000) (k : Fin 64) :
    val_main_v53 (F := Ideal) x0 x4 x5 (ix2 n k) = Cert.Gcn.T x0 x4 x5 n (Cert.Gcn.lane3 k) := by
  rw [val_main_v53_apply]
  exact (congrArg (val_main_v49 (F := Ideal) x0 x4 x5) (by ix_eq)).trans (v49_at x0 x4 x5 n (Cert.Gcn.lane3 k))

/-- The second block with its axes exchanged. -/
theorem v54_at (k : Fin 64) (n : Fin 100000) :
    val_main_v54 (F := Ideal) x0 x4 x5 (ix2 k n) = Cert.Gcn.T x0 x4 x5 n (Cert.Gcn.lane1 k) := by
  rw [val_main_v54_apply]
  exact (congrArg (val_main_v51 (F := Ideal) x0 x4 x5) (by ix_eq)).trans (v51_at x0 x4 x5 n k)

theorem v61_at (k : Fin 64) (n : Fin 100000) :
    val_main_v61 (F := Ideal) x0 x4 x5 (ix2 k n) = Cert.Gcn.T x0 x4 x5 n (Cert.Gcn.lane1 k) := by
  rw [val_main_v61_apply]
  exact (congrArg (val_main_v51 (F := Ideal) x0 x4 x5) (by ix_eq)).trans (v51_at x0 x4 x5 n k)

theorem v55_at (i : S100000x1.Idx) : val_main_v55 (F := Ideal) i = Cert.Gcn.one := by
  rw [val_main_v55_apply, val_main_cst_7_apply]
  rfl

/-! ## The normalising scalar -/

/-- The second block summed over the nodes, lane by lane. -/
theorem v56_at (k : Fin 64) (u : Fin 1) :
    val_main_v56 (F := Ideal) x0 x4 x5 (ix2 k u) = Cert.Gcn.sumvR x0 x4 x5 k := by
  unfold Cert.Gcn.sumvR
  rw [val_main_v56_apply]
  refine Finset.sum_congr rfl fun n _ => ?_
  exact congrArg₂ (· * ·) ((congrArg (val_main_v54 (F := Ideal) x0 x4 x5) (by ix_eq)).trans (v54_at x0 x4 x5 k n)) (v55_at _)

/-- The first block against those sums. -/
theorem v57_at (n : Fin 100000) (u : Fin 1) :
    val_main_v57 (F := Ideal) x0 x4 x5 (ix2 n u)
      = ∑ k : Fin 64, Cert.Gcn.T x0 x4 x5 n (Cert.Gcn.lane0 k) * Cert.Gcn.sumvR x0 x4 x5 k := by
  rw [val_main_v57_apply]
  refine Finset.sum_congr rfl fun k _ => ?_
  exact congrArg₂ (· * ·) ((congrArg (val_main_v50 (F := Ideal) x0 x4 x5) (by ix_eq)).trans (v50_at x0 x4 x5 n k))
    ((congrArg (val_main_v56 (F := Ideal) x0 x4 x5) (by ix_eq)).trans (v56_at x0 x4 x5 k u))

/-- The reduction of the one-column array over both axes is the sum over the nodes. -/
theorem v58_at (i : S_.Idx) :
    val_main_v58 (F := Ideal) x0 x4 x5 i
      = 0 + ∑ n : Fin 100000, ∑ k : Fin 64, Cert.Gcn.T x0 x4 x5 n (Cert.Gcn.lane0 k) * Cert.Gcn.sumvR x0 x4 x5 k := by
  rw [val_main_v58_apply, val_main_cst_8_apply, Ideal.ofBits_def, Ideal.ofBits_zero_f32]
  refine congrArg (0 + ·) ?_
  refine (sum_idx2 (n0 := 100000) (n1 := 1) (val_main_v57 (F := Ideal) x0 x4 x5)).trans ?_
  refine Finset.sum_congr rfl fun n _ => ?_
  exact (Fintype.sum_unique _).trans (v57_at x0 x4 x5 n default)

theorem v59_at (i : S_.Idx) : val_main_v59 (F := Ideal) x0 x4 x5 i = Cert.Gcn.meanR x0 x4 x5 := by
  unfold Cert.Gcn.meanR Cert.Gcn.big
  rw [val_main_v59_apply, v58_at, val_main_cst_9_apply, Ideal.hostDivf_def, Ideal.ofBits_def]

theorem v60_at (i : S_.Idx) : val_main_v60 (F := Ideal) x0 x4 x5 i = Cert.Gcn.dR x0 x4 x5 := by
  unfold Cert.Gcn.dR Cert.Gcn.one
  rw [val_main_v60_apply, v59_at, val_main_cst_10_apply, Ideal.hostDivf_def, Ideal.ofBits_def]

/-! ## The attention rows -/

theorem v62_at (j k : Fin 64) : val_main_v62 (F := Ideal) x0 x4 x5 (ix2 j k) = Cert.Gcn.mR x0 x4 x5 j k := by
  unfold Cert.Gcn.mR
  rw [val_main_v62_apply]
  refine Finset.sum_congr rfl fun n _ => ?_
  exact congrArg₂ (· * ·) ((congrArg (val_main_v61 (F := Ideal) x0 x4 x5) (by ix_eq)).trans (v61_at x0 x4 x5 j n))
    ((congrArg (val_main_v52 (F := Ideal) x0 x4 x5) (by ix_eq)).trans (v52_at x0 x4 x5 n k))

theorem v63_at (n : Fin 100000) (k : Fin 64) :
    val_main_v63 (F := Ideal) x0 x4 x5 (ix2 n k)
      = ∑ j : Fin 64, Cert.Gcn.T x0 x4 x5 n (Cert.Gcn.lane0 j) * Cert.Gcn.mR x0 x4 x5 j k := by
  rw [val_main_v63_apply]
  refine Finset.sum_congr rfl fun j _ => ?_
  exact congrArg₂ (· * ·) ((congrArg (val_main_v50 (F := Ideal) x0 x4 x5) (by ix_eq)).trans (v50_at x0 x4 x5 n j))
    ((congrArg (val_main_v62 (F := Ideal) x0 x4 x5) (by ix_eq)).trans (v62_at x0 x4 x5 j k))

theorem v65_at (n : Fin 100000) (k : Fin 64) :
    val_main_v65 (F := Ideal) x0 x4 x5 (ix2 n k) = Cert.Gcn.resR x0 x4 x5 n k := by
  unfold Cert.Gcn.resR
  rw [val_main_v65_apply, v63_at, val_main_v64_apply, v60_at, Ideal.mulf_def]

/-! ## The two joins along the lanes, and the result -/

/-- The attention lanes followed by the pass-through lanes. -/
theorem v66_at (n : Fin 100000) (q : Fin 128) :
    val_main_v66 (F := Ideal) x0 x4 x5 (ix2 n q)
      = if h : q.val < 64 then Cert.Gcn.resR x0 x4 x5 n ⟨q.val, h⟩
        else Cert.Gcn.T x0 x4 x5 n ⟨192 + (q.val - 64), by have := q.isLt; omega⟩ := by
  unfold val_main_v66
  by_cases h : q.val < 64
  · rw [dif_pos h]
    refine (concatenate_pair_apply_left (1 : Fin S100000x128.rank) _ _ concatenates_S100000x64_S100000x64_S100000x128_d1
      (ix2 n q) rfl (ix2 n ⟨q.val, h⟩) (fun b => ?_)).trans (v65_at x0 x4 x5 n ⟨q.val, h⟩)
    match b with
    | ⟨0, _⟩ => rfl
    | ⟨1, _⟩ => rfl
  · rw [dif_neg h]
    have h2 : q.val - 64 < 64 := by have := q.isLt; omega
    refine (concatenate_pair_apply_right (1 : Fin S100000x128.rank) _ _ concatenates_S100000x64_S100000x64_S100000x128_d1
      (ix2 n q) rfl rfl (ix2 n ⟨q.val - 64, h2⟩) (fun b hb => ?_) ?_).trans (v53_at x0 x4 x5 n ⟨q.val - 64, h2⟩)
    · have hlt : b.val < 2 := b.isLt
      have hne : b.val ≠ 1 := fun h' => hb (Fin.ext h')
      obtain rfl : b = ⟨0, by decide⟩ := Fin.ext (by show b.val = 0; omega)
      rfl
    · show q.val - 64 + 64 = q.val
      omega

/-- The local lanes, the attention lanes, the pass-through lanes. -/
theorem v67_at (n : Fin 100000) (q : Fin 256) :
    val_main_v67 (F := Ideal) x0 x1 x2 x3 x4 x5 (ix2 n q) = Cert.Gcn.catR x0 x1 x2 x3 x4 x5 n q := by
  unfold val_main_v67 Cert.Gcn.catR
  by_cases h : q.val < 128
  · rw [dif_pos h]
    refine (concatenate_pair_apply_left (1 : Fin S100000x256.rank) _ _ concatenates_S100000x128_S100000x128_S100000x256_d1
      (ix2 n q) rfl (ix2 n ⟨q.val, h⟩) (fun b => ?_)).trans (v44_at x0 x1 x2 x3 n ⟨q.val, h⟩)
    match b with
    | ⟨0, _⟩ => rfl
    | ⟨1, _⟩ => rfl
  · rw [dif_neg h]
    have h2 : q.val - 128 < 128 := by have := q.isLt; omega
    refine (concatenate_pair_apply_right (1 : Fin S100000x256.rank) _ _ concatenates_S100000x128_S100000x128_S100000x256_d1
      (ix2 n q) rfl rfl (ix2 n ⟨q.val - 128, h2⟩) (fun b hb => ?_) ?_).trans ?_
    · have hlt : b.val < 2 := b.isLt
      have hne : b.val ≠ 1 := fun h' => hb (Fin.ext h')
      obtain rfl : b = ⟨0, by decide⟩ := Fin.ext (by show b.val = 0; omega)
      rfl
    · show q.val - 128 + 128 = q.val
      omega
    · by_cases h' : q.val < 192
      · rw [dif_pos h']
        exact (v66_at x0 x4 x5 n ⟨q.val - 128, h2⟩).trans (dif_pos (show q.val - 128 < 64 by omega))
      · rw [dif_neg h']
        refine (v66_at x0 x4 x5 n ⟨q.val - 128, h2⟩).trans ((dif_neg (show ¬ q.val - 128 < 64 by omega)).trans ?_)
        exact congrArg (Cert.Gcn.T x0 x4 x5 n) (Fin.ext (by show 192 + (q.val - 128 - 64) = 192 + (q.val - 192); omega))

theorem v68_at (n : Fin 100000) (c : Fin 128) :
    val_main_v68 (F := Ideal) x0 x1 x2 x3 x4 x5 x6 (ix2 n c)
      = ∑ q : Fin 256, Cert.Gcn.catR x0 x1 x2 x3 x4 x5 n q * x6 (ix2 q c) := by
  rw [val_main_v68_apply]
  refine Finset.sum_congr rfl fun q _ => ?_
  exact congrArg₂ (· * ·)
    ((congrArg (val_main_v67 (F := Ideal) x0 x1 x2 x3 x4 x5) (by ix_eq)).trans (v67_at x0 x1 x2 x3 x4 x5 n q))
    (congrArg x6 (by ix_eq))

theorem v70_at (n : Fin 100000) (c : Fin 128) : val_main_v70 (F := Ideal) x7 (ix2 n c) = x7 (ix1 c) := by
  rw [val_main_v70_apply, val_main_v69_apply]
  exact congrArg x7 (by ix_eq)

/-- The plain program's last stage, at entry `(n, c)`, is the specification's `outR` of the eight arguments. -/
theorem ref_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x256, .f32⟩ : BufTy).Contents (Elt Ideal)) (x5 : (⟨S256, .f32⟩ : BufTy).Contents (Elt Ideal)) (x6 : (⟨S256x128, .f32⟩ : BufTy).Contents (Elt Ideal)) (x7 : (⟨S128, .f32⟩ : BufTy).Contents (Elt Ideal))
    (n : Fin 100000) (c : Fin 128) :
    val_main_v71 (F := Ideal) x0 x1 x2 x3 x4 x5 x6 x7 (ix2 n c) = Cert.Gcn.outR x0 x1 x2 x3 x4 x5 x6 x7 n c := by
  unfold Cert.Gcn.outR
  rw [val_main_v71_apply, v68_at, v70_at, Ideal.addf_def]

end Cert.ReferenceIdeal.RefValue

end
-- ==== Proof.LibRealLaw.lean ====
/-
  Extended reals that are real numbers, and the one law this certificate rests on.

  Both programs score a user against every point of interest by the inner product of the user's preference
  vector `u` (256 entries) with the point's region embedding `r`, scaled by `a`.  One program scales the
  preference vector first and then takes the inner product, `∑ k, (u k * a) * r k`; the other takes the inner
  product and scales the result, `a * ∑ k, u k * r k`.  On the extended reals a factor moves across a sum only
  when no term is infinite, so the law is stated for entries that are real numbers; it is then the ring identity
  `∑ k, (u k * a) * r k = a * ∑ k, u k * r k` in `ℝ`.

  The rest of the file says which operations keep an extended real a real number: products, sums over a finite
  index set, maxima, and the ideal quotient by a divisor that is at least one.
-/
import Idealize.ShloMosaic.PureOps.Ideal
import Idealize.ShloMosaic.PureOps.Ideal.Laws

noncomputable section

namespace Cert.Scores

open Idealize.ShloMosaic

/-- The extended real `x` is a real number (neither infinity). -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} (s : Finset ι) {f : ι → EReal} (h : ∀ i, IsReal (f i)) : IsReal (∑ i ∈ s, f i) := by
  choose g hg using h
  exact ⟨∑ i ∈ s, g i, by rw [coe_sum]; exact Finset.sum_congr rfl fun i _ => hg i⟩

/-- The maximum of a real number and one is a real number that is not zero. -/
theorem max_one_eq (s : ℝ) : max (s : EReal) 1 = ((max s 1 : ℝ) : EReal) := by
  have h := (EReal.coe_strictMono.monotone).map_max (a := s) (b := (1 : ℝ))
  rw [h]; rfl

/-- The ideal quotient of a real number by the maximum of a real number and one is a real number: the divisor is
    a real number at least one, so it is not zero and the quotient is the product with its reciprocal. -/
theorem IsReal.div_max_one {x s : EReal} (hx : IsReal x) (hs : IsReal s) : IsReal (Ideal.div x (max s 1)) := by
  obtain ⟨s', rfl⟩ := hs
  rw [max_one_eq, Ideal.div_coe (ne_of_gt (lt_of_lt_of_le one_pos (le_max_right s' 1)))]
  exact hx.mul (isReal_coe _)

/-- THE LAW.  For real entries, scaling the first factor of every product by `a` scales the inner product by `a`. -/
theorem scaled_inner {n : Nat} (u r : Fin n → EReal) (a : EReal)
    (hu : ∀ k, IsReal (u k)) (hr : ∀ k, IsReal (r k)) (ha : IsReal a) :
    ∑ k : Fin n, (u k * a) * r k = a * ∑ k : Fin n, u k * r k := by
  choose u' hu' using hu
  choose r' hr' using hr
  obtain ⟨a', rfl⟩ := ha
  have hl : ∀ k : Fin n, (u k * (a' : EReal)) * r k = ((u' k * a' * r' k : ℝ) : EReal) := fun k => by
    rw [hu' k, hr' k, EReal.coe_mul, EReal.coe_mul]
  have hr2 : ∀ k : Fin n, u k * r k = ((u' k * r' k : ℝ) : EReal) := fun k => by
    rw [hu' k, hr' k, EReal.coe_mul]
  rw [Finset.sum_congr rfl fun k _ => hl k, Finset.sum_congr rfl fun k _ => hr2 k, ← coe_sum, ← coe_sum,
    ← EReal.coe_mul, Finset.mul_sum]
  exact congrArg _ (Finset.sum_congr rfl fun k _ => by ring)

end Cert.Scores

end
-- ==== Proof.LibBlockSums.lean ====
/-
  Two laws of finite sums in an additive commutative monoid (no finiteness of the values is needed, so they
  hold in the extended reals as they stand): a sum over n·b indices is the sum over the n blocks of the sums
  within each block, and an accumulator that adds one term per step holds the partial sum.
-/
import Idealize.ShloMosaic.PureOps.Ideal
import Mathlib.Algebra.BigOperators.Fin
import Mathlib.Logic.Equiv.Fin.Basic

open scoped BigOperators

namespace Cert.BlockSums

/-- The `j`-th index of block `t`, among `n` blocks of `b` indices each, is below `n * b`. -/
theorem blk_lt {n b : ℕ} (t : Fin n) (j : Fin b) : t.val * b + j.val < n * b :=
  calc t.val * b + j.val < t.val * b + b := Nat.add_lt_add_left j.isLt _
    _ = (t.val + 1) * b := (Nat.succ_mul _ _).symm
    _ ≤ n * b := Nat.mul_le_mul_right b t.isLt

/-- a sum over n·b indices is the sum over n blocks of the sums over each block's b indices -/
theorem sum_blocks {M : Type*} [AddCommMonoid M] (n b : ℕ) (f : Fin (n * b) → M) :
    ∑ i : Fin (n * b), f i = ∑ t : Fin n, ∑ j : Fin b, f ⟨t.val * b + j.val, blk_lt t j⟩ := by
  rw [← Equiv.sum_comp (finProdFinEquiv (m := n) (n := b)) f, Fintype.sum_prod_type]
  refine Finset.sum_congr rfl fun t _ => Finset.sum_congr rfl fun j _ => ?_
  refine congrArg f (Fin.ext ?_)
  show j.val + b * t.val = t.val * b + j.val
  rw [Nat.mul_comm, Nat.add_comm]

/-- 4096 indices are 8 blocks of 512. -/
theorem sum_blocks_4096 {M : Type*} [AddCommMonoid M] (f : Fin 4096 → M) :
    ∑ i : Fin 4096, f i = ∑ t : Fin 8, ∑ j : Fin 512, f ⟨t.val * 512 + j.val, by
      have := t.isLt; have := j.isLt; omega⟩ :=
  sum_blocks 8 512 f

/-- 16384 indices are 16 blocks of 1024. -/
theorem sum_blocks_16384 {M : Type*} [AddCommMonoid M] (f : Fin 16384 → M) :
    ∑ k : Fin 16384, f k = ∑ t : Fin 16, ∑ j : Fin 1024, f ⟨t.val * 1024 + j.val, by
      have := t.isLt; have := j.isLt; omega⟩ :=
  sum_blocks 16 1024 f

/-- an accumulator that starts at zero-plus-first-block and adds one block per step holds the sum of the blocks so far -/
theorem acc_eq_sum {M : Type*} [AddCommMonoid M] (p : ℕ → M) (acc : ℕ → M) (h0 : acc 0 = 0 + p 0)
    (hs : ∀ n, acc (n + 1) = acc n + p (n + 1)) (n : ℕ) :
    acc n = ∑ k ∈ Finset.range (n + 1), p k := by
  induction n with
  | zero => rw [h0, zero_add, Finset.sum_range_one]
  | succ n ih => rw [Finset.sum_range_succ _ (n + 1), hs, ih]

/-- after the last step the accumulator holds the sum of all the blocks -/
theorem acc_last {M : Type*} [AddCommMonoid M] (N : ℕ) (p : ℕ → M) (acc : ℕ → M) (h0 : acc 0 = 0 + p 0)
    (hs : ∀ n, acc (n + 1) = acc n + p (n + 1)) :
    acc N = ∑ t : Fin (N + 1), p t.val := by
  rw [acc_eq_sum p acc h0 hs N, Finset.sum_range]

end Cert.BlockSums
-- ==== Proof.Algebra.lean ====
/-
  The plain formula and the tiled formula are one function of real inputs.

  Both formulas are built from the projected features `H` and the rectified attention features `T`; on real inputs
  `H` is real and `T` is a nonnegative real.  The two constants are the reals 1 and 100000.

  The degree.  A sum over the long list is the sum over the 1600000 edges plus the sum over the 100000 self loops.
  The self-loop word of node `i` read signed is `i`, so among the self loops exactly node `n`'s own is counted for `n`:
  the long count is the edge count plus one.  The edge count is a nonnegative real, so both inverse square roots are
  the same real.

  The aggregation.  A word that is node `n`'s number is not negative, so it is not moved and names row `n`; hence on
  the edges that are accumulated into `n` the second inverse square root is `n`'s own, and the self-loop term is
  `H n j · (d n · d n)`.  For reals the factor `d n` moves out of the finite sum (distributivity in `ℝ`), which is the
  tiled formula `d n · (∑ d src · H src j + d n · H n j)`.

  The attention statistics.  Fifty tiles of 2000 rows are the 100000 rows, so the tiled column sums and the tiled
  64×64 matrix are the plain ones.  The plain mean `(∑ n, ∑ k, T n k · ∑ m, T m (64+k)) / 100000` becomes the tiled
  `∑ k, (∑ n, T n k) / 100000 · ∑ m, T m (64+k)` by exchanging the two sums and moving the real divisor inside.

  The attention rows.  The normalising factor `D` is the quotient of one by that real `s`, and it is infinite when
  `s = 0`.  The claim is `(∑ j, u j · M j k) · D = ∑ j, u j · (M j k · D)`.  When `s ≠ 0`, `D` is real and this is
  distributivity and associativity in `ℝ`.  When `s = 0`: `s` is a sum of products of nonnegative column sums, so for
  every lane `j` the column `j` of the first block or the column `j` of the second block is identically zero; in the
  first case `u j = 0`, in the second `M j k = 0`.  Every product on either side then has a zero factor, and zero times
  any extended real is zero, so both sides are zero.

  The last product.  The 256 rows of the reduction matrix are the blocks of 128, 64 and 64 rows, on which the
  concatenated row is the local row, the attention row and the pass-through lanes; addition of extended reals is
  associative, so the sum over 256 rows is the sum of the three block sums.
-/
import proofs.«109391_j52415780880537_2_alg».proof.Proof.Spec
import proofs.«109391_j52415780880537_2_alg».proof.Proof.LibRealLaw
import proofs.«109391_j52415780880537_2_alg».proof.Proof.LibBlockSums
import Idealize.ShloMosaic.Lib.ValueIdx
import Idealize.ShloMosaic.PureOps.Ideal
import Idealize.ShloMosaic.PureOps.Ideal.Laws

noncomputable section

open Idealize.ShloMosaic Idealize.ShloMosaic.ValueIdx

namespace Cert.Gcn

open Cert.Scores (IsReal)

variable (X : FVec Ideal ⟨2, ![100000, 128]⟩ .f32) (EI : IVec ⟨2, ![2, 1600000]⟩ 32)
  (Wg : FVec Ideal ⟨2, ![128, 128]⟩ .f32) (bg : FVec Ideal ⟨1, ![128]⟩ .f32)
  (Wa : FVec Ideal ⟨2, ![128, 256]⟩ .f32) (ba : FVec Ideal ⟨1, ![256]⟩ .f32)
  (Wr : FVec Ideal ⟨2, ![256, 128]⟩ .f32) (br : FVec Ideal ⟨1, ![128]⟩ .f32)

/-! ## The two constants -/

theorem one_eq : one = 1 := by
  unfold one
  simp [Ideal.ofBits, Ideal.ieee, -EReal.coe_mul]; norm_num

theorem big_eq : big = ((100000 : ℝ) : EReal) := by
  unfold big
  simp [Ideal.ofBits, Ideal.ieee, -EReal.coe_mul]; norm_num

/-! ## Words and nodes -/

/-- A word that is a node's number is not negative, so it is not moved and names that node's row. -/
theorem rowW_of_hits {w : BitVec 32} {n : Fin 100000} (h : hits w n) : rowW w = n := by
  unfold hits at h
  have hn := n.isLt
  have hnot : ¬ (w.toInt < (0#32 : BitVec 32).toInt) := by
    have h0 : (0#32 : BitVec 32).toInt = 0 := by decide
    rw [h0]; omega
  have hw : wrapW w = w := by
    unfold wrapW Scalar.select IntOp.cmpi
    have : BitVec.slt w 0#32 = false := by
      rw [BitVec.slt]; exact decide_eq_false hnot
    simp only [this]
    rfl
  apply Fin.ext
  show min (wrapW w).toInt.toNat (100000 - 1) = n.val
  rw [hw, h]
  omega

/-- The self-loop word of node `i`, read signed, is `i`. -/
theorem toInt_ofNat_node (i : Fin 100000) : (BitVec.ofNat 32 i.val).toInt = (i.val : Int) := by
  have hi := i.isLt
  rw [BitVec.toInt_eq_toNat_cond, BitVec.toNat_ofNat]
  have : i.val % 2 ^ 32 = i.val := Nat.mod_eq_of_lt (by omega)
  rw [this]
  split <;> omega

theorem hits_ofNat_iff (i n : Fin 100000) : hits (BitVec.ofNat 32 i.val) n ↔ i = n := by
  unfold hits
  rw [toInt_ofNat_node]
  constructor
  · intro h; exact Fin.ext (by exact_mod_cast h)
  · intro h; rw [h]

theorem rowW_ofNat (i : Fin 100000) : rowW (BitVec.ofNat 32 i.val) = i :=
  rowW_of_hits ((hits_ofNat_iff i i).mpr rfl)

/-! ## Splitting index ranges -/

/-- The long list is the edges followed by the self loops. -/
theorem sum_long (f : Fin 1700000 → EReal) :
    ∑ e : Fin 1700000, f e
      = (∑ e : Fin 1600000, f ⟨e.val, by have := e.isLt; omega⟩)
        + ∑ i : Fin 100000, f ⟨1600000 + i.val, by have := i.isLt; omega⟩ :=
  Fin.sum_univ_add (a := 1600000) (b := 100000) f

theorem srcL_edge (e : Fin 1600000) : srcL EI ⟨e.val, by have := e.isLt; omega⟩ = srcW EI e := by
  unfold srcL
  rw [dif_pos e.isLt]
theorem dstL_edge (e : Fin 1600000) : dstL EI ⟨e.val, by have := e.isLt; omega⟩ = dstW EI e := by
  unfold dstL
  rw [dif_pos e.isLt]
theorem srcL_loop (i : Fin 100000) :
    srcL EI ⟨1600000 + i.val, by have := i.isLt; omega⟩ = BitVec.ofNat 32 i.val := by
  unfold srcL
  rw [dif_neg (by show ¬ (1600000 + i.val < 1600000); omega)]
  show BitVec.ofNat 32 (1600000 + i.val - 1600000) = _
  rw [Nat.add_sub_cancel_left]
theorem dstL_loop (i : Fin 100000) :
    dstL EI ⟨1600000 + i.val, by have := i.isLt; omega⟩ = BitVec.ofNat 32 i.val := by
  unfold dstL
  rw [dif_neg (by show ¬ (1600000 + i.val < 1600000); omega)]
  show BitVec.ofNat 32 (1600000 + i.val - 1600000) = _
  rw [Nat.add_sub_cancel_left]

/-- The 256 rows of the reduction matrix are its three blocks. -/
theorem sum_256 (f : Fin 256 → EReal) :
    ∑ q : Fin 256, f q
      = ((∑ j : Fin 128, f (rowA j)) + ∑ k : Fin 64, f (rowB k)) + ∑ k : Fin 64, f (rowC k) := by
  have h1 := Fin.sum_univ_add (a := 128) (b := 128) f
  have h2 := Fin.sum_univ_add (a := 64) (b := 64) fun i : Fin 128 => f (Fin.natAdd 128 i)
  refine h1.trans ?_
  rw [add_assoc]
  refine congrArg₂ (· + ·) rfl ?_
  exact h2

/-! ## Real values -/

theorem coe_max_zero (a : ℝ) : max (a : EReal) 0 = ((max a 0 : ℝ) : EReal) := by
  have h := (EReal.coe_strictMono.monotone).map_max (a := a) (b := (0 : ℝ))
  rw [h]; rfl

theorem isReal_H (hX : ∀ i, IsReal (X i)) (hWg : ∀ i, IsReal (Wg i)) (n : Fin 100000) (j : Fin 128) :
    IsReal (H X Wg n j) := by
  unfold H
  exact IsReal.sum _ fun k => (hX _).mul (hWg _)

/-- The rectified attention features are nonnegative reals. -/
theorem T_real (hX : ∀ i, IsReal (X i)) (hWa : ∀ i, IsReal (Wa i)) (hba : ∀ i, IsReal (ba i)) :
    ∃ Tr : Fin 100000 → Fin 256 → ℝ, (∀ n q, T X Wa ba n q = (Tr n q : EReal)) ∧ ∀ n q, 0 ≤ Tr n q := by
  have h : ∀ n q, ∃ a : ℝ, T X Wa ba n q = (a : EReal) ∧ 0 ≤ a := fun n q => by
    have hin : IsReal ((∑ k : Fin 128, X (ix2 n k) * Wa (ix2 k q)) + ba (ix1 q)) :=
      (IsReal.sum _ fun k => (hX _).mul (hWa _)).add (hba _)
    obtain ⟨a, ha⟩ := hin
    exact ⟨max a 0, by unfold T; rw [ha, coe_max_zero], le_max_right _ _⟩
  choose Tr h1 h2 using h
  exact ⟨Tr, h1, h2⟩

/-! ## The degree -/

/-- The number of edges into a node is a nonnegative real. -/
theorem cntK_real (n : Fin 100000) : ∃ c : ℝ, cntK EI n = (c : EReal) ∧ 0 ≤ c := by
  refine ⟨∑ e : Fin 1600000, if hits (dstW EI e) n then (1 : ℝ) else 0, ?_,
    Finset.sum_nonneg fun e _ => by split <;> norm_num⟩
  unfold cntK
  rw [zero_add, Cert.Scores.coe_sum]
  refine Finset.sum_congr rfl fun e _ => ?_
  rw [one_eq]
  by_cases hp : hits (dstW EI e) n
  · rw [if_pos hp, if_pos hp]; rfl
  · rw [if_neg hp, if_neg hp]; rfl

/-- Among the self loops exactly node `n`'s own is counted for `n`. -/
theorem sum_loops (n : Fin 100000) (g : Fin 100000 → EReal) :
    (∑ i : Fin 100000, if hits (BitVec.ofNat 32 i.val) n then g i else 0) = g n := by
  have h : ∀ i : Fin 100000, (if hits (BitVec.ofNat 32 i.val) n then g i else 0) = if i = n then g i else 0 :=
    fun i => if_congr (hits_ofNat_iff i n) rfl rfl
  rw [Finset.sum_congr rfl fun i _ => h i, Finset.sum_ite_eq', if_pos (Finset.mem_univ n)]

/-- Counting over the long list counts the edges and then the node's own self loop. -/
theorem degR_eq (n : Fin 100000) : degR EI n = cntK EI n + one := by
  unfold degR cntK
  rw [sum_long, zero_add, zero_add]
  refine congrArg₂ (· + ·) ?_ ?_
  · exact Finset.sum_congr rfl fun e _ => by rw [dstL_edge]
  · refine Eq.trans (Finset.sum_congr rfl fun i _ => ?_) (sum_loops n fun _ => one)
    rw [dstL_loop]

theorem dinvR_eq (n : Fin 100000) : dinvR EI n = dinvK EI n := by
  unfold dinvR dinvK
  rw [degR_eq]

/-- The inverse square root of a degree (a real at least one) is a real. -/
theorem dinvK_real (n : Fin 100000) : IsReal (dinvK EI n) := by
  obtain ⟨c, hc, hc0⟩ := cntK_real EI n
  have h1 : cntK EI n + one = ((c + 1 : ℝ) : EReal) := by rw [hc, one_eq, EReal.coe_add]; rfl
  unfold dinvK
  rw [h1, Ideal.rsqrt_coe, if_neg (by linarith), if_neg (by linarith)]
  exact ⟨_, rfl⟩

/-! ## The aggregation -/

/-- For reals, the factor `dn` moves out of the sum over the edges: each edge term `a · (b · dn)` is `dn · (b · a)`,
    and the self-loop term `hn · (dn · dn)` is `dn · (dn · hn)`. -/
theorem agg_law {ι : Type} [Fintype ι] (p : ι → Prop) [DecidablePred p] (a b : ι → EReal) (dn hn : EReal)
    (ha : ∀ i, IsReal (a i)) (hb : ∀ i, IsReal (b i)) (hdn : IsReal dn) (hhn : IsReal hn) :
    0 + ((∑ e, if p e then a e * (b e * dn) else 0) + hn * (dn * dn))
      = dn * ((0 + ∑ e, if p e then b e * a e else 0) + dn * hn) := by
  choose a' ha' using ha
  choose b' hb' using hb
  obtain ⟨d, rfl⟩ := hdn
  obtain ⟨h, rfl⟩ := hhn
  have hl : ∀ e, (if p e then a e * (b e * (d : EReal)) else 0)
      = ((if p e then a' e * (b' e * d) else 0 : ℝ) : EReal) := fun e => by
    rw [ha' e, hb' e]
    by_cases hp : p e
    · rw [if_pos hp, if_pos hp, EReal.coe_mul, EReal.coe_mul]
    · rw [if_neg hp, if_neg hp]; rfl
  have hr : ∀ e, (if p e then b e * a e else 0) = ((if p e then b' e * a' e else 0 : ℝ) : EReal) := fun e => by
    rw [ha' e, hb' e]
    by_cases hp : p e
    · rw [if_pos hp, if_pos hp, EReal.coe_mul]
    · rw [if_neg hp, if_neg hp]; rfl
  rw [Finset.sum_congr rfl fun e _ => hl e, Finset.sum_congr rfl fun e _ => hr e, ← Cert.Scores.coe_sum,
    ← Cert.Scores.coe_sum, zero_add, zero_add]
  calc _ = (((∑ e, if p e then a' e * (b' e * d) else 0) + h * (d * d) : ℝ) : EReal) := by
          simp only [EReal.coe_mul, EReal.coe_add]
    _ = ((d * ((∑ e, if p e then b' e * a' e else 0) + d * h) : ℝ) : EReal) := by
          refine congrArg _ ?_
          rw [mul_add, Finset.mul_sum]
          refine congrArg₂ (· + ·) (Finset.sum_congr rfl fun e _ => ?_) (by ring)
          by_cases hp : p e
          · rw [if_pos hp, if_pos hp]; ring
          · rw [if_neg hp, if_neg hp, mul_zero]
    _ = _ := by simp only [EReal.coe_mul, EReal.coe_add]

theorem normR_edge (e : Fin 1600000) :
    normR EI ⟨e.val, by have := e.isLt; omega⟩ = dinvK EI (rowW (srcW EI e)) * dinvK EI (rowW (dstW EI e)) := by
  unfold normR
  rw [srcL_edge, dstL_edge, dinvR_eq, dinvR_eq]

theorem normR_loop (i : Fin 100000) :
    normR EI ⟨1600000 + i.val, by have := i.isLt; omega⟩ = dinvK EI i * dinvK EI i := by
  unfold normR
  rw [srcL_loop, dstL_loop, rowW_ofNat, dinvR_eq]

/-- The plain aggregation is the tiled one: the edge terms, then the node's own row. -/
theorem aggR_eq (hX : ∀ i, IsReal (X i)) (hWg : ∀ i, IsReal (Wg i)) (n : Fin 100000) (j : Fin 128) :
    aggR X EI Wg n j = dinvK EI n * (aggK X EI Wg n j + hsK X EI Wg n j) := by
  have hE : ∀ e : Fin 1600000,
      (if hits (dstL EI ⟨e.val, by have := e.isLt; omega⟩) n
        then H X Wg (rowW (srcL EI ⟨e.val, by have := e.isLt; omega⟩)) j * normR EI ⟨e.val, by have := e.isLt; omega⟩
        else 0)
      = if hits (dstW EI e) n
          then H X Wg (rowW (srcW EI e)) j * (dinvK EI (rowW (srcW EI e)) * dinvK EI n) else 0 := fun e => by
    rw [dstL_edge, srcL_edge, normR_edge]
    by_cases hp : hits (dstW EI e) n
    · rw [if_pos hp, if_pos hp, rowW_of_hits hp]
    · rw [if_neg hp, if_neg hp]
  have hS : ∀ i : Fin 100000,
      (if hits (dstL EI ⟨1600000 + i.val, by have := i.isLt; omega⟩) n
        then H X Wg (rowW (srcL EI ⟨1600000 + i.val, by have := i.isLt; omega⟩)) j
          * normR EI ⟨1600000 + i.val, by have := i.isLt; omega⟩
        else 0)
      = if hits (BitVec.ofNat 32 i.val) n then H X Wg i j * (dinvK EI i * dinvK EI i) else 0 := fun i => by
    rw [dstL_loop, srcL_loop, normR_loop, rowW_ofNat]
  unfold aggR
  rw [sum_long, Finset.sum_congr rfl fun e _ => hE e, Finset.sum_congr rfl fun i _ => hS i,
    sum_loops n fun i => H X Wg i j * (dinvK EI i * dinvK EI i)]
  unfold aggK hsK
  exact agg_law (fun e => hits (dstW EI e) n) (fun e => H X Wg (rowW (srcW EI e)) j)
    (fun e => dinvK EI (rowW (srcW EI e))) (dinvK EI n) (H X Wg n j)
    (fun e => isReal_H X Wg hX hWg _ _) (fun e => dinvK_real EI _) (dinvK_real EI n) (isReal_H X Wg hX hWg n j)

theorem xlR_eq (hX : ∀ i, IsReal (X i)) (hWg : ∀ i, IsReal (Wg i)) (n : Fin 100000) (j : Fin 128) :
    xlR X EI Wg bg n j = xlK X EI Wg bg n j := by
  unfold xlR xlK
  rw [aggR_eq X EI Wg hX hWg]

/-! ## The attention statistics -/

/-- Fifty tiles of 2000 rows are the 100000 rows. -/
theorem sum_tiles (f : Fin 100000 → EReal) :
    ∑ t : Fin 50, ∑ r : Fin 2000, f (tileRow t r) = ∑ n : Fin 100000, f n :=
  (Cert.BlockSums.sum_blocks 50 2000 f).symm

theorem colK_lo (k : Fin 64) :
    colK X Wa ba ⟨k.val, by have := k.isLt; omega⟩ = ∑ n : Fin 100000, T X Wa ba n (lane0 k) := by
  unfold colK
  rw [zero_add]
  exact sum_tiles fun n => T X Wa ba n (lane0 k)

theorem colK_hi (k : Fin 64) :
    colK X Wa ba ⟨64 + k.val, by have := k.isLt; omega⟩ = ∑ n : Fin 100000, T X Wa ba n (lane1 k) := by
  unfold colK
  rw [zero_add]
  exact sum_tiles fun n => T X Wa ba n (lane1 k)

theorem mK_eq (j k : Fin 64) : mK X Wa ba j k = mR X Wa ba j k := by
  unfold mK mR
  rw [zero_add]
  exact sum_tiles fun n => T X Wa ba n (lane1 j) * T X Wa ba n (lane2 k)

/-- A column sum of real features is the real column sum. -/
theorem colT_real (Tr : Fin 100000 → Fin 256 → ℝ) (hT : ∀ n q, T X Wa ba n q = (Tr n q : EReal)) (q : Fin 256) :
    ∑ n : Fin 100000, T X Wa ba n q = ((∑ n : Fin 100000, Tr n q : ℝ) : EReal) := by
  rw [Cert.Scores.coe_sum]
  exact Finset.sum_congr rfl fun n _ => hT n q

/-- The tiled program's normalising sum as a real: the mean of the first block's column sums against the second's. -/
theorem sK_real (Tr : Fin 100000 → Fin 256 → ℝ) (hT : ∀ n q, T X Wa ba n q = (Tr n q : EReal)) :
    sK X Wa ba
      = ((∑ k : Fin 64, (∑ n : Fin 100000, Tr n (lane0 k)) * (1 / 100000) * ∑ n : Fin 100000, Tr n (lane1 k) : ℝ)
          : EReal) := by
  unfold sK
  rw [zero_add, Cert.Scores.coe_sum]
  refine Finset.sum_congr rfl fun k _ => ?_
  rw [colK_lo, colK_hi, colT_real X Wa ba Tr hT, colT_real X Wa ba Tr hT, big_eq,
    Ideal.div_coe (by norm_num), ← EReal.coe_mul, ← EReal.coe_mul]

/-- The plain program's mean is the same real: the two sums are exchanged and the division moves inside. -/
theorem meanR_eq_sK (Tr : Fin 100000 → Fin 256 → ℝ) (hT : ∀ n q, T X Wa ba n q = (Tr n q : EReal)) :
    meanR X Wa ba = sK X Wa ba := by
  rw [sK_real X Wa ba Tr hT]
  unfold meanR
  have hs : ∀ k : Fin 64, sumvR X Wa ba k = ((∑ n : Fin 100000, Tr n (lane1 k) : ℝ) : EReal) := fun k => by
    unfold sumvR
    rw [one_eq, Finset.sum_congr rfl fun n _ => mul_one _]
    exact colT_real X Wa ba Tr hT _
  have hin : (0 + ∑ n : Fin 100000, ∑ k : Fin 64, T X Wa ba n (lane0 k) * sumvR X Wa ba k)
      = ((∑ n : Fin 100000, ∑ k : Fin 64, Tr n (lane0 k) * ∑ m : Fin 100000, Tr m (lane1 k) : ℝ) : EReal) := by
    rw [zero_add, Cert.Scores.coe_sum]
    refine Finset.sum_congr rfl fun n _ => ?_
    rw [Cert.Scores.coe_sum]
    refine Finset.sum_congr rfl fun k _ => ?_
    rw [hT, hs, EReal.coe_mul]
  rw [hin, big_eq, Ideal.div_coe (by norm_num), ← EReal.coe_mul]
  refine congrArg _ ?_
  rw [Finset.sum_comm, Finset.sum_mul]
  refine Finset.sum_congr rfl fun k _ => ?_
  rw [← Finset.sum_mul]
  ring

/-- For reals the normalising factor moves inside the sum over the 64 lanes. -/
theorem res_law_real (u m : Fin 64 → EReal) (D : EReal) (hu : ∀ j, IsReal (u j)) (hm : ∀ j, IsReal (m j))
    (hD : IsReal D) : (∑ j, u j * m j) * D = ∑ j, u j * (m j * D) := by
  choose u' hu' using hu
  choose m' hm' using hm
  obtain ⟨d, rfl⟩ := hD
  have hl : ∀ j, u j * m j = ((u' j * m' j : ℝ) : EReal) := fun j => by rw [hu' j, hm' j, EReal.coe_mul]
  have hr : ∀ j, u j * (m j * (d : EReal)) = ((u' j * (m' j * d) : ℝ) : EReal) := fun j => by
    rw [hu' j, hm' j, EReal.coe_mul, EReal.coe_mul]
  rw [Finset.sum_congr rfl fun j _ => hl j, Finset.sum_congr rfl fun j _ => hr j, ← Cert.Scores.coe_sum,
    ← Cert.Scores.coe_sum, ← EReal.coe_mul, Finset.sum_mul]
  exact congrArg _ (Finset.sum_congr rfl fun j _ => by ring)

/-- When every product `u j · m j` has a zero factor both sides are zero, whatever the factor `D` (infinite or not):
    zero times any extended real is zero. -/
theorem res_law_zero (u m : Fin 64 → EReal) (D : EReal) (h : ∀ j, u j = 0 ∨ m j = 0) :
    (∑ j, u j * m j) * D = ∑ j, u j * (m j * D) := by
  have h1 : ∀ j, u j * m j = 0 := fun j => by
    rcases h j with h | h
    · rw [h, zero_mul]
    · rw [h, mul_zero]
  have h2 : ∀ j, u j * (m j * D) = 0 := fun j => by
    rcases h j with h | h
    · rw [h, zero_mul]
    · rw [h, zero_mul, mul_zero]
  rw [Finset.sum_congr rfl fun j _ => h1 j, Finset.sum_congr rfl fun j _ => h2 j, Finset.sum_const_zero, zero_mul]

/-- A sum of nonnegative reals that is zero has every term zero. -/
theorem col_zero (Tr : Fin 100000 → Fin 256 → ℝ) (hT0 : ∀ n q, 0 ≤ Tr n q) (q : Fin 256)
    (h : ∑ n : Fin 100000, Tr n q = 0) (n : Fin 100000) : Tr n q = 0 :=
  (Finset.sum_eq_zero_iff_of_nonneg fun i _ => hT0 i q).mp h n (Finset.mem_univ n)

/-- The attention rows agree.  The normalising factor is the reciprocal of a real `s`.  If `s ≠ 0` it is a real and
    moves inside the sum.  If `s = 0`, a sum of nonnegative products of column sums, then for each lane `j` either the
    column `j` of the first block or the column `j` of the second block is identically zero, so every product of the
    sum has a zero factor. -/
theorem resR_eq (Tr : Fin 100000 → Fin 256 → ℝ) (hT : ∀ n q, T X Wa ba n q = (Tr n q : EReal))
    (hT0 : ∀ n q, 0 ≤ Tr n q) (n : Fin 100000) (k : Fin 64) : resR X Wa ba n k = resK X Wa ba n k := by
  have hD : dR X Wa ba = dnK X Wa ba := by
    unfold dR dnK
    rw [meanR_eq_sK X Wa ba Tr hT]
  have hmr : ∀ j : Fin 64, mR X Wa ba j k
      = ((∑ m : Fin 100000, Tr m (lane1 j) * Tr m (lane2 k) : ℝ) : EReal) := fun j => by
    unfold mR
    rw [Cert.Scores.coe_sum]
    exact Finset.sum_congr rfl fun m _ => by rw [hT, hT, EReal.coe_mul]
  have key : (∑ j : Fin 64, T X Wa ba n (lane0 j) * mR X Wa ba j k) * dnK X Wa ba
      = ∑ j : Fin 64, T X Wa ba n (lane0 j) * (mR X Wa ba j k * dnK X Wa ba) := by
    by_cases hs : (∑ k : Fin 64, (∑ n : Fin 100000, Tr n (lane0 k)) * (1 / 100000)
        * ∑ n : Fin 100000, Tr n (lane1 k) : ℝ) = 0
    · refine res_law_zero (fun j => T X Wa ba n (lane0 j)) (fun j => mR X Wa ba j k) _ fun j => ?_
      have hterm := (Finset.sum_eq_zero_iff_of_nonneg fun i _ =>
        mul_nonneg (mul_nonneg (Finset.sum_nonneg fun m _ => hT0 m (lane0 i)) (by norm_num))
          (Finset.sum_nonneg fun m _ => hT0 m (lane1 i))).mp hs j (Finset.mem_univ j)
      rcases mul_eq_zero.mp hterm with h | h
      · rcases mul_eq_zero.mp h with h | h
        · left
          show T X Wa ba n (lane0 j) = 0
          rw [hT, col_zero Tr hT0 _ h n]; rfl
        · exact absurd h (by norm_num)
      · right
        show mR X Wa ba j k = 0
        rw [hmr, Finset.sum_congr rfl fun m _ => by rw [col_zero Tr hT0 _ h m, zero_mul], Finset.sum_const_zero]
        rfl
    · refine res_law_real (fun j => T X Wa ba n (lane0 j)) (fun j => mR X Wa ba j k) _
        (fun j => ⟨_, hT n _⟩) (fun j => ⟨_, hmr j⟩) ?_
      unfold dnK
      rw [sK_real X Wa ba Tr hT, one_eq, Ideal.div_coe hs]
      exact Cert.Scores.isReal_one.mul (Cert.Scores.isReal_coe _)
  unfold resR resK msK
  rw [hD, key]
  exact Finset.sum_congr rfl fun j _ => by rw [mK_eq]

/-! ## The concatenated row and the last product -/

theorem catR_rowA (n : Fin 100000) (j : Fin 128) : catR X EI Wg bg Wa ba n (rowA j) = xlR X EI Wg bg n j := by
  unfold catR
  exact dif_pos (show (rowA j).val < 128 from j.isLt)

theorem catR_rowB (n : Fin 100000) (k : Fin 64) : catR X EI Wg bg Wa ba n (rowB k) = resR X Wa ba n k := by
  have hk := k.isLt
  unfold catR
  rw [dif_neg (show ¬ (rowB k).val < 128 by show ¬ (128 + k.val < 128); omega),
    dif_pos (show (rowB k).val < 192 by show 128 + k.val < 192; omega)]
  refine congrArg (resR X Wa ba n) (Fin.ext ?_)
  show 128 + k.val - 128 = k.val
  omega

theorem catR_rowC (n : Fin 100000) (k : Fin 64) : catR X EI Wg bg Wa ba n (rowC k) = T X Wa ba n (lane3 k) := by
  have hk := k.isLt
  unfold catR
  rw [dif_neg (show ¬ (rowC k).val < 128 by show ¬ (192 + k.val < 128); omega),
    dif_neg (show ¬ (rowC k).val < 192 by show ¬ (192 + k.val < 192); omega)]
  refine congrArg (T X Wa ba n) (Fin.ext ?_)
  show 192 + (192 + k.val - 192) = 192 + k.val
  omega

/-- On real (finite) float inputs the plain program's formula and the tiled program's formula agree at every entry. -/
theorem outR_eq_outK (hX : ∀ i, IsReal (X i)) (hWg : ∀ i, IsReal (Wg i)) (hbg : ∀ i, IsReal (bg i))
    (hWa : ∀ i, IsReal (Wa i)) (hba : ∀ i, IsReal (ba i)) (hWr : ∀ i, IsReal (Wr i)) (hbr : ∀ i, IsReal (br i))
    (n : Fin 100000) (c : Fin 128) :
    outR X EI Wg bg Wa ba Wr br n c = outK X EI Wg bg Wa ba Wr br n c := by
  obtain ⟨Tr, hT, hT0⟩ := T_real X Wa ba hX hWa hba
  unfold outR outK
  rw [sum_256]
  refine congrArg (· + br (ix1 c)) ?_
  refine congrArg₂ (· + ·) (congrArg₂ (· + ·) ?_ ?_) ?_
  · exact Finset.sum_congr rfl fun j _ => by rw [catR_rowA, xlR_eq X EI Wg bg hX hWg]
  · exact Finset.sum_congr rfl fun k _ => by rw [catR_rowB, resR_eq X Wa ba Tr hT hT0]
  · exact Finset.sum_congr rfl fun k _ => by rw [catR_rowC]

end Cert.Gcn

end
-- ==== Proof.Finite.lean ====
/-
  The finiteness predicate asks of each float input that every entry's absolute value lie strictly below plus infinity, and takes the conjunction of the seven answers.
  On the extended reals the absolute value `max x (-x)` of either infinity is the top element, so an entry passing the comparison is neither infinity: it is a real number.
-/
import proofs.«109391_j52415780880537_2_alg».proof.Proof.Gen.Pre_finite_inputs
import proofs.«109391_j52415780880537_2_alg».proof.Proof.LibRealLaw
import Idealize.ShloMosaic.Lib.ReduceAll
import Idealize.ShloMosaic.Lib.ValueIdx
import Idealize.ShloMosaic.PureOps.Ideal
import Idealize.ShloMosaic.PureOps.Ideal.Laws

noncomputable section

open Idealize.ShloMosaic Idealize.ShloMosaic.ValueIdx

namespace Cert.Pre_finite_inputs.Real

open Cert.Pre_finite_inputs
open Cert.Scores (IsReal)

/-- The result shape of a reduction over every axis has exactly one index. -/
instance : Subsingleton S_.Idx := ⟨fun a b => funext fun d => d.elim0⟩

/-- An extended real whose absolute value `max x (-x)` lies strictly below the top element is a real number:
    for either infinity one of `x`, `-x` is the top element. -/
theorem isReal_of_abs_lt_top (x : EReal) (h : max x (-x) < ⊤) : IsReal x := by
  induction x using EReal.rec with
  | bot => simp at h
  | top => simp at h
  | coe r => exact ⟨r, rfl⟩

/-- The word `0x7F800000` denotes plus infinity, the top element. -/
theorem inf_word : Ideal.ofBits .f32 0x7F800000#32 = ⊤ := by simp [Ideal.ofBits, Ideal.ieee]

/-- An entry at which the comparison `|x| < +inf` answers one is a real number. -/
theorem entry_real (x : Ideal .f32)
    (h : FloatOps.cmpf (F := Ideal) .olt (FloatOps.hostAbsf (F := Ideal) x) (FloatOps.ofBits (F := Ideal) .f32 0x7F800000#32) = 1#1) :
    IsReal x := by
  refine isReal_of_abs_lt_top x ?_
  have h' : Ideal.cmp .olt (max x (-x)) (Ideal.ofBits .f32 0x7F800000#32) = 1#1 := h
  rw [inf_word] at h'
  unfold Ideal.cmp at h'
  by_contra hn
  simp [hn] at h'

/-- Where the conjunction over every index of `|x| < +inf` answers one, every entry of `x` is a real number:
    a conjunction that is one is one at each index. -/
theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant (F := Ideal) S_ .f32 0x7F800000#32)))
          (constantI S_ 1 1#1) hr hu ix0 = 1#1) (i : s.Idx) : IsReal (x i) :=
  entry_real (x i) (Host.reduce_andi_all _ _ hr hu ix0 e i)

/-- Where the finiteness predicate answers all ones, every entry of each of the seven float inputs is a real number. -/
theorem real_of_pre [Cert.Pre_finite_inputs.Facts]
    (x0 : FVec Ideal S100000x128 .f32) (x1 : IVec S2x1600000 32) (x2 : FVec Ideal S128x128 .f32) (x3 : FVec Ideal S128 .f32)
    (x4 : FVec Ideal S128x256 .f32) (x5 : FVec Ideal S256 .f32) (x6 : FVec Ideal S256x128 .f32) (x7 : FVec Ideal S128 .f32)
    (h : Cert.Pre_finite_inputs.fn (F := Ideal) x0 x1 x2 x3 x4 x5 x6 x7 = fun _ => 1#1) :
    (∀ i, IsReal (x0 i)) ∧ (∀ i, IsReal (x2 i)) ∧ (∀ i, IsReal (x3 i)) ∧ (∀ i, IsReal (x4 i)) ∧ (∀ i, IsReal (x5 i))
      ∧ (∀ i, IsReal (x6 i)) ∧ (∀ i, IsReal (x7 i)) := by
  have h0 := congrFun h ix0
  dsimp only [fn, fn_part1] at h0
  simp only [andi, IntOp.andi_eq_one] at h0
  obtain ⟨⟨⟨⟨⟨⟨e0, e2⟩, e3⟩, e4⟩, e5⟩, e6⟩, e7⟩ := h0
  exact ⟨all_real x0 _ _ _ e0, all_real x2 _ _ _ e2, all_real x3 _ _ _ e3, all_real x4 _ _ _ e4,
    all_real x5 _ _ _ e5, all_real x6 _ _ _ e6, all_real x7 _ _ _ e7⟩

end Cert.Pre_finite_inputs.Real

end
-- ==== Proof.lean ====
/-
  The certificate's five claims.

  Frames: the word-level program and its idealization by their frame runs; the plain program by its run with the result
  dropped.  The idealization rewrote nothing.  The value claim: over the extended reals the tiled program ends with
  `outK` of its arguments at every entry (the two tiled regions and the host terms between them, read entry by entry),
  the plain program with `outR`; the precondition makes every float input a real number, and on real inputs the two
  formulas are one function: the degree count splits into the edges and the self loops, the inverse-root degrees move
  through the edge sums, the tile sums add up to the whole sums, and the normalising scalar moves across the product
  (where it is infinite both sides vanish).
-/
import proofs.«109391_j52415780880537_2_alg».proof.Defs
import proofs.«109391_j52415780880537_2_alg».proof.Proof.Gen.Kernel
import proofs.«109391_j52415780880537_2_alg».proof.Proof.Gen.Kernel.Skeleton
import proofs.«109391_j52415780880537_2_alg».proof.Proof.Gen.Kernel.Launch
import proofs.«109391_j52415780880537_2_alg».proof.Proof.Gen.Kernel.Points
import proofs.«109391_j52415780880537_2_alg».proof.Proof.Gen.Kernel.Frame
import proofs.«109391_j52415780880537_2_alg».proof.Proof.Gen.KernelIdeal
import proofs.«109391_j52415780880537_2_alg».proof.Proof.Gen.KernelIdeal.Skeleton
import proofs.«109391_j52415780880537_2_alg».proof.Proof.Gen.KernelIdeal.Launch
import proofs.«109391_j52415780880537_2_alg».proof.Proof.Gen.KernelIdeal.Points
import proofs.«109391_j52415780880537_2_alg».proof.Proof.Gen.KernelIdeal.Frame
import proofs.«109391_j52415780880537_2_alg».proof.Proof.Gen.ReferenceIdeal
import proofs.«109391_j52415780880537_2_alg».proof.Proof.Gen.Pre_finite_inputs
import proofs.«109391_j52415780880537_2_alg».proof.Proof.Gen.ReferenceIdeal.Run
import proofs.«109391_j52415780880537_2_alg».proof.Proof.Gen.ReferenceIdeal.Read
import proofs.«109391_j52415780880537_2_alg».proof.Proof.RunValue
import proofs.«109391_j52415780880537_2_alg».proof.Proof.KernelValue
import proofs.«109391_j52415780880537_2_alg».proof.Proof.RefValue
import proofs.«109391_j52415780880537_2_alg».proof.Proof.Algebra
import proofs.«109391_j52415780880537_2_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end, from memories agreeing on the arguments, with the same array: `outK` of the arguments on
    the tiled side, `outR` on the plain side, one function of real inputs. -/
theorem algebraic : Cert.algebraic_KernelIdeal_ReferenceIdeal := by
  intro m ρ m' ρ' hpre hagree
  refine ⟨fun c => Cert.KernelIdeal.Tile.oOut (Cert.KernelIdeal.Gen.V3 m ρ) c, ?_, ?_⟩
  · exact (θ_run Cert.KernelIdeal.defs _ _).mono
      (fun r h c => ⟨(h c).1.trans (Cert.KernelIdeal.Whole.W4_result m ρ c), (h c).2⟩)
      (Cert.KernelIdeal.RunValue.run_value (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7⟩ := hagree c
    rw [Cert.ReferenceIdeal.Read.val_main_v71_eq, a0, a1, a2, a3, a4, a5, a6, a7]
    obtain ⟨h0, h2, h3, h4, h5, h6, h7⟩ := Cert.Pre_finite_inputs.Real.real_of_pre _ _ _ _ _ _ _ _ (hpre c)
    funext i
    obtain ⟨n, d, rfl⟩ : ∃ (n : Fin 100000) (d : Fin 128), i = ix2 n d := ⟨i 0, i 1, eq_ix2 i⟩
    rw [Cert.ReferenceIdeal.RefValue.ref_eq]
    exact (Cert.Gcn.outR_eq_outK _ _ _ _ _ _ _ _ h0 h2 h3 h4 h5 h6 h7 n d).trans
      (Cert.KernelIdeal.Whole.kernel_value m ρ c n d).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
